-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v8_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x4096x2048 : Shape := ⟨3, ![2, 4096, 2048]⟩
abbrev S2x2048x4096 : Shape := ⟨3, ![2, 2048, 4096]⟩
abbrev S2x512x128 : Shape := ⟨3, ![2, 512, 128]⟩
abbrev S2x1024x128 : Shape := ⟨3, ![2, 1024, 128]⟩
abbrev S128x128 : Shape := ⟨2, ![128, 128]⟩
abbrev S128 : Shape := ⟨1, ![128]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S2x2048x4096 : S_.BroadcastsInDim S2x2048x4096 (![] : Fin 0 → Fin S2x2048x4096.rank)
  reducesTo_S2x2048x4096_S_d0_1_2 : S2x2048x4096.ReducesTo [0, 1, 2] S_
  bcast_S_S2x512x128 : S_.BroadcastsInDim S2x512x128 (![] : Fin 0 → Fin S2x512x128.rank)
  reducesTo_S2x512x128_S_d0_1_2 : S2x512x128.ReducesTo [0, 1, 2] S_
  bcast_S_S2x1024x128 : S_.BroadcastsInDim S2x1024x128 (![] : Fin 0 → Fin S2x1024x128.rank)
  reducesTo_S2x1024x128_S_d0_1_2 : S2x1024x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S2x1024x128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S2x512x128 1) : IVec S_ 1 :=
  let main_c_5 : IVec S_ 1 := constantI S_ 1 1#1
  let main_v17 : IVec S_ 1 := (fun x v => Host.reduce IntOp.andi x v reducesTo_S2x512x128_S_d0_1_2 h_S_) main_v16 main_c_5
  let main_v18 : IVec S_ 1 := andi main_v13 main_v17
  let main_v19 : FVec F S2x1024x128 .f32 := Host.absf main_arg4
  let main_cst_6 : FVec F S_ .f32 := constant S_ .f32 0x7F800000#32
  let main_v20 : FVec F S2x1024x128 .f32 := broadcastInDim S2x1024x128 ![] bcast_S_S2x1024x128 main_cst_6
  let main_v21 : IVec S2x1024x128 1 := cmpf .olt main_v19 main_v20
  let main_c_7 : IVec S_ 1 := constantI S_ 1 1#1
  let main_v22 : IVec S_ 1 := (fun x v => Host.reduce IntOp.andi x v reducesTo_S2x1024x128_S_d0_1_2 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2x512x512 .f32) (main_arg1 : FVec F S2x4096x2048 .f32) (main_arg2 : FVec F S2x2048x4096 .f32) (main_arg3 : FVec F S2x512x128 .f32) (main_arg4 : FVec F S2x1024x128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x4096x2048 .f32 := Host.absf main_arg1
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_c_1 : IVec S_ 1 := constantI S_ 1 1#1
  let main_v7 : IVec S_ 1 := (fun x v => Host.reduce IntOp.andi x v reducesTo_S2x4096x2048_S_d0_1_2 h_S_) main_v6 main_c_1
  let main_v8 : IVec S_ 1 := andi main_v3 main_v7
  let main_v9 : FVec F S2x2048x4096 .f32 := Host.absf main_arg2
  let main_cst_2 : FVec F S_ .f32 := constant S_ .f32 0x7F800000#32
  let main_v10 : FVec F S2x2048x4096 .f32 := broadcastInDim S2x2048x4096 ![] bcast_S_S2x2048x4096 main_cst_2
  let main_v11 : IVec S2x2048x4096 1 := cmpf .olt main_v9 main_v10
  let main_c_3 : IVec S_ 1 := constantI S_ 1 1#1
  let main_v12 : IVec S_ 1 := (fun x v => Host.reduce IntOp.andi x v reducesTo_S2x2048x4096_S_d0_1_2 h_S_) main_v11 main_c_3
  let main_v13 : IVec S_ 1 := andi main_v8 main_v12
  let main_v14 : FVec F S2x512x128 .f32 := Host.absf main_arg3
  let main_cst_4 : FVec F S_ .f32 := constant S_ .f32 0x7F800000#32
  let main_v15 : FVec F S2x512x128 .f32 := broadcastInDim S2x512x128 ![] bcast_S_S2x512x128 main_cst_4
  let main_v16 : IVec S2x512x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2x512x512 : Shape := ⟨3, ![2, 512, 512]⟩
abbrev S2x4096x2048 : Shape := ⟨3, ![2, 4096, 2048]⟩
abbrev S2x2048x4096 : Shape := ⟨3, ![2, 2048, 4096]⟩
abbrev S2x512x128 : Shape := ⟨3, ![2, 512, 128]⟩
abbrev S2x1024x128 : Shape := ⟨3, ![2, 1024, 128]⟩
abbrev S128x128 : Shape := ⟨2, ![128, 128]⟩
abbrev S128 : Shape := ⟨1, ![128]⟩
abbrev S2x2048x32 : Shape := ⟨3, ![2, 2048, 32]⟩
abbrev S2x4096x32 : Shape := ⟨3, ![2, 4096, 32]⟩
abbrev S1x128 : Shape := ⟨2, ![1, 128]⟩
abbrev S1x512x2048 : Shape := ⟨3, ![1, 512, 2048]⟩
abbrev S1x2048x32 : Shape := ⟨3, ![1, 2048, 32]⟩
abbrev S1x512x32 : Shape := ⟨3, ![1, 512, 32]⟩
abbrev S512x2048 : Shape := ⟨2, ![512, 2048]⟩
abbrev S2048x32 : Shape := ⟨2, ![2048, 32]⟩
abbrev S512x32 : Shape := ⟨2, ![512, 32]⟩
abbrev S1x512x4096 : Shape := ⟨3, ![1, 512, 4096]⟩
abbrev S1x4096x32 : Shape := ⟨3, ![1, 4096, 32]⟩
abbrev S1x128x512 : Shape := ⟨3, ![1, 128, 512]⟩
abbrev S1x512x128 : Shape := ⟨3, ![1, 512, 128]⟩
abbrev S1x128x128 : Shape := ⟨3, ![1, 128, 128]⟩
abbrev S512x128 : Shape := ⟨2, ![512, 128]⟩
abbrev S512x4096 : Shape := ⟨2, ![512, 4096]⟩
abbrev S4096x32 : Shape := ⟨2, ![4096, 32]⟩
abbrev S128x512 : Shape := ⟨2, ![128, 512]⟩
abbrev S1x1024x128 : Shape := ⟨3, ![1, 1024, 128]⟩
abbrev S1024x128 : Shape := ⟨2, ![1024, 128]⟩

abbrev nBuf : Space → Nat
  | .hbm => 31
  | .vmem => 45
  | .smem => 0
  | _ => 0

abbrev bufTy : (tb : Table) → Fin (tcTables nBuf tb) → BufTy
  | .hbm, ⟨0, _⟩ => ⟨S2x512x512, .f32⟩
  | .hbm, ⟨1, _⟩ => ⟨S2x4096x2048, .f32⟩
  | .hbm, ⟨2, _⟩ => ⟨S2x2048x4096, .f32⟩
  | .hbm, ⟨3, _⟩ => ⟨S2x512x128, .f32⟩
  | .hbm, ⟨4, _⟩ => ⟨S2x1024x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S2x2048x32, .f32⟩
  | .hbm, ⟨16, _⟩ => ⟨S2x4096x32, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S2x4096x32, .f32⟩
  | .hbm, ⟨23, _⟩ => ⟨S2x2048x32, .f32⟩
  | .hbm, ⟨24, _⟩ => ⟨S2x512x128, .f32⟩
  | .hbm, ⟨25, _⟩ => ⟨S2x1024x128, .f32⟩
  | .hbm, ⟨26, _⟩ => ⟨S2x512x128, .f32⟩
  | .hbm, ⟨27, _⟩ => ⟨S2x1024x128, .f32⟩
  | .hbm, ⟨28, _⟩ => ⟨S2x1024x128, .f32⟩
  | .hbm, ⟨29, _⟩ => ⟨S2x512x128, .f32⟩
  | .hbm, ⟨30, _⟩ => ⟨S2x512x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x32, .f32⟩
  | .local _ .vmem, ⟨3, _⟩ => ⟨S1x2048x32, .f32⟩
  | .local _ .vmem, ⟨4, _⟩ => ⟨S1x512x32, .f32⟩
  | .local _ .vmem, ⟨5, _⟩ => ⟨S1x512x32, .f32⟩
  | .local _ .vmem, ⟨6, _⟩ => ⟨S1x512x4096, .f32⟩
  | .local _ .vmem, ⟨7, _⟩ => ⟨S1x512x4096, .f32⟩
  | .local _ .vmem, ⟨8, _⟩ => ⟨S1x4096x32, .f32⟩
  | .local _ .vmem, ⟨9, _⟩ => ⟨S1x4096x32, .f32⟩
  | .local _ .vmem, ⟨10, _⟩ => ⟨S1x128x512, .f32⟩
  | .local _ .vmem, ⟨11, _⟩ => ⟨S1x128x512, .f32⟩
  | .local _ .vmem, ⟨12, _⟩ => ⟨S1x512x128, .f32⟩
  | .local _ .vmem, ⟨13, _⟩ => ⟨S1x512x128, .f32⟩
  | .local _ .vmem, ⟨14, _⟩ => ⟨S128x128, .f32⟩
  | .local _ .vmem, ⟨15, _⟩ => ⟨S1x128, .f32⟩
  | .local _ .vmem, ⟨16, _⟩ => ⟨S1x512x32, .f32⟩
  | .local _ .vmem, ⟨17, _⟩ => ⟨S1x512x32, .f32⟩
  | .local _ .vmem, ⟨18, _⟩ => ⟨S1x128x128, .f32⟩
  | .local _ .vmem, ⟨19, _⟩ => ⟨S1x128x128, .f32⟩
  | .local _ .vmem, ⟨20, _⟩ => ⟨S512x128, .bf16⟩
  | .local _ .vmem, ⟨21, _⟩ => ⟨S1x1024x128, .f32⟩
  | .local _ .vmem, ⟨22, _⟩ => ⟨S1x1024x128, .f32⟩
  | .local _ .vmem, ⟨23, _⟩ => ⟨S1x512x128, .f32⟩
  | .local _ .vmem, ⟨24, _⟩ => ⟨S1x512x128, .f32⟩
  | .local _ .vmem, ⟨25, _⟩ => ⟨S1x1024x128, .f32⟩
  | .local _ .vmem, ⟨26, _⟩ => ⟨S1x1024x128, .f32⟩
  | .local _ .vmem, ⟨27, _⟩ => ⟨S1x512x128, .f32⟩
  | .local _ .vmem, ⟨28, _⟩ => ⟨S1x512x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S1x1024x128, .f32⟩
  | .local _ .vmem, ⟨38, _⟩ => ⟨S1x1024x128, .f32⟩
  | .local _ .vmem, ⟨39, _⟩ => ⟨S1x1024x128, .f32⟩
  | .local _ .vmem, ⟨40, _⟩ => ⟨S1x1024x128, .f32⟩
  | .local _ .vmem, ⟨41, _⟩ => ⟨S1x512x128, .f32⟩
  | .local _ .vmem, ⟨42, _⟩ => ⟨S1x512x128, .f32⟩
  | .local _ .vmem, ⟨43, _⟩ => ⟨S1x512x128, .f32⟩
  | .local _ .vmem, ⟨44, _⟩ => ⟨S1x512x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg12_1 : Ref sig .tc := ⟨.vmem, 38, rfl⟩
abbrev cc2_stg13_0 : Ref sig .tc := ⟨.vmem, 39, rfl⟩
abbrev cc2_stg13_1 : Ref sig .tc := ⟨.vmem, 40, rfl⟩
abbrev cc2_stg14_0 : Ref sig .tc := ⟨.vmem, 41, rfl⟩
abbrev cc2_stg14_1 : Ref sig .tc := ⟨.vmem, 42, rfl⟩
abbrev cc2_stg15_0 : Ref sig .tc := ⟨.vmem, 43, rfl⟩
abbrev cc2_stg15_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37
abbrev cc2_sem13_0 : DmaSem sig := 38
abbrev cc2_sem13_1 : DmaSem sig := 39
abbrev cc2_sem14_0 : DmaSem sig := 40
abbrev cc2_sem14_1 : DmaSem sig := 41
abbrev cc2_sem15_0 : DmaSem sig := 42
abbrev cc2_sem15_1 : DmaSem sig := 43

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x1024x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x1024x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x512x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x512x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  shapeCasts_S2x512x128_S2x2048x32 : S2x512x128.ShapeCasts S2x2048x32
  shapeCasts_S2x1024x128_S2x4096x32 : S2x1024x128.ShapeCasts S2x4096x32
  shapeCasts_S128_S1x128 : S128.ShapeCasts S1x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  bitsLt_bf16_f32 : FTy.bits .bf16 < FTy.bits .f32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  packedbf16_S512x128_S512x128_0_0 : (Rect.unit (s := S512x128) ![0, 0] S512x128.size inb_S512x128_S512x128_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S2x4096x32_S2x1024x128 : S2x4096x32.ShapeCasts S2x1024x128
  shapeCasts_S2x2048x32_S2x512x128 : S2x2048x32.ShapeCasts S2x512x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1x128_S1024x128 : S1x128.Broadcasts S1024x128
  shapeCasts_S1024x128_S1x1024x128 : S1024x128.ShapeCasts S1x1024x128
  broadcasts_S1x128_S512x128 : S1x128.Broadcasts S512x128
  shapeCasts_S512x128_S1x512x128 : S512x128.ShapeCasts S1x512x128
  dot_S512x2048_S2048x32_S512x32_1_0_0_1_n_n_wf : DotDims.WF S512x2048 S2048x32 S512x32 [1] [0] [0] [1] [] []
  dot_S512x128_S128x128_S512x128_1_1_0_0_n_n_wf : DotDims.WF S512x128 S128x128 S512x128 [1] [1] [0] [0] [] []
  dot_S512x4096_S4096x32_S512x32_1_0_0_1_n_n_wf : DotDims.WF S512x4096 S4096x32 S512x32 [1] [0] [0] [1] [] []
  dot_S128x512_S512x128_S128x128_1_0_0_1_n_n_wf : DotDims.WF S128x512 S512x128 S128x128 [1] [0] [0] [1] [] []
  dot_S1024x128_S128x128_S1024x128_1_1_0_0_n_n_wf : DotDims.WF S1024x128 S128x128 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S2x4096x2048.size a
  hwx0_0 : ∀ i : grid0.Coords, EltTy.bits .f32 = 32 ∨ (Rect.block (s := S2x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S2x2048x32.size a
  hwx0_1 : ∀ i : grid0.Coords, EltTy.bits .f32 = 32 ∨ (Rect.block (s := S2x2048x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S2x4096x32.size a
  hwx0_2 : ∀ i : grid0.Coords, EltTy.bits .f32 = 32 ∨ (Rect.block (s := S2x4096x32) S1x512x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S2x2048x4096.size a
  hwx1_0 : ∀ i : grid1.Coords, EltTy.bits .f32 = 32 ∨ (Rect.block (s := S2x2048x4096) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x32.size a ≤ S2x4096x32.size a
  hwx1_1 : ∀ i : grid1.Coords, EltTy.bits .f32 = 32 ∨ (Rect.block (s := S2x4096x32) S1x4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S2x512x512.size a
  hwx1_2 : ∀ i : grid1.Coords, EltTy.bits .f32 = 32 ∨ (Rect.block (s := S2x512x512) S1x128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x512x128.size a
  hwx1_3 : ∀ i : grid1.Coords, EltTy.bits .f32 = 32 ∨ (Rect.block (s := S2x512x128) S1x512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x32.size a ≤ S2x2048x32.size a
  hwx1_6 : ∀ i : grid1.Coords, EltTy.bits .f32 = 32 ∨ (Rect.block (s := S2x2048x32) S1x512x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x128.size a ≤ S2x512x128.size a
  hwx1_7 : ∀ i : grid1.Coords, EltTy.bits .f32 = 32 ∨ (Rect.block (s := S2x512x128) S1x128x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S2x1024x128.size a
  hwx2_0 : ∀ i : grid2.Coords, EltTy.bits .f32 = 32 ∨ (Rect.block (s := S2x1024x128) S1x1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x128.size a ≤ S2x512x128.size a
  hwx2_1 : ∀ i : grid2.Coords, EltTy.bits .f32 = 32 ∨ (Rect.block (s := S2x512x128) S1x512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S2x1024x128.size a
  hwx2_2 : ∀ i : grid2.Coords, EltTy.bits .f32 = 32 ∨ (Rect.block (s := S2x1024x128) S1x1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x128.size a ≤ S2x512x128.size a
  hwx2_3 : ∀ i : grid2.Coords, EltTy.bits .f32 = 32 ∨ (Rect.block (s := S2x512x128) S1x512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1x1024x128.size a ≤ S2x1024x128.size a
  hwx2_12 : ∀ i : grid2.Coords, EltTy.bits .f32 = 32 ∨ (Rect.block (s := S2x1024x128) S1x1024x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1x1024x128.size a ≤ S2x1024x128.size a
  hwx2_13 : ∀ i : grid2.Coords, EltTy.bits .f32 = 32 ∨ (Rect.block (s := S2x1024x128) S1x1024x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S1x512x128.size a ≤ S2x512x128.size a
  hwx2_14 : ∀ i : grid2.Coords, EltTy.bits .f32 = 32 ∨ (Rect.block (s := S2x512x128) S1x512x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S1x512x128.size a ≤ S2x512x128.size a
  hwx2_15 : ∀ i : grid2.Coords, EltTy.bits .f32 = 32 ∨ (Rect.block (s := S2x512x128) S1x512x128.size (cc2_transform_15 i) (hinb2_15 i)).WholeWords (EltTy.packing .f32)

variable [Facts₀]

def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8_0) S1x512x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_1) S1x128x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v9) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1x1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v3) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg9) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg11) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v5) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v11_0) S1x1024x128.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v11_1) S1x1024x128.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v11_2) S1x512x128.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v11_3) S1x512x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S2x512x512 : Shape := ⟨3, ![2, 512, 512]⟩
abbrev S2x4096x2048 : Shape := ⟨3, ![2, 4096, 2048]⟩
abbrev S2x2048x4096 : Shape := ⟨3, ![2, 2048, 4096]⟩
abbrev S2x512x128 : Shape := ⟨3, ![2, 512, 128]⟩
abbrev S2x1024x128 : Shape := ⟨3, ![2, 1024, 128]⟩
abbrev S128x128 : Shape := ⟨2, ![128, 128]⟩
abbrev S128 : Shape := ⟨1, ![128]⟩
abbrev S2x2048x32 : Shape := ⟨3, ![2, 2048, 32]⟩
abbrev S2x4096x32 : Shape := ⟨3, ![2, 4096, 32]⟩
abbrev S2048x128 : Shape := ⟨2, ![2048, 128]⟩
abbrev S1x128 : Shape := ⟨2, ![1, 128]⟩
abbrev S1024x128 : Shape := ⟨2, ![1024, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x4096x2048, .f32⟩
  | .hbm, ⟨2, _⟩ => ⟨S2x2048x4096, .f32⟩
  | .hbm, ⟨3, _⟩ => ⟨S2x512x128, .f32⟩
  | .hbm, ⟨4, _⟩ => ⟨S2x1024x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S2x2048x32, .f32⟩
  | .hbm, ⟨16, _⟩ => ⟨S2x4096x32, .f32⟩
  | .hbm, ⟨17, _⟩ => ⟨S2x1024x128, .f32⟩
  | .hbm, ⟨18, _⟩ => ⟨S2x4096x32, .f32⟩
  | .hbm, ⟨19, _⟩ => ⟨S2x2048x32, .f32⟩
  | .hbm, ⟨20, _⟩ => ⟨S2x512x128, .f32⟩
  | .hbm, ⟨21, _⟩ => ⟨S2x512x128, .f32⟩
  | .hbm, ⟨22, _⟩ => ⟨S2048x128, .f32⟩
  | .hbm, ⟨23, _⟩ => ⟨S128x128, .f32⟩
  | .hbm, ⟨24, _⟩ => ⟨S2048x128, .f32⟩
  | .hbm, ⟨25, _⟩ => ⟨S1x128, .f32⟩
  | .hbm, ⟨26, _⟩ => ⟨S2048x128, .f32⟩
  | .hbm, ⟨27, _⟩ => ⟨S2048x128, .f32⟩
  | .hbm, ⟨28, _⟩ => ⟨S2x1024x128, .f32⟩
  | .hbm, ⟨29, _⟩ => ⟨S2048x128, .f32⟩
  | .hbm, ⟨30, _⟩ => ⟨S128x128, .f32⟩
  | .hbm, ⟨31, _⟩ => ⟨S2048x128, .f32⟩
  | .hbm, ⟨32, _⟩ => ⟨S1x128, .f32⟩
  | .hbm, ⟨33, _⟩ => ⟨S2048x128, .f32⟩
  | .hbm, ⟨34, _⟩ => ⟨S2048x128, .f32⟩
  | .hbm, ⟨35, _⟩ => ⟨S2x1024x128, .f32⟩
  | .hbm, ⟨36, _⟩ => ⟨S1024x128, .f32⟩
  | .hbm, ⟨37, _⟩ => ⟨S128x128, .f32⟩
  | .hbm, ⟨38, _⟩ => ⟨S1024x128, .f32⟩
  | .hbm, ⟨39, _⟩ => ⟨S1x128, .f32⟩
  | .hbm, ⟨40, _⟩ => ⟨S1024x128, .f32⟩
  | .hbm, ⟨41, _⟩ => ⟨S1024x128, .f32⟩
  | .hbm, ⟨42, _⟩ => ⟨S2x512x128, .f32⟩
  | .hbm, ⟨43, _⟩ => ⟨S1024x128, .f32⟩
  | .hbm, ⟨44, _⟩ => ⟨S128x128, .f32⟩
  | .hbm, ⟨45, _⟩ => ⟨S1024x128, .f32⟩
  | .hbm, ⟨46, _⟩ => ⟨S1x128, .f32⟩
  | .hbm, ⟨47, _⟩ => ⟨S1024x128, .f32⟩
  | .hbm, ⟨48, _⟩ => ⟨S1024x128, .f32⟩
  | .hbm, ⟨49, _⟩ => ⟨S2x512x128, .f32⟩
  | .hbm, ⟨50, _⟩ => ⟨S1024x128, .f32⟩
  | .hbm, ⟨51, _⟩ => ⟨S128x128, .f32⟩
  | .hbm, ⟨52, _⟩ => ⟨S1024x128, .f32⟩
  | .hbm, ⟨53, _⟩ => ⟨S1x128, .f32⟩
  | .hbm, ⟨54, _⟩ => ⟨S1024x128, .f32⟩
  | .hbm, ⟨55, _⟩ => ⟨S1024x128, .f32⟩
  | .hbm, ⟨56, _⟩ => ⟨S2x512x128, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  shapeCasts_S2x512x128_S2x2048x32 : S2x512x128.ShapeCasts S2x2048x32
  shapeCasts_S2x4096x32_S2x1024x128 : S2x4096x32.ShapeCasts S2x1024x128
  shapeCasts_S2x1024x128_S2x4096x32 : S2x1024x128.ShapeCasts S2x4096x32
  shapeCasts_S2x2048x32_S2x512x128 : S2x2048x32.ShapeCasts S2x512x128
  shapeCasts_S2x1024x128_S2048x128 : S2x1024x128.ShapeCasts S2048x128
  transposes_S128x128_S128x128_1_0 : S128x128.Transposes [1, 0] S128x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  shapeCasts_S2048x128_S2x1024x128 : S2048x128.ShapeCasts S2x1024x128
  shapeCasts_S2x512x128_S1024x128 : S2x512x128.ShapeCasts S1024x128
  bcast_S1x128_S1024x128_0_1 : S1x128.BroadcastsInDim S1024x128 (![0, 1] : Fin 2 → Fin S1024x128.rank)
  shapeCasts_S1024x128_S2x512x128 : S1024x128.ShapeCasts S2x512x128
  dot_S2x4096x2048_S2x2048x32_S2x4096x32_2_1_1_2_0_0_wf : DotDims.WF S2x4096x2048 S2x2048x32 S2x4096x32 [2] [1] [1] [2] [0] [0]
  dot_S2x2048x4096_S2x4096x32_S2x2048x32_2_1_1_2_0_0_wf : DotDims.WF S2x2048x4096 S2x4096x32 S2x2048x32 [2] [1] [1] [2] [0] [0]
  dot_S2x512x512_S2x512x128_S2x512x128_2_1_1_2_0_0_wf : DotDims.WF S2x512x512 S2x512x128 S2x512x128 [2] [1] [1] [2] [0] [0]
  dot_S2048x128_S128x128_S2048x128_1_0_0_1_n_n_wf : DotDims.WF S2048x128 S128x128 S2048x128 [1] [0] [0] [1] [] []
  dot_S1024x128_S128x128_S1024x128_1_0_0_1_n_n_wf : DotDims.WF S1024x128 S128x128 S1024x128 [1] [0] [0] [1] [] []

variable [Facts₀]

def dot_S2x4096x2048_S2x2048x32_S2x4096x32_2_1_1_2_0_0 : DotDims S2x4096x2048 S2x2048x32 S2x4096x32 where
  lhsContracting := [2]
  rhsContracting := [1]
  lhsNonContracting := [1]
  rhsNonContracting := [2]
  lhsBatch := [0]
  rhsBatch := [0]
  wf := dot_S2x4096x2048_S2x2048x32_S2x4096x32_2_1_1_2_0_0_wf
def dot_S2x2048x4096_S2x4096x32_S2x2048x32_2_1_1_2_0_0 : DotDims S2x2048x4096 S2x4096x32 S2x2048x32 where
  lhsContracting := [2]
  rhsContracting := [1]
  lhsNonContracting := [1]
  rhsNonContracting := [2]
  lhsBatch := [0]
  rhsBatch := [0]
  wf := dot_S2x2048x4096_S2x4096x32_S2x2048x32_2_1_1_2_0_0_wf
def dot_S2x512x512_S2x512x128_S2x512x128_2_1_1_2_0_0 : DotDims S2x512x512 S2x512x128 S2x512x128 where
  lhsContracting := [2]
  rhsContracting := [1]
  lhsNonContracting := [1]
  rhsNonContracting := [2]
  lhsBatch := [0]
  rhsBatch := [0]
  wf := dot_S2x512x512_S2x512x128_S2x512x128_2_1_1_2_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.Frame0.lean ====
/-
  The first call: t1 = Di · (v re-laid as 2048 rows of 32), one block of 512 rows of Di at a grid point.

  At a point the body reads the block of Di (window 0) and the whole re-laid v of the batch (window 1), and stores the
  product into the block of t1 (window 2), which it overwrites whole; it keeps nothing between points.  So after the
  body the output's buffer holds the product of the two input blocks, whatever it held before.
-/
import proofs.«144741_g58523224375715_cont_9to1c4b_685_3_alg».proof.Proof.Gen.KernelIdeal.Launch
import proofs.«144741_g58523224375715_cont_9to1c4b_685_3_alg».proof.Proof.Gen.KernelIdeal.Skeleton
import proofs.«144741_g58523224375715_cont_9to1c4b_685_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x2048 := Rect.unit (s := S1x512x2048) ![0, 0, 0] S1x512x2048.size inb_S1x512x2048_S1x512x2048_0_0_0
abbrev r0_1 : Rect S1x2048x32 := Rect.unit (s := S1x2048x32) ![0, 0, 0] S1x2048x32.size inb_S1x2048x32_S1x2048x32_0_0_0
abbrev r0_2 : Rect S1x512x32 := Rect.unit (s := S1x512x32) ![0, 0, 0] S1x512x32.size inb_S1x512x32_S1x512x32_0_0_0

/-- What the body leaves in the output's buffer: its one store, the product of the two blocks. -/
def out0_2 (x0 : Vec F S1x512x2048 .f32) (x1 : Vec F S1x2048x32 .f32) : Vec F S1x512x32 .f32 :=
  View.canon [⟨r0_2, k0_pay1 (View.ld x0 r0_0) (View.ld x1 r0_1)⟩]

/-- The store covers the buffer. -/
theorem cover0_2 (p0 : Vec F S1x512x32 .f32) (y : S1x512x32.Idx) :
    ∃ pc ∈ ([⟨r0_2, p0⟩] : List (View.Piece (Elt F) S1x512x32 .f32)), y ∈ pc.1.set :=
  View.cover_of_tiled [⟨r0_2, p0⟩] S1x512x32.size (by rfl) y

set_option maxHeartbeats 1000000 in
/-- The body on whole staging memrefs: the inputs kept, the output at the product. -/
theorem sound_kernel0 (c : Dev nD) (E : Set ℕ) (i : grid0.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole)
    (x0 : Vec F S1x512x2048 .f32) (x1 : Vec F S1x2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__f_body i arg2 harg2 arg3 harg3 arg4 harg4) K := by
  simp only [cc0__f_body_eq_skeleton]; unfold cc0__f_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Frame1.lean ====
/-
  The second call: t3 = DiA · (f re-laid as 4096 rows of 32), one block of 512 rows of DiA at a grid point, and
  y4 = L · C + b5, one block of 128 rows of L at a grid point, where C = v · W5ᵀ is built ONCE per batch.

  The grid is (batch, row block), four row blocks to a batch.  At the first row block of a batch the body computes
  C from the batch's rows of v (window 3) and W5 (window 4) and keeps it in a scratch buffer of its own; at the three
  later row blocks it finds the scratch as the first left it.  At every point it stores the product of the block of
  DiA (window 0) with the re-laid f of the batch (window 1) into the block of t3 (window 6), and the product of the
  block of L (window 2) with the scratch, plus the bias row (window 5), into the block of y4 (window 7); both stores
  overwrite their buffers whole.  So the scratch, between points, holds C of the batch of the point before, and
  what a point leaves in y4's buffer is the block of L times C of the point's own batch, plus b5.
-/
import proofs.«144741_g58523224375715_cont_9to1c4b_685_3_alg».proof.Proof.Gen.KernelIdeal.Launch
import proofs.«144741_g58523224375715_cont_9to1c4b_685_3_alg».proof.Proof.Gen.KernelIdeal.Skeleton
import proofs.«144741_g58523224375715_cont_9to1c4b_685_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x512x4096 := Rect.unit (s := S1x512x4096) ![0, 0, 0] S1x512x4096.size inb_S1x512x4096_S1x512x4096_0_0_0
abbrev r1_1 : Rect S1x4096x32 := Rect.unit (s := S1x4096x32) ![0, 0, 0] S1x4096x32.size inb_S1x4096x32_S1x4096x32_0_0_0
abbrev r1_2 : Rect S1x128x512 := Rect.unit (s := S1x128x512) ![0, 0, 0] S1x128x512.size inb_S1x128x512_S1x128x512_0_0_0
abbrev r1_3 : Rect S1x512x128 := Rect.unit (s := S1x512x128) ![0, 0, 0] S1x512x128.size inb_S1x512x128_S1x512x128_0_0_0
abbrev r1_4 : Rect S128x128 := Rect.unit (s := S128x128) ![0, 0] S128x128.size inb_S128x128_S128x128_0_0
abbrev r1_5 : Rect S1x128 := Rect.unit (s := S1x128) ![0, 0] S1x128.size inb_S1x128_S1x128_0_0
abbrev r1_6 : Rect S1x512x32 := Rect.unit (s := S1x512x32) ![0, 0, 0] S1x512x32.size inb_S1x512x32_S1x512x32_0_0_0
abbrev r1_7 : Rect S1x128x128 := Rect.unit (s := S1x128x128) ![0, 0, 0] S1x128x128.size inb_S1x128x128_S1x128x128_0_0_0
abbrev r1_s : Rect S512x128 := Rect.unit (s := S512x128) ![0, 0] S512x128.size inb_S512x128_S512x128_0_0

/-- The scratch operand, a whole buffer of the kernel's own. -/
abbrev scM1 : Memref sig .tc .vmem S512x128 .bf16 := Memref.whole cc1_scratch0

/-- C = v · W5ᵀ of a batch, as the build leaves it in the scratch. -/
def scr1 (x3 : Vec F S1x512x128 .f32) (x4 : Vec F S128x128 .f32) : Vec F S512x128 .bf16 :=
  View.canon [⟨r1_s, k1_pay1 (View.ld x3 r1_3) (View.ld x4 r1_4)⟩]
theorem cover1_s (p0 : Vec F S512x128 .bf16) (y : S512x128.Idx) :
    ∃ pc ∈ ([⟨r1_s, p0⟩] : List (View.Piece (Elt F) S512x128 .bf16)), y ∈ pc.1.set :=
  View.cover_of_tiled [⟨r1_s, p0⟩] S512x128.size (by rfl) y

/-- t3's buffer after the body: the block of DiA times the re-laid f. -/
def out1_6 (x0 : Vec F S1x512x4096 .f32) (x1 : Vec F S1x4096x32 .f32) : Vec F S1x512x32 .f32 :=
  View.canon [⟨r1_6, k1_pay2 (View.ld x0 r1_0) (View.ld x1 r1_1)⟩]
theorem cover1_6 (p0 : Vec F S1x512x32 .f32) (y : S1x512x32.Idx) :
    ∃ pc ∈ ([⟨r1_6, p0⟩] : List (View.Piece (Elt F) S1x512x32 .f32)), y ∈ pc.1.set :=
  View.cover_of_tiled [⟨r1_6, p0⟩] S1x512x32.size (by rfl) y

/-- y4's buffer after the body: the block of L times what the scratch holds, plus the bias row. -/
def out1_7 (x2 : Vec F S1x128x512 .f32) (s : Vec F S512x128 .bf16) (x5 : Vec F S1x128 .f32) : Vec F S1x128x128 .f32 :=
  View.canon [⟨r1_7, k1_pay3 (View.ld x2 r1_2) (View.ld s r1_s) (View.ld x5 r1_5)⟩]
theorem cover1_7 (p0 : Vec F S1x128x128 .f32) (y : S1x128x128.Idx) :
    ∃ pc ∈ ([⟨r1_7, p0⟩] : List (View.Piece (Elt F) S1x128x128 .f32)), y ∈ pc.1.set :=
  View.cover_of_tiled [⟨r1_7, p0⟩] S1x128x128.size (by rfl) y

/-- The body's branch: the row-block coordinate is zero. -/
abbrev cond1 (i : grid1.Coords) : Prop := (Scalar.cmpi .ne (Scalar.extui (Scalar.cmpi .eq (BitVec.ofNat 32 (i 1).val) 0#32)) 0#32) = 1#1
/-- It holds at the points ≡ 0 (mod 4): the first row block of each batch. -/
theorem hcond1 : ∀ t : Fin cfg1.N, cond1 (grid1.coords t) ↔ t.val % 4 = 0 :=
  (by decide +kernel : ∀ t : Fin grid1.N, cond1 (grid1.coords t) ↔ t.val % 4 = 0)

set_option maxHeartbeats 4000000 in
/-- At a batch's first row block: the scratch, found at anything, is left at C of the point's blocks of v and W5, and
    y4's buffer is computed from that. -/
theorem sound_kernel1_build (c : Dev nD) (E : Set ℕ) (i : grid1.Coords) (hc : cond1 i)
    (arg2 : Memref sig .tc .vmem S1x512x4096 .f32) (harg2 : arg2.IsWhole) (arg3 : Memref sig .tc .vmem S1x4096x32 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x512x32 .f32) (harg8 : arg8.IsWhole) (arg9 : Memref sig .tc .vmem S1x128x128 .f32) (harg9 : arg9.IsWhole)
    (x0 : Vec F S1x512x4096 .f32) (x1 : Vec F S1x4096x32 .f32) (x2 : Vec F S1x128x512 .f32) (x3 : Vec F S1x512x128 .f32) (x4 : Vec F S128x128 .f32) (x5 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (∃ d, owns (c : Thread nD τ) scM1 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1)
            ∗ owns (c : Thread nD τ) arg9 fullShare (out1_7 x2 (scr1 x3 x4) x5) ∗ owns (c : Thread nD τ) scM1 fullShare (scr1 x3 x4)) -∗ K ⟨⟩))
      ⊢ wp frame (wpE (defs₀ (F := F)) Variants.none c none) E (cc1__n_body i arg2 harg2 arg3 harg3 arg4 harg4 arg5 harg5 arg6 harg6 arg7 harg7 arg8 harg8 arg9 harg9 scM1 (Memref.isWhole_whole _)) K := by
  simp only [cc1__n_body_eq_skeleton]; unfold cc1__n_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    sl_unfold_run_names
    rw [View.readCov_eq_canon_ld _ _ _ (cover1_s _)]
    exact View.read_writes_eq_canon _ _ _ (cover1_7 _)
  iexists _; isplitr
  swap; · iexact HS
  ipureintro
  exact View.read_writes_eq_canon _ _ _ (cover1_s _)

set_option maxHeartbeats 4000000 in
/-- At a later row block: the scratch, found at `s`, is read and left as found. -/
theorem sound_kernel1_keep (c : Dev nD) (E : Set ℕ) (i : grid1.Coords) (hc : ¬ cond1 i)
    (arg2 : Memref sig .tc .vmem S1x512x4096 .f32) (harg2 : arg2.IsWhole) (arg3 : Memref sig .tc .vmem S1x4096x32 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x512x32 .f32) (harg8 : arg8.IsWhole) (arg9 : Memref sig .tc .vmem S1x128x128 .f32) (harg9 : arg9.IsWhole)
    (x0 : Vec F S1x512x4096 .f32) (x1 : Vec F S1x4096x32 .f32) (x2 : Vec F S1x128x512 .f32) (x3 : Vec F S1x512x128 .f32) (x4 : Vec F S128x128 .f32) (x5 : Vec F S1x128 .f32) (s : Vec F S512x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ owns (c : Thread nD τ) scM1 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1)
            ∗ owns (c : Thread nD τ) arg9 fullShare (out1_7 x2 s x5) ∗ owns (c : Thread nD τ) scM1 fullShare s) -∗ K ⟨⟩))
      ⊢ wp frame (wpE (defs₀ (F := F)) Variants.none c none) E (cc1__n_body i arg2 harg2 arg3 harg3 arg4 harg4 arg5 harg5 arg6 harg6 arg7 harg7 arg8 harg8 arg9 harg9 scM1 (Memref.isWhole_whole _)) K := by
  simp only [cc1__n_body_eq_skeleton]; unfold cc1__n_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0; subst hf1; subst hf2; subst hf3; subst hf4; subst hf5; subst hfs
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists fs; isplitr; · ipureintro; rfl
  iexact HS

/-! ## What the scratch holds between points -/

/-- The first point of `t`'s batch. -/
def base1 (t : Fin cfg1.N) : Fin cfg1.N := ⟨4 * (t.val / 4), by have h := t.isLt; have hN : cfg1.N = 8 := N_1; omega⟩

theorem base1_self (t : Fin cfg1.N) (h0 : t.val % 4 = 0) : base1 t = t := Fin.ext (by simp only [base1]; omega)

/-- C of `t`'s batch: what the scratch holds while the body runs at `t` (after the build, at the batch's first point). -/
def sAt1 (c : Dev nD) (t : Fin cfg1.N) : Vec F S512x128 .bf16 :=
  scr1 (iblk1 V c 3 (base1 t)) (iblk1 V c 4 (base1 t))

theorem sAt1_build (c : Dev nD) (t : Fin cfg1.N) (h0 : t.val % 4 = 0) :
    sAt1 V c t = scr1 (iblk1 V c 3 t) (iblk1 V c 4 t) := by
  unfold sAt1; rw [base1_self t h0]

theorem sAt1_succ (c : Dev nD) (t : Fin cfg1.N) (h : t.val + 1 - 1 < cfg1.N) : sAt1 V c ⟨t.val + 1 - 1, h⟩ = sAt1 V c t := by
  congr 1

theorem sAt1_pred (c : Dev nD) (t : Fin cfg1.N) (h0 : t.val % 4 ≠ 0) (h : t.val - 1 < cfg1.N) :
    sAt1 V c ⟨t.val - 1, h⟩ = sAt1 V c t := by
  unfold sAt1
  rw [show base1 ⟨t.val - 1, h⟩ = base1 t from Fin.ext (by simp only [base1]; omega)]

/-- The class's invariant with the scratch operand split out as a memref owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant before position `n`: at a batch's first point the scratch holds anything (the class's invariant);
    elsewhere it holds C of the batch of the point before. -/
def PhiS1 (c : Dev nD) (n : ℕ) (hn : n ≤ cfg1.N) : sProp 𝕄 :=
  if h : n % 4 = 0 then Pipeline.ΦA spec1 c
  else iprop(iprop(owns (c : Thread nD τ) scM1 fullShare (sAt1 V c ⟨n - 1, by omega⟩) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (hn : n ≤ cfg1.N) (h : n % 4 = 0) : PhiS1 V c n hn = Pipeline.ΦA spec1 c := by
  unfold PhiS1; rw [dif_pos h]

theorem PhiS1_pos (c : Dev nD) (n : ℕ) (hn : n ≤ cfg1.N) (h : n % 4 ≠ 0) :
    PhiS1 V c n hn = iprop(iprop(owns (c : Thread nD τ) scM1 fullShare (sAt1 V c ⟨n - 1, by omega⟩) ∗ Pipeline.scopedRestBut (Ix := Unit) (Name := ℕ) (U := UR sig nD τ) (Lvl := ℕ) (Val := Elt F) spec1 c [cc1_scratch0]) ∗ (∃ r, prngReg c r)) := by
  unfold PhiS1; rw [dif_neg h]

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t)
    | ⟨7, _⟩ => out1_7 (iblk1 V c 2 t) (sAt1 V c t) (iblk1 V c 5 t)
    | ⟨_ + 8, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) := by dsimp only [dat1]
theorem after1_7 (c : Dev nD) (t : Fin cfg1.N) : (dat1 V c).after 7 t = out1_7 (iblk1 V c 2 t) (sAt1 V c t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi1_castSucc (c : Dev nD) (t : Fin cfg1.N) :
    (dat1 V c).Φ t.castSucc = PhiS1 V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point, by cases on whether it is a batch's first. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  rw [show (dat1 V c).Φ t.succ = PhiS1 V c (t.val + 1) t.isLt from rfl, Phi1_castSucc]
  have hN : t.val < 8 := lt_of_lt_of_eq t.isLt (show cfg1.N = 8 from N_1)
  by_cases h0 : t.val % 4 = 0
  · rw [PhiS1_zero V c _ _ h0, PhiS1_pos V c (t.val + 1) _ (by omega), PhiA1_eq, sAt1_succ, sAt1_build V c t h0]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_build c Set.univ _ ((hcond1 t).mpr h0) _ _ _ _ _ _ _ _ _ _ _ _ _ _ _ _
      (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS1_pos V c _ _ h0, sAt1_pred V c t h0]
    by_cases h1 : (t.val + 1) % 4 = 0
    · rw [PhiS1_zero V c _ _ h1, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_keep c Set.univ _ (fun h => h0 ((hcond1 t).mp h)) _ _ _ _ _ _ _ _ _ _ _ _ _ _ _ _
        (iblk1 V c 0 t) (iblk1 V c 1 t) (iblk1 V c 2 t) (iblk1 V c 3 t) (iblk1 V c 4 t) (iblk1 V c 5 t) (sAt1 V c t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hrest Hg]
      · isplitl [HS Hrest]
        · isplitl [HS]; · iexists _; iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS1_pos V c _ _ h1, sAt1_succ]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_keep c Set.univ _ (fun h => h0 ((hcond1 t).mp h)) _ _ _ _ _ _ _ _ _ _ _ _ _ _ _ _
        (iblk1 V c 0 t) (iblk1 V c 1 t) (iblk1 V c 2 t) (iblk1 V c 3 t) (iblk1 V c 4 t) (iblk1 V c 5 t) (sAt1 V c t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant is the class's again: the last point is a batch's last. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_zero V c _ _ (by rw [Fin.val_last, show cfg1.N = 8 from N_1])]
  try exact Idealize.SL.BI.Entails.refl _

end Cert.KernelIdeal.Hand

end
-- ==== Proof.Frame2.lean ====
/-
  The third call: the four dense layers y = x · Wᵀ + b on whole batches, one batch at a grid point.

  At a point the body reads the batch's rows of the re-laid t1 (window 0), of the re-laid t3 (window 1), of f (window 2)
  and of v (window 3), the four weight matrices (windows 4, 6, 8, 10) and the four bias rows (windows 5, 7, 9, 11), and
  stores y0 = f · W1ᵀ + b1 (window 12), y1 = t1 · W2ᵀ + b2 (window 13), y2 = v · W3ᵀ + b3 (window 14) and
  y3 = t3 · W4ᵀ + b4 (window 15), each overwriting its buffer whole; nothing is kept between points.
-/
import proofs.«144741_g58523224375715_cont_9to1c4b_685_3_alg».proof.Proof.Gen.KernelIdeal.Launch
import proofs.«144741_g58523224375715_cont_9to1c4b_685_3_alg».proof.Proof.Gen.KernelIdeal.Skeleton
import proofs.«144741_g58523224375715_cont_9to1c4b_685_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x1024x128 := Rect.unit (s := S1x1024x128) ![0, 0, 0] S1x1024x128.size inb_S1x1024x128_S1x1024x128_0_0_0
abbrev r2_1 : Rect S1x512x128 := Rect.unit (s := S1x512x128) ![0, 0, 0] S1x512x128.size inb_S1x512x128_S1x512x128_0_0_0
abbrev r2_2 : Rect S1x1024x128 := Rect.unit (s := S1x1024x128) ![0, 0, 0] S1x1024x128.size inb_S1x1024x128_S1x1024x128_0_0_0
abbrev r2_3 : Rect S1x512x128 := Rect.unit (s := S1x512x128) ![0, 0, 0] S1x512x128.size inb_S1x512x128_S1x512x128_0_0_0
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_6 : Rect S128x128 := Rect.unit (s := S128x128) ![0, 0] S128x128.size inb_S128x128_S128x128_0_0
abbrev r2_7 : Rect S1x128 := Rect.unit (s := S1x128) ![0, 0] S1x128.size inb_S1x128_S1x128_0_0
abbrev r2_8 : Rect S128x128 := Rect.unit (s := S128x128) ![0, 0] S128x128.size inb_S128x128_S128x128_0_0
abbrev r2_9 : Rect S1x128 := Rect.unit (s := S1x128) ![0, 0] S1x128.size inb_S1x128_S1x128_0_0
abbrev r2_10 : Rect S128x128 := Rect.unit (s := S128x128) ![0, 0] S128x128.size inb_S128x128_S128x128_0_0
abbrev r2_11 : Rect S1x128 := Rect.unit (s := S1x128) ![0, 0] S1x128.size inb_S1x128_S1x128_0_0
abbrev r2_12 : Rect S1x1024x128 := Rect.unit (s := S1x1024x128) ![0, 0, 0] S1x1024x128.size inb_S1x1024x128_S1x1024x128_0_0_0
abbrev r2_13 : Rect S1x1024x128 := Rect.unit (s := S1x1024x128) ![0, 0, 0] S1x1024x128.size inb_S1x1024x128_S1x1024x128_0_0_0
abbrev r2_14 : Rect S1x512x128 := Rect.unit (s := S1x512x128) ![0, 0, 0] S1x512x128.size inb_S1x512x128_S1x512x128_0_0_0
abbrev r2_15 : Rect S1x512x128 := Rect.unit (s := S1x512x128) ![0, 0, 0] S1x512x128.size inb_S1x512x128_S1x512x128_0_0_0

/-- y0's buffer after the body: the layer W1, b1 on the rows of f. -/
def out2_12 (x2 : Vec F S1x1024x128 .f32) (x4 : Vec F S128x128 .f32) (x5 : Vec F S1x128 .f32) : Vec F S1x1024x128 .f32 :=
  View.canon [⟨r2_12, k2_pay3 (View.ld x2 r2_2) (View.ld x4 r2_4) (View.ld x5 r2_5)⟩]
theorem cover2_12 (p0 : Vec F S1x1024x128 .f32) (y : S1x1024x128.Idx) :
    ∃ pc ∈ ([⟨r2_12, p0⟩] : List (View.Piece (Elt F) S1x1024x128 .f32)), y ∈ pc.1.set :=
  View.cover_of_tiled [⟨r2_12, p0⟩] S1x1024x128.size (by rfl) y

/-- y1's buffer after the body: the layer W2, b2 on the rows of the re-laid t1. -/
def out2_13 (x0 : Vec F S1x1024x128 .f32) (x6 : Vec F S128x128 .f32) (x7 : Vec F S1x128 .f32) : Vec F S1x1024x128 .f32 :=
  View.canon [⟨r2_13, k2_pay4 (View.ld x0 r2_0) (View.ld x6 r2_6) (View.ld x7 r2_7)⟩]
theorem cover2_13 (p0 : Vec F S1x1024x128 .f32) (y : S1x1024x128.Idx) :
    ∃ pc ∈ ([⟨r2_13, p0⟩] : List (View.Piece (Elt F) S1x1024x128 .f32)), y ∈ pc.1.set :=
  View.cover_of_tiled [⟨r2_13, p0⟩] S1x1024x128.size (by rfl) y

/-- y2's buffer after the body: the layer W3, b3 on the rows of v. -/
def out2_14 (x3 : Vec F S1x512x128 .f32) (x8 : Vec F S128x128 .f32) (x9 : Vec F S1x128 .f32) : Vec F S1x512x128 .f32 :=
  View.canon [⟨r2_14, k2_pay1 (View.ld x8 r2_8) (k2_pay5 (View.ld x3 r2_3)) (View.ld x9 r2_9)⟩]
theorem cover2_14 (p0 : Vec F S1x512x128 .f32) (y : S1x512x128.Idx) :
    ∃ pc ∈ ([⟨r2_14, p0⟩] : List (View.Piece (Elt F) S1x512x128 .f32)), y ∈ pc.1.set :=
  View.cover_of_tiled [⟨r2_14, p0⟩] S1x512x128.size (by rfl) y

/-- y3's buffer after the body: the layer W4, b4 on the rows of the re-laid t3. -/
def out2_15 (x1 : Vec F S1x512x128 .f32) (x10 : Vec F S128x128 .f32) (x11 : Vec F S1x128 .f32) : Vec F S1x512x128 .f32 :=
  View.canon [⟨r2_15, k2_pay2 (View.ld x1 r2_1) (View.ld x10 r2_10) (View.ld x11 r2_11)⟩]
theorem cover2_15 (p0 : Vec F S1x512x128 .f32) (y : S1x512x128.Idx) :
    ∃ pc ∈ ([⟨r2_15, p0⟩] : List (View.Piece (Elt F) S1x512x128 .f32)), y ∈ pc.1.set :=
  View.cover_of_tiled [⟨r2_15, p0⟩] S1x512x128.size (by rfl) y

set_option maxHeartbeats 4000000 in
/-- The body on whole staging memrefs: the inputs kept, each output at its layer's value. -/
theorem sound_kernel2 (c : Dev nD) (E : Set ℕ) (i : grid2.Coords)
    (arg1 : Memref sig .tc .vmem S1x1024x128 .f32) (harg1 : arg1.IsWhole) (arg2 : Memref sig .tc .vmem S1x512x128 .f32) (harg2 : arg2.IsWhole) (arg3 : Memref sig .tc .vmem S1x1024x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x512x128 .f32) (harg15 : arg15.IsWhole) (arg16 : Memref sig .tc .vmem S1x512x128 .f32) (harg16 : arg16.IsWhole)
    (x0 : Vec F S1x1024x128 .f32) (x1 : Vec F S1x512x128 .f32) (x2 : Vec F S1x1024x128 .f32) (x3 : Vec F S1x512x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x2 x4 x5) ∗ owns (c : Thread nD τ) arg14 fullShare (out2_13 x0 x6 x7) ∗ owns (c : Thread nD τ) arg15 fullShare (out2_14 x3 x8 x9) ∗ owns (c : Thread nD τ) arg16 fullShare (out2_15 x1 x10 x11)) -∗ K ⟨⟩))
      ⊢ wp frame (wpE (defs₀ (F := F)) Variants.none c none) E (cc2__s_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__s_body_eq_skeleton]; unfold cc2__s_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover2_12 _)
  isplitl [H13]
  · iexists _; isplitr
    swap; · iexact H13
    ipureintro
    exact View.read_writes_eq_canon _ _ _ (cover2_13 _)
  isplitl [H14]
  · iexists _; isplitr
    swap; · iexact H14
    ipureintro
    exact View.read_writes_eq_canon _ _ _ (cover2_14 _)
  iexists _; isplitr
  swap; · iexact H15
  ipureintro
  exact View.read_writes_eq_canon _ _ _ (cover2_15 _)

/-- The proof data of this call on core `c`: each input's buffer at its block, each output's at its value. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 2 t) (iblk2 V c 4 t) (iblk2 V c 5 t)
    | ⟨13, _⟩ => out2_13 (iblk2 V c 0 t) (iblk2 V c 6 t) (iblk2 V c 7 t)
    | ⟨14, _⟩ => out2_14 (iblk2 V c 3 t) (iblk2 V c 8 t) (iblk2 V c 9 t)
    | ⟨15, _⟩ => out2_15 (iblk2 V c 1 t) (iblk2 V c 10 t) (iblk2 V c 11 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 (iblk2 V c 2 t) (iblk2 V c 4 t) (iblk2 V c 5 t) := by dsimp only [dat2]
theorem after2_13 (c : Dev nD) (t : Fin cfg2.N) : (dat2 V c).after 13 t = out2_13 (iblk2 V c 0 t) (iblk2 V c 6 t) (iblk2 V c 7 t) := by dsimp only [dat2]
theorem after2_14 (c : Dev nD) (t : Fin cfg2.N) : (dat2 V c).after 14 t = out2_14 (iblk2 V c 3 t) (iblk2 V c 8 t) (iblk2 V c 9 t) := by dsimp only [dat2]
theorem after2_15 (c : Dev nD) (t : Fin cfg2.N) : (dat2 V c).after 15 t = out2_15 (iblk2 V c 1 t) (iblk2 V c 10 t) (iblk2 V c 11 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameFold.lean ====
/-
  What core `c`'s buffers hold at each boundary between @main's items, as a fold from the launch memory:
  the launch contents; after the first stretch of host re-layouts; after each call, its arrays at what the pipeline's
  write-backs leave (an input array as entered, an output array the write-backs folded) and every other buffer as
  entered; after the second stretch of host re-layouts; after the third call.
-/
import proofs.«144741_g58523224375715_cont_9to1c4b_685_3_alg».proof.Proof.Gen.KernelIdeal.Launch
import proofs.«144741_g58523224375715_cont_9to1c4b_685_3_alg».proof.Proof.Gen.KernelIdeal.Skeleton
import proofs.«144741_g58523224375715_cont_9to1c4b_685_3_alg».proof.Proof.Gen.KernelIdeal.Points
import proofs.«144741_g58523224375715_cont_9to1c4b_685_3_alg».proof.Proof.Frame0
import proofs.«144741_g58523224375715_cont_9to1c4b_685_3_alg».proof.Proof.Frame1
import proofs.«144741_g58523224375715_cont_9to1c4b_685_3_alg».proof.Proof.Frame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit (the second call's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (the third call's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the third call's exit: what @main ends with. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.KernelIdeal.Hand

end
-- ==== Proof.FrameRun.lean ====
/-
  The run of @main: a stretch of host re-layouts, the first call, the second call, a stretch of host re-layouts, the
  third call.  Every weakly fair execution terminates, nothing faulting, and at the end every unscoped buffer of core
  `c` holds what the fold of FrameFold says: `W5 m ρ c`.
-/
import proofs.«144741_g58523224375715_cont_9to1c4b_685_3_alg».proof.Proof.Gen.KernelIdeal.Launch
import proofs.«144741_g58523224375715_cont_9to1c4b_685_3_alg».proof.Proof.Gen.KernelIdeal.Skeleton
import proofs.«144741_g58523224375715_cont_9to1c4b_685_3_alg».proof.Proof.Gen.KernelIdeal.Points
import proofs.«144741_g58523224375715_cont_9to1c4b_685_3_alg».proof.Proof.FrameFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host re-layouts allocate nothing. -/
theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-- Before the second call's first point, and after its last (a batch's last), its invariant is the class's. -/
theorem Phi1_first (c : Dev nD) : (pdats m ρ 1 c).Φ 0 = Pipeline.ΦA spec1 c :=
  PhiS1_zero (V2 m ρ) c 0 (Nat.zero_le _) rfl
theorem Phi1_at (c : Dev nD) (t : Fin ((Pipeline.pin (pcfgs (F := F)) adm 1).N + 1)) (ht : t.val % 4 = 0) :
    (pdats m ρ 1 c).Φ t = Pipeline.ΦA spec1 c :=
  PhiS1_zero (V2 m ρ) c t.val (Nat.le_of_lt_succ t.isLt) ht
theorem Phi1_last (c : Dev nD) : (pdats m ρ 1 c).Φ (Fin.last _) = Pipeline.ΦA spec1 c :=
  Phi1_at m ρ c (Fin.last _) (by rw [Fin.val_last]; show cfg1.N % 4 = 0; rw [show cfg1.N = 8 from N_1])

-- a library lemma stated over the pinned configuration unifies with the printed one only when unification may unfold
-- plain definitions in a metavariable's type
set_option backward.isDefEq.respectTransparency.types false in
/-- Call 0 over the thread state: entered with every unscoped buffer at `W1`, left at `W2`.  Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered with every unscoped buffer at `W2`, left at `W3`.  Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [Phi1_first m ρ c]; unfold Pipeline.ΦA
    iintro ⟨Hp, -, Hr⟩
    isplitl [Hr]; · iexact Hr
    iexact Hp
  hout c := by
    rw [Pipeline.ownSems0_none, Phi1_last m ρ c]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 over the thread state: entered with every unscoped buffer at `W4`, left at `W5`.  Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five items in order. -/
abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ) ]
/-- @main IS the run of the items. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has each unscoped buffer of each core at `W5`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Hand

end
-- ==== Proof.FrameArgs.lean ====
/-
  No item of @main writes an argument array: a host re-layout writes only its own result, and a call reads an argument
  through an input window or leaves it alone.  So the fold of FrameFold, read at an argument's buffer, walks back to the
  launch memory.
-/
import proofs.«144741_g58523224375715_cont_9to1c4b_685_3_alg».proof.Proof.Gen.KernelIdeal.Launch
import proofs.«144741_g58523224375715_cont_9to1c4b_685_3_alg».proof.Proof.Gen.KernelIdeal.Skeleton
import proofs.«144741_g58523224375715_cont_9to1c4b_685_3_alg».proof.Proof.Gen.KernelIdeal.Points
import proofs.«144741_g58523224375715_cont_9to1c4b_685_3_alg».proof.Proof.FrameFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 3).trans (((dat2 (V4 m ρ) c).arrAt_in 3 rfl _).trans (A_eq2 (V4 m ρ) c 3))
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 3).trans (((dat1 (V2 m ρ) c).arrAt_in 3 rfl _).trans (A_eq1 (V2 m ρ) c 3))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 2).trans (((dat2 (V4 m ρ) c).arrAt_in 2 rfl _).trans (A_eq2 (V4 m ρ) c 2))
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := (W5_arr m ρ c 4).trans (((dat2 (V4 m ρ) c).arrAt_in 4 rfl _).trans (A_eq2 (V4 m ρ) c 4))
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (W5_arr m ρ c 6).trans (((dat2 (V4 m ρ) c).arrAt_in 6 rfl _).trans (A_eq2 (V4 m ρ) c 6))
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := (W5_arr m ρ c 8).trans (((dat2 (V4 m ρ) c).arrAt_in 8 rfl _).trans (A_eq2 (V4 m ρ) c 8))
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := (W5_arr m ρ c 10).trans (((dat2 (V4 m ρ) c).arrAt_in 10 rfl _).trans (A_eq2 (V4 m ρ) c 10))
    _ = W3 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := (W3_arr m ρ c 4).trans (((dat1 (V2 m ρ) c).arrAt_in 4 rfl _).trans (A_eq1 (V2 m ρ) c 4))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

end Cert.KernelIdeal.Hand

end
-- ==== Proof.WFrame0.lean ====
/-
  The first call: t1 = Di · (v re-laid as 2048 rows of 32), one block of 512 rows of Di at a grid point.

  At a point the body reads the block of Di (window 0) and the whole re-laid v of the batch (window 1), and stores the
  product into the block of t1 (window 2), which it overwrites whole; it keeps nothing between points.  So after the
  body the output's buffer holds the product of the two input blocks, whatever it held before.
-/
import proofs.«144741_g58523224375715_cont_9to1c4b_685_3_alg».proof.Proof.Gen.Kernel.Launch
import proofs.«144741_g58523224375715_cont_9to1c4b_685_3_alg».proof.Proof.Gen.Kernel.Skeleton
import proofs.«144741_g58523224375715_cont_9to1c4b_685_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x2048 := Rect.unit (s := S1x512x2048) ![0, 0, 0] S1x512x2048.size inb_S1x512x2048_S1x512x2048_0_0_0
abbrev r0_1 : Rect S1x2048x32 := Rect.unit (s := S1x2048x32) ![0, 0, 0] S1x2048x32.size inb_S1x2048x32_S1x2048x32_0_0_0
abbrev r0_2 : Rect S1x512x32 := Rect.unit (s := S1x512x32) ![0, 0, 0] S1x512x32.size inb_S1x512x32_S1x512x32_0_0_0

/-- What the body leaves in the output's buffer: its one store, the product of the two blocks. -/
def out0_2 (x0 : Vec F S1x512x2048 .f32) (x1 : Vec F S1x2048x32 .f32) : Vec F S1x512x32 .f32 :=
  View.canon [⟨r0_2, k0_pay1 (View.ld x0 r0_0) (View.ld x1 r0_1)⟩]

/-- The store covers the buffer. -/
theorem cover0_2 (p0 : Vec F S1x512x32 .f32) (y : S1x512x32.Idx) :
    ∃ pc ∈ ([⟨r0_2, p0⟩] : List (View.Piece (Elt F) S1x512x32 .f32)), y ∈ pc.1.set :=
  View.cover_of_tiled [⟨r0_2, p0⟩] S1x512x32.size (by rfl) y

set_option maxHeartbeats 1000000 in
/-- The body on whole staging memrefs: the inputs kept, the output at the product. -/
theorem sound_kernel0 (c : Dev nD) (E : Set ℕ) (i : grid0.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole)
    (x0 : Vec F S1x512x2048 .f32) (x1 : Vec F S1x2048x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__f_body i arg2 harg2 arg3 harg3 arg4 harg4) K := by
  simp only [cc0__f_body_eq_skeleton]; unfold cc0__f_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WFrame1.lean ====
/-
  The second call: t3 = DiA · (f re-laid as 4096 rows of 32), one block of 512 rows of DiA at a grid point, and
  y4 = L · C + b5, one block of 128 rows of L at a grid point, where C = v · W5ᵀ is built ONCE per batch.

  The grid is (batch, row block), four row blocks to a batch.  At the first row block of a batch the body computes
  C from the batch's rows of v (window 3) and W5 (window 4) and keeps it in a scratch buffer of its own; at the three
  later row blocks it finds the scratch as the first left it.  At every point it stores the product of the block of
  DiA (window 0) with the re-laid f of the batch (window 1) into the block of t3 (window 6), and the product of the
  block of L (window 2) with the scratch, plus the bias row (window 5), into the block of y4 (window 7); both stores
  overwrite their buffers whole.  So the scratch, between points, holds C of the batch of the point before, and
  what a point leaves in y4's buffer is the block of L times C of the point's own batch, plus b5.
-/
import proofs.«144741_g58523224375715_cont_9to1c4b_685_3_alg».proof.Proof.Gen.Kernel.Launch
import proofs.«144741_g58523224375715_cont_9to1c4b_685_3_alg».proof.Proof.Gen.Kernel.Skeleton
import proofs.«144741_g58523224375715_cont_9to1c4b_685_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x512x4096 := Rect.unit (s := S1x512x4096) ![0, 0, 0] S1x512x4096.size inb_S1x512x4096_S1x512x4096_0_0_0
abbrev r1_1 : Rect S1x4096x32 := Rect.unit (s := S1x4096x32) ![0, 0, 0] S1x4096x32.size inb_S1x4096x32_S1x4096x32_0_0_0
abbrev r1_2 : Rect S1x128x512 := Rect.unit (s := S1x128x512) ![0, 0, 0] S1x128x512.size inb_S1x128x512_S1x128x512_0_0_0
abbrev r1_3 : Rect S1x512x128 := Rect.unit (s := S1x512x128) ![0, 0, 0] S1x512x128.size inb_S1x512x128_S1x512x128_0_0_0
abbrev r1_4 : Rect S128x128 := Rect.unit (s := S128x128) ![0, 0] S128x128.size inb_S128x128_S128x128_0_0
abbrev r1_5 : Rect S1x128 := Rect.unit (s := S1x128) ![0, 0] S1x128.size inb_S1x128_S1x128_0_0
abbrev r1_6 : Rect S1x512x32 := Rect.unit (s := S1x512x32) ![0, 0, 0] S1x512x32.size inb_S1x512x32_S1x512x32_0_0_0
abbrev r1_7 : Rect S1x128x128 := Rect.unit (s := S1x128x128) ![0, 0, 0] S1x128x128.size inb_S1x128x128_S1x128x128_0_0_0
abbrev r1_s : Rect S512x128 := Rect.unit (s := S512x128) ![0, 0] S512x128.size inb_S512x128_S512x128_0_0

/-- The scratch operand, a whole buffer of the kernel's own. -/
abbrev scM1 : Memref sig .tc .vmem S512x128 .bf16 := Memref.whole cc1_scratch0

/-- C = v · W5ᵀ of a batch, as the build leaves it in the scratch. -/
def scr1 (x3 : Vec F S1x512x128 .f32) (x4 : Vec F S128x128 .f32) : Vec F S512x128 .bf16 :=
  View.canon [⟨r1_s, k1_pay1 (View.ld x3 r1_3) (View.ld x4 r1_4)⟩]
theorem cover1_s (p0 : Vec F S512x128 .bf16) (y : S512x128.Idx) :
    ∃ pc ∈ ([⟨r1_s, p0⟩] : List (View.Piece (Elt F) S512x128 .bf16)), y ∈ pc.1.set :=
  View.cover_of_tiled [⟨r1_s, p0⟩] S512x128.size (by rfl) y

/-- t3's buffer after the body: the block of DiA times the re-laid f. -/
def out1_6 (x0 : Vec F S1x512x4096 .f32) (x1 : Vec F S1x4096x32 .f32) : Vec F S1x512x32 .f32 :=
  View.canon [⟨r1_6, k1_pay2 (View.ld x0 r1_0) (View.ld x1 r1_1)⟩]
theorem cover1_6 (p0 : Vec F S1x512x32 .f32) (y : S1x512x32.Idx) :
    ∃ pc ∈ ([⟨r1_6, p0⟩] : List (View.Piece (Elt F) S1x512x32 .f32)), y ∈ pc.1.set :=
  View.cover_of_tiled [⟨r1_6, p0⟩] S1x512x32.size (by rfl) y

/-- y4's buffer after the body: the block of L times what the scratch holds, plus the bias row. -/
def out1_7 (x2 : Vec F S1x128x512 .f32) (s : Vec F S512x128 .bf16) (x5 : Vec F S1x128 .f32) : Vec F S1x128x128 .f32 :=
  View.canon [⟨r1_7, k1_pay3 (View.ld x2 r1_2) (View.ld s r1_s) (View.ld x5 r1_5)⟩]
theorem cover1_7 (p0 : Vec F S1x128x128 .f32) (y : S1x128x128.Idx) :
    ∃ pc ∈ ([⟨r1_7, p0⟩] : List (View.Piece (Elt F) S1x128x128 .f32)), y ∈ pc.1.set :=
  View.cover_of_tiled [⟨r1_7, p0⟩] S1x128x128.size (by rfl) y

/-- The body's branch: the row-block coordinate is zero. -/
abbrev cond1 (i : grid1.Coords) : Prop := (Scalar.cmpi .ne (Scalar.extui (Scalar.cmpi .eq (BitVec.ofNat 32 (i 1).val) 0#32)) 0#32) = 1#1
/-- It holds at the points ≡ 0 (mod 4): the first row block of each batch. -/
theorem hcond1 : ∀ t : Fin cfg1.N, cond1 (grid1.coords t) ↔ t.val % 4 = 0 :=
  (by decide +kernel : ∀ t : Fin grid1.N, cond1 (grid1.coords t) ↔ t.val % 4 = 0)

set_option maxHeartbeats 4000000 in
/-- At a batch's first row block: the scratch, found at anything, is left at C of the point's blocks of v and W5, and
    y4's buffer is computed from that. -/
theorem sound_kernel1_build (c : Dev nD) (E : Set ℕ) (i : grid1.Coords) (hc : cond1 i)
    (arg2 : Memref sig .tc .vmem S1x512x4096 .f32) (harg2 : arg2.IsWhole) (arg3 : Memref sig .tc .vmem S1x4096x32 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x512x32 .f32) (harg8 : arg8.IsWhole) (arg9 : Memref sig .tc .vmem S1x128x128 .f32) (harg9 : arg9.IsWhole)
    (x0 : Vec F S1x512x4096 .f32) (x1 : Vec F S1x4096x32 .f32) (x2 : Vec F S1x128x512 .f32) (x3 : Vec F S1x512x128 .f32) (x4 : Vec F S128x128 .f32) (x5 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (∃ d, owns (c : Thread nD τ) scM1 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1)
            ∗ owns (c : Thread nD τ) arg9 fullShare (out1_7 x2 (scr1 x3 x4) x5) ∗ owns (c : Thread nD τ) scM1 fullShare (scr1 x3 x4)) -∗ K ⟨⟩))
      ⊢ wp frame (wpE (defs₀ (F := F)) Variants.none c none) E (cc1__n_body i arg2 harg2 arg3 harg3 arg4 harg4 arg5 harg5 arg6 harg6 arg7 harg7 arg8 harg8 arg9 harg9 scM1 (Memref.isWhole_whole _)) K := by
  simp only [cc1__n_body_eq_skeleton]; unfold cc1__n_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    sl_unfold_run_names
    rw [View.readCov_eq_canon_ld _ _ _ (cover1_s _)]
    exact View.read_writes_eq_canon _ _ _ (cover1_7 _)
  iexists _; isplitr
  swap; · iexact HS
  ipureintro
  exact View.read_writes_eq_canon _ _ _ (cover1_s _)

set_option maxHeartbeats 4000000 in
/-- At a later row block: the scratch, found at `s`, is read and left as found. -/
theorem sound_kernel1_keep (c : Dev nD) (E : Set ℕ) (i : grid1.Coords) (hc : ¬ cond1 i)
    (arg2 : Memref sig .tc .vmem S1x512x4096 .f32) (harg2 : arg2.IsWhole) (arg3 : Memref sig .tc .vmem S1x4096x32 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x512x32 .f32) (harg8 : arg8.IsWhole) (arg9 : Memref sig .tc .vmem S1x128x128 .f32) (harg9 : arg9.IsWhole)
    (x0 : Vec F S1x512x4096 .f32) (x1 : Vec F S1x4096x32 .f32) (x2 : Vec F S1x128x512 .f32) (x3 : Vec F S1x512x128 .f32) (x4 : Vec F S128x128 .f32) (x5 : Vec F S1x128 .f32) (s : Vec F S512x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ owns (c : Thread nD τ) scM1 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1)
            ∗ owns (c : Thread nD τ) arg9 fullShare (out1_7 x2 s x5) ∗ owns (c : Thread nD τ) scM1 fullShare s) -∗ K ⟨⟩))
      ⊢ wp frame (wpE (defs₀ (F := F)) Variants.none c none) E (cc1__n_body i arg2 harg2 arg3 harg3 arg4 harg4 arg5 harg5 arg6 harg6 arg7 harg7 arg8 harg8 arg9 harg9 scM1 (Memref.isWhole_whole _)) K := by
  simp only [cc1__n_body_eq_skeleton]; unfold cc1__n_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0; subst hf1; subst hf2; subst hf3; subst hf4; subst hf5; subst hfs
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists fs; isplitr; · ipureintro; rfl
  iexact HS

/-! ## What the scratch holds between points -/

/-- The first point of `t`'s batch. -/
def base1 (t : Fin cfg1.N) : Fin cfg1.N := ⟨4 * (t.val / 4), by have h := t.isLt; have hN : cfg1.N = 8 := N_1; omega⟩

theorem base1_self (t : Fin cfg1.N) (h0 : t.val % 4 = 0) : base1 t = t := Fin.ext (by simp only [base1]; omega)

/-- C of `t`'s batch: what the scratch holds while the body runs at `t` (after the build, at the batch's first point). -/
def sAt1 (c : Dev nD) (t : Fin cfg1.N) : Vec F S512x128 .bf16 :=
  scr1 (iblk1 V c 3 (base1 t)) (iblk1 V c 4 (base1 t))

theorem sAt1_build (c : Dev nD) (t : Fin cfg1.N) (h0 : t.val % 4 = 0) :
    sAt1 V c t = scr1 (iblk1 V c 3 t) (iblk1 V c 4 t) := by
  unfold sAt1; rw [base1_self t h0]

theorem sAt1_succ (c : Dev nD) (t : Fin cfg1.N) (h : t.val + 1 - 1 < cfg1.N) : sAt1 V c ⟨t.val + 1 - 1, h⟩ = sAt1 V c t := by
  congr 1

theorem sAt1_pred (c : Dev nD) (t : Fin cfg1.N) (h0 : t.val % 4 ≠ 0) (h : t.val - 1 < cfg1.N) :
    sAt1 V c ⟨t.val - 1, h⟩ = sAt1 V c t := by
  unfold sAt1
  rw [show base1 ⟨t.val - 1, h⟩ = base1 t from Fin.ext (by simp only [base1]; omega)]

/-- The class's invariant with the scratch operand split out as a memref owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant before position `n`: at a batch's first point the scratch holds anything (the class's invariant);
    elsewhere it holds C of the batch of the point before. -/
def PhiS1 (c : Dev nD) (n : ℕ) (hn : n ≤ cfg1.N) : sProp 𝕄 :=
  if h : n % 4 = 0 then Pipeline.ΦA spec1 c
  else iprop(iprop(owns (c : Thread nD τ) scM1 fullShare (sAt1 V c ⟨n - 1, by omega⟩) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (hn : n ≤ cfg1.N) (h : n % 4 = 0) : PhiS1 V c n hn = Pipeline.ΦA spec1 c := by
  unfold PhiS1; rw [dif_pos h]

theorem PhiS1_pos (c : Dev nD) (n : ℕ) (hn : n ≤ cfg1.N) (h : n % 4 ≠ 0) :
    PhiS1 V c n hn = iprop(iprop(owns (c : Thread nD τ) scM1 fullShare (sAt1 V c ⟨n - 1, by omega⟩) ∗ Pipeline.scopedRestBut (Ix := Unit) (Name := ℕ) (U := UR sig nD τ) (Lvl := ℕ) (Val := Elt F) spec1 c [cc1_scratch0]) ∗ (∃ r, prngReg c r)) := by
  unfold PhiS1; rw [dif_neg h]

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t)
    | ⟨7, _⟩ => out1_7 (iblk1 V c 2 t) (sAt1 V c t) (iblk1 V c 5 t)
    | ⟨_ + 8, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) := by dsimp only [dat1]
theorem after1_7 (c : Dev nD) (t : Fin cfg1.N) : (dat1 V c).after 7 t = out1_7 (iblk1 V c 2 t) (sAt1 V c t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi1_castSucc (c : Dev nD) (t : Fin cfg1.N) :
    (dat1 V c).Φ t.castSucc = PhiS1 V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point, by cases on whether it is a batch's first. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  rw [show (dat1 V c).Φ t.succ = PhiS1 V c (t.val + 1) t.isLt from rfl, Phi1_castSucc]
  have hN : t.val < 8 := lt_of_lt_of_eq t.isLt (show cfg1.N = 8 from N_1)
  by_cases h0 : t.val % 4 = 0
  · rw [PhiS1_zero V c _ _ h0, PhiS1_pos V c (t.val + 1) _ (by omega), PhiA1_eq, sAt1_succ, sAt1_build V c t h0]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_build c Set.univ _ ((hcond1 t).mpr h0) _ _ _ _ _ _ _ _ _ _ _ _ _ _ _ _
      (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS1_pos V c _ _ h0, sAt1_pred V c t h0]
    by_cases h1 : (t.val + 1) % 4 = 0
    · rw [PhiS1_zero V c _ _ h1, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_keep c Set.univ _ (fun h => h0 ((hcond1 t).mp h)) _ _ _ _ _ _ _ _ _ _ _ _ _ _ _ _
        (iblk1 V c 0 t) (iblk1 V c 1 t) (iblk1 V c 2 t) (iblk1 V c 3 t) (iblk1 V c 4 t) (iblk1 V c 5 t) (sAt1 V c t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hrest Hg]
      · isplitl [HS Hrest]
        · isplitl [HS]; · iexists _; iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS1_pos V c _ _ h1, sAt1_succ]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_keep c Set.univ _ (fun h => h0 ((hcond1 t).mp h)) _ _ _ _ _ _ _ _ _ _ _ _ _ _ _ _
        (iblk1 V c 0 t) (iblk1 V c 1 t) (iblk1 V c 2 t) (iblk1 V c 3 t) (iblk1 V c 4 t) (iblk1 V c 5 t) (sAt1 V c t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant is the class's again: the last point is a batch's last. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_zero V c _ _ (by rw [Fin.val_last, show cfg1.N = 8 from N_1])]
  try exact Idealize.SL.BI.Entails.refl _

end Cert.Kernel.Hand

end
-- ==== Proof.WFrame2.lean ====
/-
  The third call: the four dense layers y = x · Wᵀ + b on whole batches, one batch at a grid point.

  At a point the body reads the batch's rows of the re-laid t1 (window 0), of the re-laid t3 (window 1), of f (window 2)
  and of v (window 3), the four weight matrices (windows 4, 6, 8, 10) and the four bias rows (windows 5, 7, 9, 11), and
  stores y0 = f · W1ᵀ + b1 (window 12), y1 = t1 · W2ᵀ + b2 (window 13), y2 = v · W3ᵀ + b3 (window 14) and
  y3 = t3 · W4ᵀ + b4 (window 15), each overwriting its buffer whole; nothing is kept between points.
-/
import proofs.«144741_g58523224375715_cont_9to1c4b_685_3_alg».proof.Proof.Gen.Kernel.Launch
import proofs.«144741_g58523224375715_cont_9to1c4b_685_3_alg».proof.Proof.Gen.Kernel.Skeleton
import proofs.«144741_g58523224375715_cont_9to1c4b_685_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x1024x128 := Rect.unit (s := S1x1024x128) ![0, 0, 0] S1x1024x128.size inb_S1x1024x128_S1x1024x128_0_0_0
abbrev r2_1 : Rect S1x512x128 := Rect.unit (s := S1x512x128) ![0, 0, 0] S1x512x128.size inb_S1x512x128_S1x512x128_0_0_0
abbrev r2_2 : Rect S1x1024x128 := Rect.unit (s := S1x1024x128) ![0, 0, 0] S1x1024x128.size inb_S1x1024x128_S1x1024x128_0_0_0
abbrev r2_3 : Rect S1x512x128 := Rect.unit (s := S1x512x128) ![0, 0, 0] S1x512x128.size inb_S1x512x128_S1x512x128_0_0_0
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_6 : Rect S128x128 := Rect.unit (s := S128x128) ![0, 0] S128x128.size inb_S128x128_S128x128_0_0
abbrev r2_7 : Rect S1x128 := Rect.unit (s := S1x128) ![0, 0] S1x128.size inb_S1x128_S1x128_0_0
abbrev r2_8 : Rect S128x128 := Rect.unit (s := S128x128) ![0, 0] S128x128.size inb_S128x128_S128x128_0_0
abbrev r2_9 : Rect S1x128 := Rect.unit (s := S1x128) ![0, 0] S1x128.size inb_S1x128_S1x128_0_0
abbrev r2_10 : Rect S128x128 := Rect.unit (s := S128x128) ![0, 0] S128x128.size inb_S128x128_S128x128_0_0
abbrev r2_11 : Rect S1x128 := Rect.unit (s := S1x128) ![0, 0] S1x128.size inb_S1x128_S1x128_0_0
abbrev r2_12 : Rect S1x1024x128 := Rect.unit (s := S1x1024x128) ![0, 0, 0] S1x1024x128.size inb_S1x1024x128_S1x1024x128_0_0_0
abbrev r2_13 : Rect S1x1024x128 := Rect.unit (s := S1x1024x128) ![0, 0, 0] S1x1024x128.size inb_S1x1024x128_S1x1024x128_0_0_0
abbrev r2_14 : Rect S1x512x128 := Rect.unit (s := S1x512x128) ![0, 0, 0] S1x512x128.size inb_S1x512x128_S1x512x128_0_0_0
abbrev r2_15 : Rect S1x512x128 := Rect.unit (s := S1x512x128) ![0, 0, 0] S1x512x128.size inb_S1x512x128_S1x512x128_0_0_0

/-- y0's buffer after the body: the layer W1, b1 on the rows of f. -/
def out2_12 (x2 : Vec F S1x1024x128 .f32) (x4 : Vec F S128x128 .f32) (x5 : Vec F S1x128 .f32) : Vec F S1x1024x128 .f32 :=
  View.canon [⟨r2_12, k2_pay3 (View.ld x2 r2_2) (View.ld x4 r2_4) (View.ld x5 r2_5)⟩]
theorem cover2_12 (p0 : Vec F S1x1024x128 .f32) (y : S1x1024x128.Idx) :
    ∃ pc ∈ ([⟨r2_12, p0⟩] : List (View.Piece (Elt F) S1x1024x128 .f32)), y ∈ pc.1.set :=
  View.cover_of_tiled [⟨r2_12, p0⟩] S1x1024x128.size (by rfl) y

/-- y1's buffer after the body: the layer W2, b2 on the rows of the re-laid t1. -/
def out2_13 (x0 : Vec F S1x1024x128 .f32) (x6 : Vec F S128x128 .f32) (x7 : Vec F S1x128 .f32) : Vec F S1x1024x128 .f32 :=
  View.canon [⟨r2_13, k2_pay4 (View.ld x0 r2_0) (View.ld x6 r2_6) (View.ld x7 r2_7)⟩]
theorem cover2_13 (p0 : Vec F S1x1024x128 .f32) (y : S1x1024x128.Idx) :
    ∃ pc ∈ ([⟨r2_13, p0⟩] : List (View.Piece (Elt F) S1x1024x128 .f32)), y ∈ pc.1.set :=
  View.cover_of_tiled [⟨r2_13, p0⟩] S1x1024x128.size (by rfl) y

/-- y2's buffer after the body: the layer W3, b3 on the rows of v. -/
def out2_14 (x3 : Vec F S1x512x128 .f32) (x8 : Vec F S128x128 .f32) (x9 : Vec F S1x128 .f32) : Vec F S1x512x128 .f32 :=
  View.canon [⟨r2_14, k2_pay1 (View.ld x8 r2_8) (k2_pay5 (View.ld x3 r2_3)) (View.ld x9 r2_9)⟩]
theorem cover2_14 (p0 : Vec F S1x512x128 .f32) (y : S1x512x128.Idx) :
    ∃ pc ∈ ([⟨r2_14, p0⟩] : List (View.Piece (Elt F) S1x512x128 .f32)), y ∈ pc.1.set :=
  View.cover_of_tiled [⟨r2_14, p0⟩] S1x512x128.size (by rfl) y

/-- y3's buffer after the body: the layer W4, b4 on the rows of the re-laid t3. -/
def out2_15 (x1 : Vec F S1x512x128 .f32) (x10 : Vec F S128x128 .f32) (x11 : Vec F S1x128 .f32) : Vec F S1x512x128 .f32 :=
  View.canon [⟨r2_15, k2_pay2 (View.ld x1 r2_1) (View.ld x10 r2_10) (View.ld x11 r2_11)⟩]
theorem cover2_15 (p0 : Vec F S1x512x128 .f32) (y : S1x512x128.Idx) :
    ∃ pc ∈ ([⟨r2_15, p0⟩] : List (View.Piece (Elt F) S1x512x128 .f32)), y ∈ pc.1.set :=
  View.cover_of_tiled [⟨r2_15, p0⟩] S1x512x128.size (by rfl) y

set_option maxHeartbeats 4000000 in
/-- The body on whole staging memrefs: the inputs kept, each output at its layer's value. -/
theorem sound_kernel2 (c : Dev nD) (E : Set ℕ) (i : grid2.Coords)
    (arg1 : Memref sig .tc .vmem S1x1024x128 .f32) (harg1 : arg1.IsWhole) (arg2 : Memref sig .tc .vmem S1x512x128 .f32) (harg2 : arg2.IsWhole) (arg3 : Memref sig .tc .vmem S1x1024x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x1024x128 .f32) (harg13 : arg13.IsWhole) (arg14 : Memref sig .tc .vmem S1x1024x128 .f32) (harg14 : arg14.IsWhole) (arg15 : Memref sig .tc .vmem S1x512x128 .f32) (harg15 : arg15.IsWhole) (arg16 : Memref sig .tc .vmem S1x512x128 .f32) (harg16 : arg16.IsWhole)
    (x0 : Vec F S1x1024x128 .f32) (x1 : Vec F S1x512x128 .f32) (x2 : Vec F S1x1024x128 .f32) (x3 : Vec F S1x512x128 .f32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x2 x4 x5) ∗ owns (c : Thread nD τ) arg14 fullShare (out2_13 x0 x6 x7) ∗ owns (c : Thread nD τ) arg15 fullShare (out2_14 x3 x8 x9) ∗ owns (c : Thread nD τ) arg16 fullShare (out2_15 x1 x10 x11)) -∗ K ⟨⟩))
      ⊢ wp frame (wpE (defs₀ (F := F)) Variants.none c none) E (cc2__s_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__s_body_eq_skeleton]; unfold cc2__s_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover2_12 _)
  isplitl [H13]
  · iexists _; isplitr
    swap; · iexact H13
    ipureintro
    exact View.read_writes_eq_canon _ _ _ (cover2_13 _)
  isplitl [H14]
  · iexists _; isplitr
    swap; · iexact H14
    ipureintro
    exact View.read_writes_eq_canon _ _ _ (cover2_14 _)
  iexists _; isplitr
  swap; · iexact H15
  ipureintro
  exact View.read_writes_eq_canon _ _ _ (cover2_15 _)

/-- The proof data of this call on core `c`: each input's buffer at its block, each output's at its value. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 2 t) (iblk2 V c 4 t) (iblk2 V c 5 t)
    | ⟨13, _⟩ => out2_13 (iblk2 V c 0 t) (iblk2 V c 6 t) (iblk2 V c 7 t)
    | ⟨14, _⟩ => out2_14 (iblk2 V c 3 t) (iblk2 V c 8 t) (iblk2 V c 9 t)
    | ⟨15, _⟩ => out2_15 (iblk2 V c 1 t) (iblk2 V c 10 t) (iblk2 V c 11 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 (iblk2 V c 2 t) (iblk2 V c 4 t) (iblk2 V c 5 t) := by dsimp only [dat2]
theorem after2_13 (c : Dev nD) (t : Fin cfg2.N) : (dat2 V c).after 13 t = out2_13 (iblk2 V c 0 t) (iblk2 V c 6 t) (iblk2 V c 7 t) := by dsimp only [dat2]
theorem after2_14 (c : Dev nD) (t : Fin cfg2.N) : (dat2 V c).after 14 t = out2_14 (iblk2 V c 3 t) (iblk2 V c 8 t) (iblk2 V c 9 t) := by dsimp only [dat2]
theorem after2_15 (c : Dev nD) (t : Fin cfg2.N) : (dat2 V c).after 15 t = out2_15 (iblk2 V c 1 t) (iblk2 V c 10 t) (iblk2 V c 11 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WFrameFold.lean ====
/-
  What core `c`'s buffers hold at each boundary between @main's items, as a fold from the launch memory:
  the launch contents; after the first stretch of host re-layouts; after each call, its arrays at what the pipeline's
  write-backs leave (an input array as entered, an output array the write-backs folded) and every other buffer as
  entered; after the second stretch of host re-layouts; after the third call.
-/
import proofs.«144741_g58523224375715_cont_9to1c4b_685_3_alg».proof.Proof.Gen.Kernel.Launch
import proofs.«144741_g58523224375715_cont_9to1c4b_685_3_alg».proof.Proof.Gen.Kernel.Skeleton
import proofs.«144741_g58523224375715_cont_9to1c4b_685_3_alg».proof.Proof.Gen.Kernel.Points
import proofs.«144741_g58523224375715_cont_9to1c4b_685_3_alg».proof.Proof.WFrame0
import proofs.«144741_g58523224375715_cont_9to1c4b_685_3_alg».proof.Proof.WFrame1
import proofs.«144741_g58523224375715_cont_9to1c4b_685_3_alg».proof.Proof.WFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit (the second call's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (the third call's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the third call's exit: what @main ends with. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.Kernel.Hand

end
-- ==== Proof.WFrameRun.lean ====
/-
  The run of @main: a stretch of host re-layouts, the first call, the second call, a stretch of host re-layouts, the
  third call.  Every weakly fair execution terminates, nothing faulting, and at the end every unscoped buffer of core
  `c` holds what the fold of FrameFold says: `W5 m ρ c`.
-/
import proofs.«144741_g58523224375715_cont_9to1c4b_685_3_alg».proof.Proof.Gen.Kernel.Launch
import proofs.«144741_g58523224375715_cont_9to1c4b_685_3_alg».proof.Proof.Gen.Kernel.Skeleton
import proofs.«144741_g58523224375715_cont_9to1c4b_685_3_alg».proof.Proof.Gen.Kernel.Points
import proofs.«144741_g58523224375715_cont_9to1c4b_685_3_alg».proof.Proof.WFrameFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host re-layouts allocate nothing. -/
theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-- Before the second call's first point, and after its last (a batch's last), its invariant is the class's. -/
theorem Phi1_first (c : Dev nD) : (pdats m ρ 1 c).Φ 0 = Pipeline.ΦA spec1 c :=
  PhiS1_zero (V2 m ρ) c 0 (Nat.zero_le _) rfl
theorem Phi1_at (c : Dev nD) (t : Fin ((Pipeline.pin (pcfgs (F := F)) adm 1).N + 1)) (ht : t.val % 4 = 0) :
    (pdats m ρ 1 c).Φ t = Pipeline.ΦA spec1 c :=
  PhiS1_zero (V2 m ρ) c t.val (Nat.le_of_lt_succ t.isLt) ht
theorem Phi1_last (c : Dev nD) : (pdats m ρ 1 c).Φ (Fin.last _) = Pipeline.ΦA spec1 c :=
  Phi1_at m ρ c (Fin.last _) (by rw [Fin.val_last]; show cfg1.N % 4 = 0; rw [show cfg1.N = 8 from N_1])

-- a library lemma stated over the pinned configuration unifies with the printed one only when unification may unfold
-- plain definitions in a metavariable's type
set_option backward.isDefEq.respectTransparency.types false in
/-- Call 0 over the thread state: entered with every unscoped buffer at `W1`, left at `W2`.  Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered with every unscoped buffer at `W2`, left at `W3`.  Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [Phi1_first m ρ c]; unfold Pipeline.ΦA
    iintro ⟨Hp, -, Hr⟩
    isplitl [Hr]; · iexact Hr
    iexact Hp
  hout c := by
    rw [Pipeline.ownSems0_none, Phi1_last m ρ c]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 over the thread state: entered with every unscoped buffer at `W4`, left at `W5`.  Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five items in order. -/
abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ) ]
/-- @main IS the run of the items. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has each unscoped buffer of each core at `W5`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.Kernel.Hand

end
-- ==== Proof.WFrameArgs.lean ====
/-
  No item of @main writes an argument array: a host re-layout writes only its own result, and a call reads an argument
  through an input window or leaves it alone.  So the fold of FrameFold, read at an argument's buffer, walks back to the
  launch memory.
-/
import proofs.«144741_g58523224375715_cont_9to1c4b_685_3_alg».proof.Proof.Gen.Kernel.Launch
import proofs.«144741_g58523224375715_cont_9to1c4b_685_3_alg».proof.Proof.Gen.Kernel.Skeleton
import proofs.«144741_g58523224375715_cont_9to1c4b_685_3_alg».proof.Proof.Gen.Kernel.Points
import proofs.«144741_g58523224375715_cont_9to1c4b_685_3_alg».proof.Proof.WFrameFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 3).trans (((dat2 (V4 m ρ) c).arrAt_in 3 rfl _).trans (A_eq2 (V4 m ρ) c 3))
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 3).trans (((dat1 (V2 m ρ) c).arrAt_in 3 rfl _).trans (A_eq1 (V2 m ρ) c 3))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 2).trans (((dat2 (V4 m ρ) c).arrAt_in 2 rfl _).trans (A_eq2 (V4 m ρ) c 2))
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := (W5_arr m ρ c 4).trans (((dat2 (V4 m ρ) c).arrAt_in 4 rfl _).trans (A_eq2 (V4 m ρ) c 4))
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (W5_arr m ρ c 6).trans (((dat2 (V4 m ρ) c).arrAt_in 6 rfl _).trans (A_eq2 (V4 m ρ) c 6))
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := (W5_arr m ρ c 8).trans (((dat2 (V4 m ρ) c).arrAt_in 8 rfl _).trans (A_eq2 (V4 m ρ) c 8))
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := (W5_arr m ρ c 10).trans (((dat2 (V4 m ρ) c).arrAt_in 10 rfl _).trans (A_eq2 (V4 m ρ) c 10))
    _ = W3 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := (W3_arr m ρ c 4).trans (((dat1 (V2 m ρ) c).arrAt_in 4 rfl _).trans (A_eq1 (V2 m ρ) c 4))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

end Cert.Kernel.Hand

end
-- ==== Proof.Spec.lean ====
/-
  What the five results are, entry by entry, over the extended reals.

  Inputs: L [2,512,512], Di [2,4096,2048], DiA [2,2048,4096], v [2,512,128], f [2,1024,128], five weight matrices
  W [128,128] (one row per output feature) and five bias vectors b [128].

  A dense layer sends a row x to  y o = Σ k, x k * W (o, k) + b o.
  The operator Di acts on v re-laid as 2048 rows of 32 numbers (row j of the re-laid array is the quarter j % 4 of
  row j / 4 of v), giving 4096 rows of 32 numbers, which are re-laid as 1024 rows of 128 numbers (row r is rows
  4 r … 4 r + 3 side by side); DiA acts the same way on f.  The fifth result applies L to the rows of the layer's
  image of v:  y4 (n, r, o) = Σ j, L (n, r, j) * (Σ k, v (n, j, k) * W5 (o, k)) + b5 o.
-/
import Idealize.ShloMosaic.Lib.ValueIdx
import Idealize.ShloMosaic.PureOps.Ideal

noncomputable section

namespace Cert.Spec

open Idealize.ShloMosaic Idealize.ShloMosaic.ValueIdx

/-- An f32 array of three axes, read over the extended reals. -/
abbrev A3 (a b c : Nat) : Type := FVec Ideal ⟨3, ![a, b, c]⟩ .f32
/-- A weight matrix, one row per output feature. -/
abbrev Mat : Type := FVec Ideal ⟨2, ![128, 128]⟩ .f32
/-- A bias vector. -/
abbrev Bias : Type := FVec Ideal ⟨1, ![128]⟩ .f32

/-- Di applied to the re-laid v: entry (n, p, q) is Σ j, Di (n, p, j) * v (n, j / 4, (j % 4) * 32 + q). -/
def t1At (Di : A3 2 4096 2048) (v : A3 2 512 128) (n : Fin 2) (p : Fin 4096) (q : Fin 32) : EReal :=
  ∑ j : Fin 2048, Di (ix3 n p j) * v (ix3 n (⟨j.val / 4, by omega⟩ : Fin 512) (⟨(j.val % 4) * 32 + q.val, by omega⟩ : Fin 128))

/-- DiA applied to the re-laid f: entry (n, p, q) is Σ j, DiA (n, p, j) * f (n, j / 4, (j % 4) * 32 + q). -/
def t3At (DiA : A3 2 2048 4096) (f : A3 2 1024 128) (n : Fin 2) (p : Fin 2048) (q : Fin 32) : EReal :=
  ∑ j : Fin 4096, DiA (ix3 n p j) * f (ix3 n (⟨j.val / 4, by omega⟩ : Fin 1024) (⟨(j.val % 4) * 32 + q.val, by omega⟩ : Fin 128))

/-- The layer W1, b1 on the rows of f. -/
def y0At (f : A3 2 1024 128) (W : Mat) (b : Bias) (n : Fin 2) (r : Fin 1024) (o : Fin 128) : EReal :=
  (∑ k : Fin 128, f (ix3 n r k) * W (ix2 o k)) + b (ix1 o)

/-- The layer W2, b2 on the rows of Di's image of v, four rows of 32 side by side. -/
def y1At (Di : A3 2 4096 2048) (v : A3 2 512 128) (W : Mat) (b : Bias) (n : Fin 2) (r : Fin 1024) (o : Fin 128) : EReal :=
  (∑ k : Fin 128, t1At Di v n (⟨4 * r.val + k.val / 32, by omega⟩ : Fin 4096) (⟨k.val % 32, by omega⟩ : Fin 32) * W (ix2 o k))
    + b (ix1 o)

/-- The layer W3, b3 on the rows of v. -/
def y2At (v : A3 2 512 128) (W : Mat) (b : Bias) (n : Fin 2) (r : Fin 512) (o : Fin 128) : EReal :=
  (∑ k : Fin 128, v (ix3 n r k) * W (ix2 o k)) + b (ix1 o)

/-- The layer W4, b4 on the rows of DiA's image of f, four rows of 32 side by side. -/
def y3At (DiA : A3 2 2048 4096) (f : A3 2 1024 128) (W : Mat) (b : Bias) (n : Fin 2) (r : Fin 512) (o : Fin 128) : EReal :=
  (∑ k : Fin 128, t3At DiA f n (⟨4 * r.val + k.val / 32, by omega⟩ : Fin 2048) (⟨k.val % 32, by omega⟩ : Fin 32) * W (ix2 o k))
    + b (ix1 o)

/-- L applied to the layer W5's image of v (no bias inside), plus b5. -/
def y4At (L : A3 2 512 512) (v : A3 2 512 128) (W : Mat) (b : Bias) (n : Fin 2) (r : Fin 512) (o : Fin 128) : EReal :=
  (∑ j : Fin 512, L (ix3 n r j) * (∑ k : Fin 128, v (ix3 n j k) * W (ix2 o k))) + b (ix1 o)

/-- The five results as arrays. -/
def Y0 (f : A3 2 1024 128) (W : Mat) (b : Bias) : A3 2 1024 128 := fun i => y0At f W b (i 0) (i 1) (i 2)
def Y1 (Di : A3 2 4096 2048) (v : A3 2 512 128) (W : Mat) (b : Bias) : A3 2 1024 128 := fun i => y1At Di v W b (i 0) (i 1) (i 2)
def Y2 (v : A3 2 512 128) (W : Mat) (b : Bias) : A3 2 512 128 := fun i => y2At v W b (i 0) (i 1) (i 2)
def Y3 (DiA : A3 2 2048 4096) (f : A3 2 1024 128) (W : Mat) (b : Bias) : A3 2 512 128 := fun i => y3At DiA f W b (i 0) (i 1) (i 2)
def Y4 (L : A3 2 512 512) (v : A3 2 512 128) (W : Mat) (b : Bias) : A3 2 512 128 := fun i => y4At L v W b (i 0) (i 1) (i 2)

theorem Y0_apply (f : A3 2 1024 128) (W : Mat) (b : Bias) (n : Fin 2) (r : Fin 1024) (o : Fin 128) :
    Y0 f W b (ix3 n r o) = y0At f W b n r o := rfl
theorem Y1_apply (Di : A3 2 4096 2048) (v : A3 2 512 128) (W : Mat) (b : Bias) (n : Fin 2) (r : Fin 1024) (o : Fin 128) :
    Y1 Di v W b (ix3 n r o) = y1At Di v W b n r o := rfl
theorem Y2_apply (v : A3 2 512 128) (W : Mat) (b : Bias) (n : Fin 2) (r : Fin 512) (o : Fin 128) :
    Y2 v W b (ix3 n r o) = y2At v W b n r o := rfl
theorem Y3_apply (DiA : A3 2 2048 4096) (f : A3 2 1024 128) (W : Mat) (b : Bias) (n : Fin 2) (r : Fin 512) (o : Fin 128) :
    Y3 DiA f W b (ix3 n r o) = y3At DiA f W b n r o := rfl
theorem Y4_apply (L : A3 2 512 512) (v : A3 2 512 128) (W : Mat) (b : Bias) (n : Fin 2) (r : Fin 512) (o : Fin 128) :
    Y4 L v W b (ix3 n r o) = y4At L v W b n r o := rfl

end Cert.Spec

end
-- ==== Proof.RefRows.lean ====
/-
  The flat rows of the reference's layers.

  Each layer of the reference works on its input re-laid as flat rows of 128 numbers: an array of two batches of R rows
  becomes 2 R rows, batch n's row r becoming row n * R + r.
-/
import Idealize.ShloMosaic.Lib.ValueIdx

namespace Cert.RefSide

/-- Row n * 1024 + r of the 2048 flat rows. -/
abbrev row2048 (n : Fin 2) (r : Fin 1024) : Fin 2048 := ⟨n.val * 1024 + r.val, by omega⟩

/-- Row n * 512 + r of the 1024 flat rows. -/
abbrev row1024 (n : Fin 2) (r : Fin 512) : Fin 1024 := ⟨n.val * 512 + r.val, by omega⟩

end Cert.RefSide
-- ==== Proof.RefY0.lean ====
/-
  The reference's first result, entry by entry: the layer W1, b1 applied to the rows of f.

  The reference flattens f to 2048 rows of 128 numbers (row n * 1024 + r is row r of batch n), multiplies by the
  transposed weight matrix, adds the bias broadcast along the rows, and restores the three axes.
-/
import proofs.«144741_g58523224375715_cont_9to1c4b_685_3_alg».proof.Proof.Gen.ReferenceIdeal.Read
import proofs.«144741_g58523224375715_cont_9to1c4b_685_3_alg».proof.Proof.Spec
import proofs.«144741_g58523224375715_cont_9to1c4b_685_3_alg».proof.Proof.RefRows

noncomputable section

namespace Cert.RefSide

open Cert.ReferenceIdeal Cert.ReferenceIdeal.Gen Cert.ReferenceIdeal.Read Idealize.ShloMosaic Idealize.ShloMosaic.ValueIdx

/-- The flat row of the result holding entry (n, r, ·). -/
theorem idx13 (n : Fin 2) (r : Fin 1024) (o : Fin 128) : idx_main_v13 (ix3 n r o) = ix2 (row2048 n r) o := by
  have hn := n.isLt; have hr := r.isLt; have ho := o.isLt
  funext a
  match a with
  | ⟨0, _⟩ => exact Fin.ext (by show ((n.val * 1024 + r.val) * 128 + o.val) / 128 = n.val * 1024 + r.val; omega)
  | ⟨1, _⟩ => exact Fin.ext (by show ((n.val * 1024 + r.val) * 128 + o.val) % 128 = o.val; omega)

/-- The product's left operand is read along row e. -/
theorem lidx9 (e : Fin 2048) (o k : Fin 128) : lidx_main_v9 (ix2 e o) k = ix2 e k := by
  funext a
  match a with
  | ⟨0, _⟩ => rfl
  | ⟨1, _⟩ => rfl

/-- The product's right operand is read down column o. -/
theorem ridx9 (e : Fin 2048) (o k : Fin 128) : ridx_main_v9 (ix2 e o) k = ix2 k o := by
  funext a
  match a with
  | ⟨0, _⟩ => rfl
  | ⟨1, _⟩ => rfl

/-- The transposed weight matrix at (k, o) is the weight matrix at (o, k). -/
theorem idx8 (k o : Fin 128) : idx_main_v8 (ix2 k o) = ix2 o k := by
  funext a
  match a with
  | ⟨0, _⟩ => rfl
  | ⟨1, _⟩ => rfl

/-- The bias broadcast to a row and then along the rows, at (e, o), is the bias at o. -/
theorem idx10_11 (e : Fin 2048) (o : Fin 128) : idx_main_v10 (idx_main_v11 (ix2 e o)) = ix1 o := by
  funext a
  match a with
  | ⟨0, _⟩ => rfl

/-- Entry (n, r, o) of the result: the flat row n * 1024 + r of the layer's input against row o of the weight matrix,
    plus the bias at o. -/
theorem layer0 (f : Spec.A3 2 1024 128) (W : Spec.Mat) (b : Spec.Bias) (n : Fin 2) (r : Fin 1024) (o : Fin 128) :
    val_main_v13 (F := Ideal) f W b (ix3 n r o)
      = (∑ k : Fin 128, val_main_v7 (F := Ideal) f (ix2 (row2048 n r) k) * W (ix2 o k)) + b (ix1 o) := by
  rw [val_main_v13_apply, idx13, val_main_v12_apply, val_main_v9_apply, val_main_v11_apply,
    val_main_v10_apply, idx10_11, Ideal.addf_def]
  congr 1
  refine Finset.sum_congr rfl fun k _ => ?_
  rw [lidx9, ridx9, val_main_v8_apply, idx8]

/-- Flat row n * 1024 + r of f is row r of batch n. -/
theorem idx7 (n : Fin 2) (r : Fin 1024) (k : Fin 128) : idx_main_v7 (ix2 (row2048 n r) k) = ix3 n r k := by
  have hn := n.isLt; have hr := r.isLt; have hk := k.isLt
  funext a
  match a with
  | ⟨0, _⟩ => exact Fin.ext (by show ((n.val * 1024 + r.val) * 128 + k.val) / 131072 = n.val; omega)
  | ⟨1, _⟩ => exact Fin.ext (by show ((n.val * 1024 + r.val) * 128 + k.val) / 128 % 1024 = r.val; omega)
  | ⟨2, _⟩ => exact Fin.ext (by show ((n.val * 1024 + r.val) * 128 + k.val) % 128 = k.val; omega)

/-- The first result at (n, r, o). -/
theorem y0_entry (f : Spec.A3 2 1024 128) (W : Spec.Mat) (b : Spec.Bias) (n : Fin 2) (r : Fin 1024) (o : Fin 128) :
    val_main_v13 (F := Ideal) f W b (ix3 n r o) = Spec.y0At f W b n r o := by
  rw [layer0]
  unfold Spec.y0At
  congr 1
  refine Finset.sum_congr rfl fun k _ => ?_
  rw [val_main_v7_apply, idx7]

/-- The first result is the specification's. -/
theorem y0_eq (f : Spec.A3 2 1024 128) (W : Spec.Mat) (b : Spec.Bias) : val_main_v13 (F := Ideal) f W b = Spec.Y0 f W b := by
  funext i
  rw [eq_ix3 i]
  exact y0_entry f W b (i 0) (i 1) (i 2)

end Cert.RefSide

end
-- ==== Proof.RefY1.lean ====
/-
  The reference's second result, entry by entry: the layer applied to the rows of Di's image of v.

  The reference re-lays v as 2048 rows of 32 numbers (row j is the quarter j % 4 of row j / 4), forms the batched
  product with Di (4096 rows of 32 numbers), re-lays that as 1024 rows of 128 numbers (row r is rows 4 r … 4 r + 3 side
  by side), and applies the layer to the 2048 flat rows.
-/
import proofs.«144741_g58523224375715_cont_9to1c4b_685_3_alg».proof.Proof.Gen.ReferenceIdeal.Read
import proofs.«144741_g58523224375715_cont_9to1c4b_685_3_alg».proof.Proof.Spec
import proofs.«144741_g58523224375715_cont_9to1c4b_685_3_alg».proof.Proof.RefRows

noncomputable section

namespace Cert.RefSide

open Cert.ReferenceIdeal Cert.ReferenceIdeal.Gen Cert.ReferenceIdeal.Read Idealize.ShloMosaic Idealize.ShloMosaic.ValueIdx

/-- The flat row of the result holding entry (n, r, ·). -/
theorem idx20 (n : Fin 2) (r : Fin 1024) (o : Fin 128) : idx_main_v20 (ix3 n r o) = ix2 (row2048 n r) o := by
  have hn := n.isLt; have hr := r.isLt; have ho := o.isLt
  funext a
  match a with
  | ⟨0, _⟩ => exact Fin.ext (by show ((n.val * 1024 + r.val) * 128 + o.val) / 128 = n.val * 1024 + r.val; omega)
  | ⟨1, _⟩ => exact Fin.ext (by show ((n.val * 1024 + r.val) * 128 + o.val) % 128 = o.val; omega)

/-- The product's left operand is read along row e. -/
theorem lidx16 (e : Fin 2048) (o k : Fin 128) : lidx_main_v16 (ix2 e o) k = ix2 e k := by
  funext a
  match a with
  | ⟨0, _⟩ => rfl
  | ⟨1, _⟩ => rfl

/-- The product's right operand is read down column o. -/
theorem ridx16 (e : Fin 2048) (o k : Fin 128) : ridx_main_v16 (ix2 e o) k = ix2 k o := by
  funext a
  match a with
  | ⟨0, _⟩ => rfl
  | ⟨1, _⟩ => rfl

/-- The transposed weight matrix at (k, o) is the weight matrix at (o, k). -/
theorem idx15 (k o : Fin 128) : idx_main_v15 (ix2 k o) = ix2 o k := by
  funext a
  match a with
  | ⟨0, _⟩ => rfl
  | ⟨1, _⟩ => rfl

/-- The bias broadcast to a row and then along the rows, at (e, o), is the bias at o. -/
theorem idx17_18 (e : Fin 2048) (o : Fin 128) : idx_main_v17 (idx_main_v18 (ix2 e o)) = ix1 o := by
  funext a
  match a with
  | ⟨0, _⟩ => rfl

/-- Entry (n, r, o) of the result: the flat row n * 1024 + r of the layer's input against row o of the weight matrix,
    plus the bias at o. -/
theorem layer1 (Di : Spec.A3 2 4096 2048) (v : Spec.A3 2 512 128) (W : Spec.Mat) (b : Spec.Bias) (n : Fin 2) (r : Fin 1024) (o : Fin 128) :
    val_main_v20 (F := Ideal) Di v W b (ix3 n r o)
      = (∑ k : Fin 128, val_main_v14 (F := Ideal) Di v (ix2 (row2048 n r) k) * W (ix2 o k)) + b (ix1 o) := by
  rw [val_main_v20_apply, idx20, val_main_v19_apply, val_main_v16_apply, val_main_v18_apply,
    val_main_v17_apply, idx17_18, Ideal.addf_def]
  congr 1
  refine Finset.sum_congr rfl fun k _ => ?_
  rw [lidx16, ridx16, val_main_v15_apply, idx15]

/-- Flat row n * 1024 + r of Di's image is row r of batch n. -/
theorem idx14 (n : Fin 2) (r : Fin 1024) (k : Fin 128) : idx_main_v14 (ix2 (row2048 n r) k) = ix3 n r k := by
  have hn := n.isLt; have hr := r.isLt; have hk := k.isLt
  funext a
  match a with
  | ⟨0, _⟩ => exact Fin.ext (by show ((n.val * 1024 + r.val) * 128 + k.val) / 131072 = n.val; omega)
  | ⟨1, _⟩ => exact Fin.ext (by show ((n.val * 1024 + r.val) * 128 + k.val) / 128 % 1024 = r.val; omega)
  | ⟨2, _⟩ => exact Fin.ext (by show ((n.val * 1024 + r.val) * 128 + k.val) % 128 = k.val; omega)

/-- Entry (n, r, k) of the image seen as 1024 rows of 128 is entry (n, 4 r + k / 32, k % 32) of it seen as 4096 rows of 32. -/
theorem idx2 (n : Fin 2) (r : Fin 1024) (k : Fin 128) :
    idx_main_v2 (ix3 n r k) = ix3 n (⟨4 * r.val + k.val / 32, by omega⟩ : Fin 4096) (⟨k.val % 32, by omega⟩ : Fin 32) := by
  have hn := n.isLt; have hr := r.isLt; have hk := k.isLt
  funext a
  match a with
  | ⟨0, _⟩ => exact Fin.ext (by show ((n.val * 1024 + r.val) * 128 + k.val) / 131072 = n.val; omega)
  | ⟨1, _⟩ => exact Fin.ext (by show ((n.val * 1024 + r.val) * 128 + k.val) / 32 % 4096 = 4 * r.val + k.val / 32; omega)
  | ⟨2, _⟩ => exact Fin.ext (by show ((n.val * 1024 + r.val) * 128 + k.val) % 32 = k.val % 32; omega)

/-- Entry (n, j, q) of v seen as 2048 rows of 32 is entry (n, j / 4, (j % 4) * 32 + q) of v. -/
theorem idx0 (n : Fin 2) (j : Fin 2048) (q : Fin 32) :
    idx_main_v0 (ix3 n j q) = ix3 n (⟨j.val / 4, by omega⟩ : Fin 512) (⟨(j.val % 4) * 32 + q.val, by omega⟩ : Fin 128) := by
  have hn := n.isLt; have hj := j.isLt; have hq := q.isLt
  funext a
  match a with
  | ⟨0, _⟩ => exact Fin.ext (by show ((n.val * 2048 + j.val) * 32 + q.val) / 65536 = n.val; omega)
  | ⟨1, _⟩ => exact Fin.ext (by show ((n.val * 2048 + j.val) * 32 + q.val) / 128 % 512 = j.val / 4; omega)
  | ⟨2, _⟩ => exact Fin.ext (by show ((n.val * 2048 + j.val) * 32 + q.val) % 128 = (j.val % 4) * 32 + q.val; omega)

/-- The batched product reads Di along row p of batch n. -/
theorem lidx1 (n : Fin 2) (p : Fin 4096) (q : Fin 32) (j : Fin 2048) : lidx_main_v1 (ix3 n p q) j = ix3 n p j := by
  funext a
  match a with
  | ⟨0, _⟩ => rfl
  | ⟨1, _⟩ => rfl
  | ⟨2, _⟩ => rfl

/-- The batched product reads the re-laid v down column q of batch n. -/
theorem ridx1 (n : Fin 2) (p : Fin 4096) (q : Fin 32) (j : Fin 2048) : ridx_main_v1 (ix3 n p q) j = ix3 n j q := by
  funext a
  match a with
  | ⟨0, _⟩ => rfl
  | ⟨1, _⟩ => rfl
  | ⟨2, _⟩ => rfl

/-- The batched product at (n, p, q). -/
theorem prod1 (Di : Spec.A3 2 4096 2048) (v : Spec.A3 2 512 128) (n : Fin 2) (p : Fin 4096) (q : Fin 32) :
    val_main_v1 (F := Ideal) Di v (ix3 n p q) = Spec.t1At Di v n p q := by
  rw [val_main_v1_apply]
  unfold Spec.t1At
  refine Finset.sum_congr rfl fun j _ => ?_
  rw [lidx1, ridx1, val_main_v0_apply, idx0]

/-- Flat row n * 1024 + r of the image at k. -/
theorem in1 (Di : Spec.A3 2 4096 2048) (v : Spec.A3 2 512 128) (n : Fin 2) (r : Fin 1024) (k : Fin 128) :
    val_main_v14 (F := Ideal) Di v (ix2 (row2048 n r) k)
      = Spec.t1At Di v n (⟨4 * r.val + k.val / 32, by omega⟩ : Fin 4096) (⟨k.val % 32, by omega⟩ : Fin 32) := by
  rw [val_main_v14_apply, idx14, val_main_v2_apply, idx2, prod1]

/-- The second result at (n, r, o). -/
theorem y1_entry (Di : Spec.A3 2 4096 2048) (v : Spec.A3 2 512 128) (W : Spec.Mat) (b : Spec.Bias) (n : Fin 2) (r : Fin 1024) (o : Fin 128) :
    val_main_v20 (F := Ideal) Di v W b (ix3 n r o) = Spec.y1At Di v W b n r o := by
  rw [layer1]
  unfold Spec.y1At
  congr 1
  refine Finset.sum_congr rfl fun k _ => ?_
  rw [in1]

/-- The second result is the specification's. -/
theorem y1_eq (Di : Spec.A3 2 4096 2048) (v : Spec.A3 2 512 128) (W : Spec.Mat) (b : Spec.Bias) : val_main_v20 (F := Ideal) Di v W b = Spec.Y1 Di v W b := by
  funext i
  rw [eq_ix3 i]
  exact y1_entry Di v W b (i 0) (i 1) (i 2)

end Cert.RefSide

end
-- ==== Proof.RefY2.lean ====
/-
  The reference's third result, entry by entry: the layer W3, b3 applied to the rows of v.

  The reference flattens v to 1024 rows of 128 numbers (row n * 512 + r is row r of batch n), multiplies by the
  transposed weight matrix, adds the bias broadcast along the rows, and restores the three axes.
-/
import proofs.«144741_g58523224375715_cont_9to1c4b_685_3_alg».proof.Proof.Gen.ReferenceIdeal.Read
import proofs.«144741_g58523224375715_cont_9to1c4b_685_3_alg».proof.Proof.Spec
import proofs.«144741_g58523224375715_cont_9to1c4b_685_3_alg».proof.Proof.RefRows

noncomputable section

namespace Cert.RefSide

open Cert.ReferenceIdeal Cert.ReferenceIdeal.Gen Cert.ReferenceIdeal.Read Idealize.ShloMosaic Idealize.ShloMosaic.ValueIdx

/-- The flat row of the result holding entry (n, r, ·). -/
theorem idx27 (n : Fin 2) (r : Fin 512) (o : Fin 128) : idx_main_v27 (ix3 n r o) = ix2 (row1024 n r) o := by
  have hn := n.isLt; have hr := r.isLt; have ho := o.isLt
  funext a
  match a with
  | ⟨0, _⟩ => exact Fin.ext (by show ((n.val * 512 + r.val) * 128 + o.val) / 128 = n.val * 512 + r.val; omega)
  | ⟨1, _⟩ => exact Fin.ext (by show ((n.val * 512 + r.val) * 128 + o.val) % 128 = o.val; omega)

/-- The product's left operand is read along row e. -/
theorem lidx23 (e : Fin 1024) (o k : Fin 128) : lidx_main_v23 (ix2 e o) k = ix2 e k := by
  funext a
  match a with
  | ⟨0, _⟩ => rfl
  | ⟨1, _⟩ => rfl

/-- The product's right operand is read down column o. -/
theorem ridx23 (e : Fin 1024) (o k : Fin 128) : ridx_main_v23 (ix2 e o) k = ix2 k o := by
  funext a
  match a with
  | ⟨0, _⟩ => rfl
  | ⟨1, _⟩ => rfl

/-- The transposed weight matrix at (k, o) is the weight matrix at (o, k). -/
theorem idx22 (k o : Fin 128) : idx_main_v22 (ix2 k o) = ix2 o k := by
  funext a
  match a with
  | ⟨0, _⟩ => rfl
  | ⟨1, _⟩ => rfl

/-- The bias broadcast to a row and then along the rows, at (e, o), is the bias at o. -/
theorem idx24_25 (e : Fin 1024) (o : Fin 128) : idx_main_v24 (idx_main_v25 (ix2 e o)) = ix1 o := by
  funext a
  match a with
  | ⟨0, _⟩ => rfl

/-- Entry (n, r, o) of the result: the flat row n * 512 + r of the layer's input against row o of the weight matrix,
    plus the bias at o. -/
theorem layer2 (v : Spec.A3 2 512 128) (W : Spec.Mat) (b : Spec.Bias) (n : Fin 2) (r : Fin 512) (o : Fin 128) :
    val_main_v27 (F := Ideal) v W b (ix3 n r o)
      = (∑ k : Fin 128, val_main_v21 (F := Ideal) v (ix2 (row1024 n r) k) * W (ix2 o k)) + b (ix1 o) := by
  rw [val_main_v27_apply, idx27, val_main_v26_apply, val_main_v23_apply, val_main_v25_apply,
    val_main_v24_apply, idx24_25, Ideal.addf_def]
  congr 1
  refine Finset.sum_congr rfl fun k _ => ?_
  rw [lidx23, ridx23, val_main_v22_apply, idx22]

/-- Flat row n * 512 + r of v is row r of batch n. -/
theorem idx21 (n : Fin 2) (r : Fin 512) (k : Fin 128) : idx_main_v21 (ix2 (row1024 n r) k) = ix3 n r k := by
  have hn := n.isLt; have hr := r.isLt; have hk := k.isLt
  funext a
  match a with
  | ⟨0, _⟩ => exact Fin.ext (by show ((n.val * 512 + r.val) * 128 + k.val) / 65536 = n.val; omega)
  | ⟨1, _⟩ => exact Fin.ext (by show ((n.val * 512 + r.val) * 128 + k.val) / 128 % 512 = r.val; omega)
  | ⟨2, _⟩ => exact Fin.ext (by show ((n.val * 512 + r.val) * 128 + k.val) % 128 = k.val; omega)

/-- The third result at (n, r, o). -/
theorem y2_entry (v : Spec.A3 2 512 128) (W : Spec.Mat) (b : Spec.Bias) (n : Fin 2) (r : Fin 512) (o : Fin 128) :
    val_main_v27 (F := Ideal) v W b (ix3 n r o) = Spec.y2At v W b n r o := by
  rw [layer2]
  unfold Spec.y2At
  congr 1
  refine Finset.sum_congr rfl fun k _ => ?_
  rw [val_main_v21_apply, idx21]

/-- The third result is the specification's. -/
theorem y2_eq (v : Spec.A3 2 512 128) (W : Spec.Mat) (b : Spec.Bias) : val_main_v27 (F := Ideal) v W b = Spec.Y2 v W b := by
  funext i
  rw [eq_ix3 i]
  exact y2_entry v W b (i 0) (i 1) (i 2)

end Cert.RefSide

end
-- ==== Proof.RefY3.lean ====
/-
  The reference's fourth result, entry by entry: the layer applied to the rows of DiA's image of f.

  The reference re-lays f as 4096 rows of 32 numbers (row j is the quarter j % 4 of row j / 4), forms the batched
  product with DiA (2048 rows of 32 numbers), re-lays that as 512 rows of 128 numbers (row r is rows 4 r … 4 r + 3 side
  by side), and applies the layer to the 1024 flat rows.
-/
import proofs.«144741_g58523224375715_cont_9to1c4b_685_3_alg».proof.Proof.Gen.ReferenceIdeal.Read
import proofs.«144741_g58523224375715_cont_9to1c4b_685_3_alg».proof.Proof.Spec
import proofs.«144741_g58523224375715_cont_9to1c4b_685_3_alg».proof.Proof.RefRows

noncomputable section

namespace Cert.RefSide

open Cert.ReferenceIdeal Cert.ReferenceIdeal.Gen Cert.ReferenceIdeal.Read Idealize.ShloMosaic Idealize.ShloMosaic.ValueIdx

/-- The flat row of the result holding entry (n, r, ·). -/
theorem idx34 (n : Fin 2) (r : Fin 512) (o : Fin 128) : idx_main_v34 (ix3 n r o) = ix2 (row1024 n r) o := by
  have hn := n.isLt; have hr := r.isLt; have ho := o.isLt
  funext a
  match a with
  | ⟨0, _⟩ => exact Fin.ext (by show ((n.val * 512 + r.val) * 128 + o.val) / 128 = n.val * 512 + r.val; omega)
  | ⟨1, _⟩ => exact Fin.ext (by show ((n.val * 512 + r.val) * 128 + o.val) % 128 = o.val; omega)

/-- The product's left operand is read along row e. -/
theorem lidx30 (e : Fin 1024) (o k : Fin 128) : lidx_main_v30 (ix2 e o) k = ix2 e k := by
  funext a
  match a with
  | ⟨0, _⟩ => rfl
  | ⟨1, _⟩ => rfl

/-- The product's right operand is read down column o. -/
theorem ridx30 (e : Fin 1024) (o k : Fin 128) : ridx_main_v30 (ix2 e o) k = ix2 k o := by
  funext a
  match a with
  | ⟨0, _⟩ => rfl
  | ⟨1, _⟩ => rfl

/-- The transposed weight matrix at (k, o) is the weight matrix at (o, k). -/
theorem idx29 (k o : Fin 128) : idx_main_v29 (ix2 k o) = ix2 o k := by
  funext a
  match a with
  | ⟨0, _⟩ => rfl
  | ⟨1, _⟩ => rfl

/-- The bias broadcast to a row and then along the rows, at (e, o), is the bias at o. -/
theorem idx31_32 (e : Fin 1024) (o : Fin 128) : idx_main_v31 (idx_main_v32 (ix2 e o)) = ix1 o := by
  funext a
  match a with
  | ⟨0, _⟩ => rfl

/-- Entry (n, r, o) of the result: the flat row n * 512 + r of the layer's input against row o of the weight matrix,
    plus the bias at o. -/
theorem layer3 (DiA : Spec.A3 2 2048 4096) (f : Spec.A3 2 1024 128) (W : Spec.Mat) (b : Spec.Bias) (n : Fin 2) (r : Fin 512) (o : Fin 128) :
    val_main_v34 (F := Ideal) DiA f W b (ix3 n r o)
      = (∑ k : Fin 128, val_main_v28 (F := Ideal) DiA f (ix2 (row1024 n r) k) * W (ix2 o k)) + b (ix1 o) := by
  rw [val_main_v34_apply, idx34, val_main_v33_apply, val_main_v30_apply, val_main_v32_apply,
    val_main_v31_apply, idx31_32, Ideal.addf_def]
  congr 1
  refine Finset.sum_congr rfl fun k _ => ?_
  rw [lidx30, ridx30, val_main_v29_apply, idx29]

/-- Flat row n * 512 + r of DiA's image is row r of batch n. -/
theorem idx28 (n : Fin 2) (r : Fin 512) (k : Fin 128) : idx_main_v28 (ix2 (row1024 n r) k) = ix3 n r k := by
  have hn := n.isLt; have hr := r.isLt; have hk := k.isLt
  funext a
  match a with
  | ⟨0, _⟩ => exact Fin.ext (by show ((n.val * 512 + r.val) * 128 + k.val) / 65536 = n.val; omega)
  | ⟨1, _⟩ => exact Fin.ext (by show ((n.val * 512 + r.val) * 128 + k.val) / 128 % 512 = r.val; omega)
  | ⟨2, _⟩ => exact Fin.ext (by show ((n.val * 512 + r.val) * 128 + k.val) % 128 = k.val; omega)

/-- Entry (n, r, k) of the image seen as 512 rows of 128 is entry (n, 4 r + k / 32, k % 32) of it seen as 2048 rows of 32. -/
theorem idx5 (n : Fin 2) (r : Fin 512) (k : Fin 128) :
    idx_main_v5 (ix3 n r k) = ix3 n (⟨4 * r.val + k.val / 32, by omega⟩ : Fin 2048) (⟨k.val % 32, by omega⟩ : Fin 32) := by
  have hn := n.isLt; have hr := r.isLt; have hk := k.isLt
  funext a
  match a with
  | ⟨0, _⟩ => exact Fin.ext (by show ((n.val * 512 + r.val) * 128 + k.val) / 65536 = n.val; omega)
  | ⟨1, _⟩ => exact Fin.ext (by show ((n.val * 512 + r.val) * 128 + k.val) / 32 % 2048 = 4 * r.val + k.val / 32; omega)
  | ⟨2, _⟩ => exact Fin.ext (by show ((n.val * 512 + r.val) * 128 + k.val) % 32 = k.val % 32; omega)

/-- Entry (n, j, q) of f seen as 4096 rows of 32 is entry (n, j / 4, (j % 4) * 32 + q) of f. -/
theorem idx3 (n : Fin 2) (j : Fin 4096) (q : Fin 32) :
    idx_main_v3 (ix3 n j q) = ix3 n (⟨j.val / 4, by omega⟩ : Fin 1024) (⟨(j.val % 4) * 32 + q.val, by omega⟩ : Fin 128) := by
  have hn := n.isLt; have hj := j.isLt; have hq := q.isLt
  funext a
  match a with
  | ⟨0, _⟩ => exact Fin.ext (by show ((n.val * 4096 + j.val) * 32 + q.val) / 131072 = n.val; omega)
  | ⟨1, _⟩ => exact Fin.ext (by show ((n.val * 4096 + j.val) * 32 + q.val) / 128 % 1024 = j.val / 4; omega)
  | ⟨2, _⟩ => exact Fin.ext (by show ((n.val * 4096 + j.val) * 32 + q.val) % 128 = (j.val % 4) * 32 + q.val; omega)

/-- The batched product reads DiA along row p of batch n. -/
theorem lidx4 (n : Fin 2) (p : Fin 2048) (q : Fin 32) (j : Fin 4096) : lidx_main_v4 (ix3 n p q) j = ix3 n p j := by
  funext a
  match a with
  | ⟨0, _⟩ => rfl
  | ⟨1, _⟩ => rfl
  | ⟨2, _⟩ => rfl

/-- The batched product reads the re-laid f down column q of batch n. -/
theorem ridx4 (n : Fin 2) (p : Fin 2048) (q : Fin 32) (j : Fin 4096) : ridx_main_v4 (ix3 n p q) j = ix3 n j q := by
  funext a
  match a with
  | ⟨0, _⟩ => rfl
  | ⟨1, _⟩ => rfl
  | ⟨2, _⟩ => rfl

/-- The batched product at (n, p, q). -/
theorem prod3 (DiA : Spec.A3 2 2048 4096) (f : Spec.A3 2 1024 128) (n : Fin 2) (p : Fin 2048) (q : Fin 32) :
    val_main_v4 (F := Ideal) DiA f (ix3 n p q) = Spec.t3At DiA f n p q := by
  rw [val_main_v4_apply]
  unfold Spec.t3At
  refine Finset.sum_congr rfl fun j _ => ?_
  rw [lidx4, ridx4, val_main_v3_apply, idx3]

/-- Flat row n * 512 + r of the image at k. -/
theorem in3 (DiA : Spec.A3 2 2048 4096) (f : Spec.A3 2 1024 128) (n : Fin 2) (r : Fin 512) (k : Fin 128) :
    val_main_v28 (F := Ideal) DiA f (ix2 (row1024 n r) k)
      = Spec.t3At DiA f n (⟨4 * r.val + k.val / 32, by omega⟩ : Fin 2048) (⟨k.val % 32, by omega⟩ : Fin 32) := by
  rw [val_main_v28_apply, idx28, val_main_v5_apply, idx5, prod3]

/-- The fourth result at (n, r, o). -/
theorem y3_entry (DiA : Spec.A3 2 2048 4096) (f : Spec.A3 2 1024 128) (W : Spec.Mat) (b : Spec.Bias) (n : Fin 2) (r : Fin 512) (o : Fin 128) :
    val_main_v34 (F := Ideal) DiA f W b (ix3 n r o) = Spec.y3At DiA f W b n r o := by
  rw [layer3]
  unfold Spec.y3At
  congr 1
  refine Finset.sum_congr rfl fun k _ => ?_
  rw [in3]

/-- The fourth result is the specification's. -/
theorem y3_eq (DiA : Spec.A3 2 2048 4096) (f : Spec.A3 2 1024 128) (W : Spec.Mat) (b : Spec.Bias) : val_main_v34 (F := Ideal) DiA f W b = Spec.Y3 DiA f W b := by
  funext i
  rw [eq_ix3 i]
  exact y3_entry DiA f W b (i 0) (i 1) (i 2)

end Cert.RefSide

end
-- ==== Proof.LibAllReal.lean ====
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx
import Idealize.ShloMosaic.Lib.ValueLayout

/-!
# Arrays of extended reals all of whose entries are real numbers

At the extended reals [-∞, +∞] an entry is called real when it is (the reading of) a real number,
that is, neither infinity.  An array is *all real* when every one of its entries is.  This file
holds the definition and the test by which an entry is recognised as real: its absolute value
lies strictly below +∞.
-/

noncomputable section

namespace Idealize.ShloMosaic.AllReal

open Idealize.ShloMosaic
open scoped BigOperators

/-- An array of extended reals is all real when each entry is the reading of a real number. -/
def _root_.Idealize.ShloMosaic.AllReal {s : Shape} (v : s.Idx → EReal) : Prop := ∀ i, ∃ r : ℝ, v i = (r : EReal)

/-- An extended real whose absolute value `max x (-x)` lies strictly below +∞ is a real number:
    it is not +∞ (then the maximum is +∞) and not -∞ (then its negation is +∞). -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

end Idealize.ShloMosaic.AllReal

end
-- ==== Proof.LibAllRealDot.lean ====
import Idealize.ShloMosaic.PureOps.Contract
import Idealize.ShloMosaic.PureOps.Ideal
import Idealize.ShloMosaic.PureOps.Ideal.Laws
import proofs.«144741_g58523224375715_cont_9to1c4b_685_3_alg».proof.Proof.LibAllReal

/-!
# A matrix product of arrays of real numbers is an array of real numbers

At the extended reals the host's `dot_general` is, at each output position, the finite sum over
the contracted index of the products of an entry of the left operand and an entry of the right one
(whatever the contraction record: any number of contracted or batch axes).  A product of two reals
is real and a finite sum of reals is real, so the product of two all-real arrays is all real.  The
same holds of the kernel's matrix product onto an all-real accumulator.
-/

noncomputable section

namespace Idealize.ShloMosaic.AllReal

open Idealize.ShloMosaic
open scoped BigOperators

/-- A finite sum of extended reals each of which is a real number is a real number (induction on
    the index set: the empty sum is 0, and the sum of two reals is real). -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨p, hp⟩ := hf a (Finset.mem_insert_self a s)
    obtain ⟨q, hq⟩ := ih fun i hi => hf i (Finset.mem_insert_of_mem hi)
    exact ⟨p + q, by rw [Finset.sum_insert ha, hp, hq, EReal.coe_add]⟩

/-- A finite sum of products of two families of real numbers is a real number. -/
theorem sum_mul_real {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  sum_real s _ fun i _ => by
    obtain ⟨p, hp⟩ := hf i
    obtain ⟨q, hq⟩ := hg i
    exact ⟨p * q, by rw [hp, hq, EReal.coe_mul]⟩

/-- The host's matrix product (`dot_general`, any contraction record, any precision) of two all-real
    arrays is all real: each entry is a finite sum of products of an entry of each operand. -/
theorem dotGeneral {sl sr so : Shape} {φ₁ φ₂ : FTy} (d : DotDims sl sr so) (prec : Option ContractPrecision)
    (a : FVec Ideal sl φ₁) (b : FVec Ideal sr φ₂) (ha : AllReal a) (hb : AllReal b) :
    AllReal (Host.dotGeneral d prec a b) := fun j => by
  show ∃ r : ℝ, FloatOps.dotGeneral d prec .single a b j = (r : EReal)
  rw [Ideal.dotGeneral_apply]
  exact sum_mul_real _ _ _ (fun k => ha _) (fun k => hb _)

/-- The same at any schedule key of the host's product. -/
theorem dotGeneralAt (sched : HostSchedule) {sl sr so : Shape} {φ₁ φ₂ : FTy} (d : DotDims sl sr so)
    (prec : Option ContractPrecision) (a : FVec Ideal sl φ₁) (b : FVec Ideal sr φ₂) (ha : AllReal a) (hb : AllReal b) :
    AllReal (Host.dotGeneralAt sched d prec a b) := fun j => by
  show ∃ r : ℝ, FloatOps.dotGeneral d prec sched a b j = (r : EReal)
  rw [Ideal.dotGeneral_apply]
  exact sum_mul_real _ _ _ (fun k => ha _) (fun k => hb _)

/-- The kernel's matrix product onto an accumulator: all real when both operands and the
    accumulator are (the accumulator's entry plus the finite sum of products). -/
theorem matmul {sl sr so : Shape} {φ₁ φ₂ : FTy} (d : DotDims sl sr so) (prec : Option ContractPrecision)
    (a : FVec Ideal sl φ₁) (b : FVec Ideal sr φ₂) (acc : FVec Ideal so .f32) (ha : AllReal a) (hb : AllReal b)
    (hacc : AllReal acc) : AllReal (Idealize.ShloMosaic.matmul d prec a b acc) := fun j => by
  show ∃ r : ℝ, FloatOps.matmul d prec a b acc j = (r : EReal)
  rw [Ideal.matmul_apply]
  obtain ⟨p, hp⟩ := hacc j
  obtain ⟨q, hq⟩ := sum_mul_real Finset.univ (fun k => a (d.lhsIdx j k)) (fun k => b (d.rhsIdx j k))
    (fun k => ha _) (fun k => hb _)
  exact ⟨p + q, by rw [hp, hq, EReal.coe_add]⟩

end Idealize.ShloMosaic.AllReal

end
-- ==== Proof.LibAllRealAssoc.lean ====
/-
  Moving a factor across a double sum of real numbers.

  For finite families a (j), b (j, k), c (k) of extended reals all of whose members are real numbers,
    Σ k, (Σ j, a j * b j k) * c k = Σ j, a j * (Σ k, b j k * c k):
  both sides are the real number Σ j, Σ k, a j * b j k * c k.  (At infinities neither the distribution of a factor
  over a sum nor the exchange holds, which is why the members are asked to be real.)
-/
import proofs.«144741_g58523224375715_cont_9to1c4b_685_3_alg».proof.Proof.LibAllRealDot

noncomputable section

namespace Idealize.ShloMosaic.AllReal

open scoped BigOperators

/-- The reading of a finite sum of real numbers is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor moves across a double sum of real numbers. -/
theorem sum_mul_assoc_real {J K : Type*} [Fintype J] [Fintype K] (a : J → EReal) (b : J → K → EReal) (c : K → EReal)
    (ha : ∀ j, ∃ r : ℝ, a j = (r : EReal)) (hb : ∀ j k, ∃ r : ℝ, b j k = (r : EReal))
    (hc : ∀ k, ∃ r : ℝ, c k = (r : EReal)) :
    ∑ k, (∑ j, a j * b j k) * c k = ∑ j, a j * ∑ k, b j k * c k := by
  choose a' ha' using ha
  choose b' hb' using hb
  choose c' hc' using hc
  simp only [ha', hb', hc', ← EReal.coe_mul, ← coe_sum]
  congr 1
  simp only [Finset.sum_mul, Finset.mul_sum]
  rw [Finset.sum_comm]
  refine Finset.sum_congr rfl fun j _ => Finset.sum_congr rfl fun k _ => ?_
  ring

end Idealize.ShloMosaic.AllReal

end
-- ==== Proof.RefY4.lean ====
/-
  The reference's fifth result, entry by entry: the layer W5, b5 applied to the rows of L v.

  The reference first forms the batched product L v, entry (n, r, k) being Σ j, L (n, r, j) * v (n, j, k), then applies
  the layer to its 1024 flat rows.  Entry (n, r, o) of the result is therefore
    Σ k, (Σ j, L (n, r, j) * v (n, j, k)) * W5 (o, k) + b5 o,
  the specification's fifth result with the two sums taken in the other order; the two agree when L, v and W5 are
  arrays of real numbers.
-/
import proofs.«144741_g58523224375715_cont_9to1c4b_685_3_alg».proof.Proof.Gen.ReferenceIdeal.Read
import proofs.«144741_g58523224375715_cont_9to1c4b_685_3_alg».proof.Proof.Spec
import proofs.«144741_g58523224375715_cont_9to1c4b_685_3_alg».proof.Proof.RefRows
import proofs.«144741_g58523224375715_cont_9to1c4b_685_3_alg».proof.Proof.LibAllRealAssoc

noncomputable section

namespace Cert.RefSide

open Cert.ReferenceIdeal Cert.ReferenceIdeal.Gen Cert.ReferenceIdeal.Read Idealize.ShloMosaic Idealize.ShloMosaic.ValueIdx

/-- The flat row of the result holding entry (n, r, ·). -/
theorem idx41 (n : Fin 2) (r : Fin 512) (o : Fin 128) : idx_main_v41 (ix3 n r o) = ix2 (row1024 n r) o := by
  have hn := n.isLt; have hr := r.isLt; have ho := o.isLt
  funext a
  match a with
  | ⟨0, _⟩ => exact Fin.ext (by show ((n.val * 512 + r.val) * 128 + o.val) / 128 = n.val * 512 + r.val; omega)
  | ⟨1, _⟩ => exact Fin.ext (by show ((n.val * 512 + r.val) * 128 + o.val) % 128 = o.val; omega)

/-- The product's left operand is read along row e. -/
theorem lidx37 (e : Fin 1024) (o k : Fin 128) : lidx_main_v37 (ix2 e o) k = ix2 e k := by
  funext a
  match a with
  | ⟨0, _⟩ => rfl
  | ⟨1, _⟩ => rfl

/-- The product's right operand is read down column o. -/
theorem ridx37 (e : Fin 1024) (o k : Fin 128) : ridx_main_v37 (ix2 e o) k = ix2 k o := by
  funext a
  match a with
  | ⟨0, _⟩ => rfl
  | ⟨1, _⟩ => rfl

/-- The transposed weight matrix at (k, o) is the weight matrix at (o, k). -/
theorem idx36 (k o : Fin 128) : idx_main_v36 (ix2 k o) = ix2 o k := by
  funext a
  match a with
  | ⟨0, _⟩ => rfl
  | ⟨1, _⟩ => rfl

/-- The bias broadcast to a row and then along the rows, at (e, o), is the bias at o. -/
theorem idx38_39 (e : Fin 1024) (o : Fin 128) : idx_main_v38 (idx_main_v39 (ix2 e o)) = ix1 o := by
  funext a
  match a with
  | ⟨0, _⟩ => rfl

/-- Entry (n, r, o) of the result: the flat row n * 512 + r of the layer's input against row o of the weight matrix,
    plus the bias at o. -/
theorem layer4 (L : Spec.A3 2 512 512) (v : Spec.A3 2 512 128) (W : Spec.Mat) (b : Spec.Bias) (n : Fin 2) (r : Fin 512) (o : Fin 128) :
    val_main_v41 (F := Ideal) L v W b (ix3 n r o)
      = (∑ k : Fin 128, val_main_v35 (F := Ideal) L v (ix2 (row1024 n r) k) * W (ix2 o k)) + b (ix1 o) := by
  rw [val_main_v41_apply, idx41, val_main_v40_apply, val_main_v37_apply, val_main_v39_apply,
    val_main_v38_apply, idx38_39, Ideal.addf_def]
  congr 1
  refine Finset.sum_congr rfl fun k _ => ?_
  rw [lidx37, ridx37, val_main_v36_apply, idx36]

/-- Flat row n * 512 + r of L v is row r of batch n. -/
theorem idx35 (n : Fin 2) (r : Fin 512) (k : Fin 128) : idx_main_v35 (ix2 (row1024 n r) k) = ix3 n r k := by
  have hn := n.isLt; have hr := r.isLt; have hk := k.isLt
  funext a
  match a with
  | ⟨0, _⟩ => exact Fin.ext (by show ((n.val * 512 + r.val) * 128 + k.val) / 65536 = n.val; omega)
  | ⟨1, _⟩ => exact Fin.ext (by show ((n.val * 512 + r.val) * 128 + k.val) / 128 % 512 = r.val; omega)
  | ⟨2, _⟩ => exact Fin.ext (by show ((n.val * 512 + r.val) * 128 + k.val) % 128 = k.val; omega)

/-- The batched product reads L along row r of batch n. -/
theorem lidx6 (n : Fin 2) (r : Fin 512) (k : Fin 128) (j : Fin 512) : lidx_main_v6 (ix3 n r k) j = ix3 n r j := by
  funext a
  match a with
  | ⟨0, _⟩ => rfl
  | ⟨1, _⟩ => rfl
  | ⟨2, _⟩ => rfl

/-- The batched product reads v down column k of batch n. -/
theorem ridx6 (n : Fin 2) (r : Fin 512) (k : Fin 128) (j : Fin 512) : ridx_main_v6 (ix3 n r k) j = ix3 n j k := by
  funext a
  match a with
  | ⟨0, _⟩ => rfl
  | ⟨1, _⟩ => rfl
  | ⟨2, _⟩ => rfl

/-- Flat row n * 512 + r of L v at k. -/
theorem in4 (L : Spec.A3 2 512 512) (v : Spec.A3 2 512 128) (n : Fin 2) (r : Fin 512) (k : Fin 128) :
    val_main_v35 (F := Ideal) L v (ix2 (row1024 n r) k) = ∑ j : Fin 512, L (ix3 n r j) * v (ix3 n j k) := by
  rw [val_main_v35_apply, idx35, val_main_v6_apply]
  refine Finset.sum_congr rfl fun j _ => ?_
  rw [lidx6, ridx6]

/-- The fifth result at (n, r, o), for real L, v and W5. -/
theorem y4_entry (L : Spec.A3 2 512 512) (v : Spec.A3 2 512 128) (W : Spec.Mat) (b : Spec.Bias)
    (hL : AllReal L) (hv : AllReal v) (hW : AllReal W) (n : Fin 2) (r : Fin 512) (o : Fin 128) :
    val_main_v41 (F := Ideal) L v W b (ix3 n r o) = Spec.y4At L v W b n r o := by
  rw [layer4]
  unfold Spec.y4At
  congr 1
  simp only [in4]
  exact AllReal.sum_mul_assoc_real (fun j => L (ix3 n r j)) (fun j k => v (ix3 n j k)) (fun k => W (ix2 o k))
    (fun j => hL _) (fun j k => hv _) (fun k => hW _)

/-- The fifth result is the specification's, for real L, v and W5. -/
theorem y4_eq (L : Spec.A3 2 512 512) (v : Spec.A3 2 512 128) (W : Spec.Mat) (b : Spec.Bias)
    (hL : AllReal L) (hv : AllReal v) (hW : AllReal W) : val_main_v41 (F := Ideal) L v W b = Spec.Y4 L v W b := by
  funext i
  rw [eq_ix3 i]
  exact y4_entry L v W b hL hv hW (i 0) (i 1) (i 2)

end Cert.RefSide

end
-- ==== Proof.RefSide.lean ====
/-
  What the reference computes: the five results of the specification.

  Every weakly fair execution of the reference terminates with its five result arrays holding, entry by entry, the
  specification's five results of its argument arrays, and the arguments unchanged.  The first four results need
  nothing of the arguments; the fifth is computed as (L v) W5ᵀ where the specification has L (v W5ᵀ), and the two
  agree when L, v and W5 are arrays of real numbers.
-/
import proofs.«144741_g58523224375715_cont_9to1c4b_685_3_alg».proof.Proof.RefY0
import proofs.«144741_g58523224375715_cont_9to1c4b_685_3_alg».proof.Proof.RefY1
import proofs.«144741_g58523224375715_cont_9to1c4b_685_3_alg».proof.Proof.RefY2
import proofs.«144741_g58523224375715_cont_9to1c4b_685_3_alg».proof.Proof.RefY3
import proofs.«144741_g58523224375715_cont_9to1c4b_685_3_alg».proof.Proof.RefY4

noncomputable section

namespace Cert.RefSide

open Cert.ReferenceIdeal.Read Idealize.ShloMosaic Idealize.ShloMosaic.TcCoe Idealize.SL.Sem

/-- The reference's run ends at the specification's five results, for real L, v and W5. -/
theorem run (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev Cert.ReferenceIdeal.nD, AllReal (m' ((c.tc : Thread Cert.ReferenceIdeal.nD Cert.ReferenceIdeal.τ).loc Cert.ReferenceIdeal.main_arg0)) ∧ AllReal (m' ((c.tc : Thread Cert.ReferenceIdeal.nD Cert.ReferenceIdeal.τ).loc Cert.ReferenceIdeal.main_arg3)) ∧ AllReal (m' ((c.tc : Thread Cert.ReferenceIdeal.nD Cert.ReferenceIdeal.τ).loc Cert.ReferenceIdeal.main_arg13))) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v13) = Cert.Spec.Y0 (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v20) = Cert.Spec.Y1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v27) = Cert.Spec.Y2 (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v34) = Cert.Spec.Y3 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v41) = Cert.Spec.Y4 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)) :=
  (θ_run Cert.ReferenceIdeal.defs _ _).mono (fun _ h c =>
      ⟨(h c).1.trans ((val_main_v13_eq _ _ _).trans (y0_eq _ _ _)),
        (h c).2.1.trans ((val_main_v20_eq _ _ _ _).trans (y1_eq _ _ _ _)),
        (h c).2.2.1.trans ((val_main_v27_eq _ _ _).trans (y2_eq _ _ _)),
        (h c).2.2.2.1.trans ((val_main_v34_eq _ _ _ _).trans (y3_eq _ _ _ _)),
        (h c).2.2.2.2.1.trans ((val_main_v41_eq _ _ _ _).trans
          (y4_eq _ _ _ _ (hreal c).1 (hreal c).2.1 (hreal c).2.2)),
        (h c).2.2.2.2.2⟩)
    (Cert.ReferenceIdeal.Value.run (F := Ideal) m' ρ')

end Cert.RefSide

end
-- ==== Proof.RefPre.lean ====
/-
  The precondition, decoded: L, v and W5 are arrays of real numbers.

  The precondition is the conjunction, over the fifteen arguments, of "every entry's absolute value lies strictly
  below +∞".  An entry of the extended reals with that property is a real number.  Only three of the fifteen facts
  are used: for L, v and W5, the arrays whose products are re-associated.
-/
import proofs.«144741_g58523224375715_cont_9to1c4b_685_3_alg».proof.Defs
import Idealize.ShloMosaic.Lib.ReduceAll
import Idealize.ShloMosaic.Lib.ValueIdx
import Idealize.ShloMosaic.PureOps.Ideal.Laws
import proofs.«144741_g58523224375715_cont_9to1c4b_685_3_alg».proof.Proof.LibAllReal

noncomputable section

namespace Cert.RefSide

open Idealize.ShloMosaic Idealize.ShloMosaic.ValueIdx

/-- The f32 pattern of +∞ reads as +∞. -/
theorem ofBits_inf : Ideal.ofBits .f32 0x7F800000#32 = (⊤ : EReal) := by simp [Ideal.ofBits, Ideal.ieee]

/-- An entry whose absolute value compares strictly below the pattern of +∞ is a real number. -/
theorem entry_real {s : Shape} (x : FVec Ideal s .f32)
    (h0 : (⟨0, ![]⟩ : Shape).BroadcastsInDim s (![] : Fin 0 → Fin s.rank)) (i : s.Idx)
    (h : cmpf .olt (Host.absf x) (broadcastInDim s ![] h0 (constant (F := Ideal) ⟨0, ![]⟩ .f32 0x7F800000#32)) i = 1#1) :
    ∃ r : ℝ, x i = (r : EReal) := by
  apply AllReal.real_of_abs_lt_top
  have h' : BitVec.ofBool (decide (max (x i) (-(x i)) < (⊤ : EReal))) = 1#1 := by rw [← ofBits_inf]; exact h
  by_contra hc
  rw [decide_eq_false hc] at h'
  exact absurd h' (by decide)

/-- The scalar shape has one index. -/
instance : Subsingleton (⟨0, ![]⟩ : Shape).Idx := ⟨fun a b => funext fun d => d.elim0⟩

/-- Both operands of a conjunction of truth values that is true are true. -/
theorem andi_split {s : Shape} (a b : IVec s 1) (i : s.Idx) (h : andi a b i = 1#1) : a i = 1#1 ∧ b i = 1#1 :=
  IntOp.andi_eq_one.1 h

open Cert.Pre_finite_inputs Cert.Pre_finite_inputs.Facts in
/-- If the printed predicate holds of fifteen arrays, the first, the fourth and the fourteenth are all real. -/
theorem real_of_fn [Cert.Pre_finite_inputs.Facts]
    (a0 : FVec Ideal S2x512x512 .f32) (a1 : FVec Ideal S2x4096x2048 .f32) (a2 : FVec Ideal S2x2048x4096 .f32)
    (a3 : FVec Ideal S2x512x128 .f32) (a4 : FVec Ideal S2x1024x128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (a11 : FVec Ideal S128x128 .f32) (a12 : FVec Ideal S128 .f32) (a13 : FVec Ideal S128x128 .f32) (a14 : FVec Ideal S128 .f32)
    (h : Cert.Pre_finite_inputs.fn (F := Ideal) a0 a1 a2 a3 a4 a5 a6 a7 a8 a9 a10 a11 a12 a13 a14 = fun _ => 1#1) :
    AllReal a0 ∧ AllReal a3 ∧ AllReal a13 := by
  have h1 := congrFun h ix0
  dsimp only [Cert.Pre_finite_inputs.fn, fn_part1, fn_part2, fn_part3, fn_part4] at h1
  obtain ⟨h1, -⟩ := andi_split _ _ _ h1
  obtain ⟨h1, h13⟩ := andi_split _ _ _ h1
  obtain ⟨h1, -⟩ := andi_split _ _ _ h1
  obtain ⟨h1, -⟩ := andi_split _ _ _ h1
  obtain ⟨h1, -⟩ := andi_split _ _ _ h1
  obtain ⟨h1, -⟩ := andi_split _ _ _ h1
  obtain ⟨h1, -⟩ := andi_split _ _ _ h1
  obtain ⟨h1, -⟩ := andi_split _ _ _ h1
  obtain ⟨h1, -⟩ := andi_split _ _ _ h1
  obtain ⟨h1, -⟩ := andi_split _ _ _ h1
  obtain ⟨h1, -⟩ := andi_split _ _ _ h1
  obtain ⟨h1, h3⟩ := andi_split _ _ _ h1
  obtain ⟨h1, -⟩ := andi_split _ _ _ h1
  obtain ⟨h0, -⟩ := andi_split _ _ _ h1
  exact ⟨fun i => entry_real a0 _ i (Host.reduce_andi_all _ _ _ _ ix0 h0 i),
    fun i => entry_real a3 _ i (Host.reduce_andi_all _ _ _ _ ix0 h3 i),
    fun i => entry_real a13 _ i (Host.reduce_andi_all _ _ _ _ ix0 h13 i)⟩

/-- Under the precondition the kernel's L, v and W5 are arrays of real numbers, on every device. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg13)) :=
  real_of_fn _ _ _ _ _ _ _ _ _ _ _ _ _ _ _ (h c)

end Cert.RefSide

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«144741_g58523224375715_cont_9to1c4b_685_3_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibDenseT.lean ====
/-
  A block times a weight matrix stored by output row, read at an index.

  A `tpu.matmul` of a `[K, N]` left operand with a `[Q, N]` right operand, contracting the second axis of both (the
  product `l · rᵀ`), into a zero accumulator: over the extended reals entry `(k, q)` of the result is the plain sum
  `Σ n, l (k, n) * r (q, n)`.  With a bias, one row `[1, Q]` laid along every row of the block, added: entry `(k, q)`
  is that sum plus `bias (0, q)`.
-/
import Idealize.ShloMosaic.Lib.ValueIdx
import Idealize.ShloMosaic.Lib.ValueLayout
import Idealize.ShloMosaic.PureOps.Ideal.Laws

noncomputable section

namespace Idealize.ShloMosaic.DenseT

open Idealize.ShloMosaic Idealize.ShloMosaic.ValueIdx

/-- The dimension numbers of `[K, N] · [Q, N]ᵀ → [K, Q]`. -/
abbrev mmDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the result's column. -/
theorem rhs_row (j : (⟨2, ![K, Q]⟩ : Shape).Idx) (c : (mmDims K N Q wf).contr.Idx) :
    ((mmDims K N Q wf).rhsIdx j c (0 : Fin 2)).val = (j 1).val := by
  unfold DotDims.rhsIdx
  rw [dif_neg (show ¬ (0 : Fin 2) ∈ (mmDims K N Q wf).rhsBatch from List.not_mem_nil),
    dif_pos (show (0 : Fin 2) ∈ (mmDims K N Q wf).rhsNonContracting from List.mem_singleton.mpr rfl)]
  rfl

/-- The right operand's column is the contraction position. -/
theorem rhs_col (j : (⟨2, ![K, Q]⟩ : Shape).Idx) (c : (mmDims K N Q wf).contr.Idx) :
    ((mmDims K N Q wf).rhsIdx j c (1 : Fin 2)).val = (c ⟨0, Nat.one_pos⟩).val :=
  (mmDims K N Q wf).rhsIdx_val_of_single rfl j c

/-- Entry `(k, q)` of the product into a zero accumulator is `Σ n, l (k, n) * r (q, n)`. -/
theorem matmul_zero_apply {φ₁ φ₂ : FTy} (l : FVec Ideal ⟨2, ![K, N]⟩ φ₁) (r : FVec Ideal ⟨2, ![Q, N]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 q n) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (mmDims K N Q wf) none X W (constant ⟨2, ![K, Q]⟩ .f32 0x00000000#32) (ix2 p q)
      + broadcastTo ⟨2, ![K, Q]⟩ bias hb (ix2 p q) = _
  rw [matmul_zero_apply wf X W p q, broadcastTo_1b_ab_apply bias hb p q]

end

end Idealize.ShloMosaic.DenseT

end
-- ==== Proof.PayAt.lean ====
/-
  The kernel's arithmetic, read at an index.

  Each body of the kernel stores values that are pure functions of the values it loaded.  Over the extended reals a change
  of format is the identity and a product into a zero accumulator is the plain sum, so each stored value, read at explicit
  coordinates, is a sum of products of the loaded values (plus one entry of the bias row where the body adds one).  The
  blocks carry a leading axis of extent one; the weight matrices are stored one row per output feature, so the layers
  contract the second axis of both operands.
-/
import proofs.«144741_g58523224375715_cont_9to1c4b_685_3_alg».proof.Proof.Gen.KernelIdeal.Skeleton
import proofs.«144741_g58523224375715_cont_9to1c4b_685_3_alg».proof.Proof.LibDenseLayer
import proofs.«144741_g58523224375715_cont_9to1c4b_685_3_alg».proof.Proof.LibDenseT

noncomputable section

namespace Cert.KernelIdeal.PayAt

open Cert.KernelIdeal Cert.KernelIdeal.Gen Idealize.ShloMosaic Idealize.ShloMosaic.ValueIdx

/-! ## The two operator products: a block of rows times the whole re-laid array -/

/-- Entry `(0, p, q)` of the first body's result is `Σ j, x0 (0, p, j) * x1 (0, j, q)`. -/
theorem k0_pay1_apply (x0 : Vec Ideal S1x512x2048 .f32) (x1 : Vec Ideal S1x2048x32 .f32) (p : Fin 512) (q : Fin 32) :
    k0_pay1 (F := Ideal) x0 x1 (ix3 (0 : Fin 1) p q) = ∑ j : Fin 2048, x0 (ix3 (0 : Fin 1) p j) * x1 (ix3 (0 : Fin 1) j q) := by
  unfold k0_pay1
  refine (shapeCast_ab_1ab_apply _ _ (0 : Fin 1) p q).trans ?_
  refine (DenseBlock.matmul_zero_apply _ _ _ p q).trans ?_
  refine Finset.sum_congr rfl fun j _ => ?_
  exact congrArg₂ (· * ·) (shapeCast_1ab_ab_apply x0 _ p j) (shapeCast_1ab_ab_apply x1 _ j q)

/-- Entry `(0, p, q)` of the second body's operator product is `Σ j, x0 (0, p, j) * x1 (0, j, q)`. -/
theorem k1_pay2_apply (x0 : Vec Ideal S1x512x4096 .f32) (x1 : Vec Ideal S1x4096x32 .f32) (p : Fin 512) (q : Fin 32) :
    k1_pay2 (F := Ideal) x0 x1 (ix3 (0 : Fin 1) p q) = ∑ j : Fin 4096, x0 (ix3 (0 : Fin 1) p j) * x1 (ix3 (0 : Fin 1) j q) := by
  unfold k1_pay2
  refine (shapeCast_ab_1ab_apply _ _ (0 : Fin 1) p q).trans ?_
  refine (DenseBlock.matmul_zero_apply _ _ _ p q).trans ?_
  refine Finset.sum_congr rfl fun j _ => ?_
  exact congrArg₂ (· * ·) (shapeCast_1ab_ab_apply x0 _ p j) (shapeCast_1ab_ab_apply x1 _ j q)

/-! ## The fifth layer: its image of the rows, kept in a scratch, then the operator on it plus the bias -/

/-- Entry `(j, o)` of the scratch is the layer's image of row `j` without the bias: `Σ k, x3 (0, j, k) * x4 (o, k)`. -/
theorem k1_pay1_apply (x3 : Vec Ideal S1x512x128 .f32) (x4 : Vec Ideal S128x128 .f32) (j : Fin 512) (o : Fin 128) :
    k1_pay1 (F := Ideal) x3 x4 (ix2 j o) = ∑ k : Fin 128, x3 (ix3 (0 : Fin 1) j k) * x4 (ix2 o k) := by
  unfold k1_pay1
  refine (congrFun (shapeCast_self _ _) (ix2 j o)).trans ?_
  refine (DenseT.matmul_zero_apply _ _ _ j o).trans ?_
  refine Finset.sum_congr rfl fun k _ => ?_
  exact congrArg₂ (· * ·) (shapeCast_1ab_ab_apply x3 _ j k) rfl

/-- Entry `(0, r, o)` of the fifth result's block is `Σ j, x2 (0, r, j) * s (j, o) + x5 (0, o)`. -/
theorem k1_pay3_apply (x2 : Vec Ideal S1x128x512 .f32) (s : Vec Ideal S512x128 .bf16) (x5 : Vec Ideal S1x128 .f32)
    (r : Fin 128) (o : Fin 128) :
    k1_pay3 (F := Ideal) x2 s x5 (ix3 (0 : Fin 1) r o)
      = (∑ j : Fin 512, x2 (ix3 (0 : Fin 1) r j) * s (ix2 j o)) + x5 (ix2 (0 : Fin 1) o) := by
  unfold k1_pay3
  refine (shapeCast_ab_1ab_apply _ _ (0 : Fin 1) r o).trans ?_
  refine (DenseLayer.affine_apply (φ₂ := .bf16) _ _ _ _ _ r o).trans ?_
  refine congrArg₂ (· + ·) (Finset.sum_congr rfl fun j _ => ?_) (congrFun (shapeCast_self x5 _) _)
  exact congrArg₂ (· * ·) (shapeCast_1ab_ab_apply x2 _ r j) rfl

/-! ## The four layers of the third body -/

/-- The left operand of the third layer: the block with its leading axis dropped. -/
theorem k2_pay5_apply (x : Vec Ideal S1x512x128 .f32) (r : Fin 512) (k : Fin 128) :
    k2_pay5 (F := Ideal) x (ix2 r k) = x (ix3 (0 : Fin 1) r k) := by
  unfold k2_pay5
  exact shapeCast_1ab_ab_apply x _ r k

/-- Entry `(0, r, o)` of the third layer's block is `Σ k, xb (r, k) * W (o, k) + b (0, o)`. -/
theorem k2_pay1_apply (W : Vec Ideal S128x128 .f32) (xb : FVec Ideal S512x128 .bf16) (b : Vec Ideal S1x128 .f32)
    (r : Fin 512) (o : Fin 128) :
    k2_pay1 (F := Ideal) W xb b (ix3 (0 : Fin 1) r o)
      = (∑ k : Fin 128, xb (ix2 r k) * W (ix2 o k)) + b (ix2 (0 : Fin 1) o) := by
  unfold k2_pay1
  refine (shapeCast_ab_1ab_apply _ _ (0 : Fin 1) r o).trans ?_
  refine (DenseT.affine_apply _ _ _ _ _ r o).trans ?_
  exact congrArg₂ (· + ·) rfl (congrFun (shapeCast_self b _) _)

/-- Entry `(0, r, o)` of the fourth layer's block is `Σ k, x (0, r, k) * W (o, k) + b (0, o)`. -/
theorem k2_pay2_apply (x : Vec Ideal S1x512x128 .f32) (W : Vec Ideal S128x128 .f32) (b : Vec Ideal S1x128 .f32)
    (r : Fin 512) (o : Fin 128) :
    k2_pay2 (F := Ideal) x W b (ix3 (0 : Fin 1) r o)
      = (∑ k : Fin 128, x (ix3 (0 : Fin 1) r k) * W (ix2 o k)) + b (ix2 (0 : Fin 1) o) := by
  unfold k2_pay2
  refine (shapeCast_ab_1ab_apply _ _ (0 : Fin 1) r o).trans ?_
  refine (DenseT.affine_apply _ _ _ _ _ r o).trans ?_
  refine congrArg₂ (· + ·) (Finset.sum_congr rfl fun k _ => ?_) (congrFun (shapeCast_self b _) _)
  exact congrArg₂ (· * ·) (shapeCast_1ab_ab_apply x _ r k) rfl

/-- Entry `(0, r, o)` of the first layer's block is `Σ k, x (0, r, k) * W (o, k) + b (0, o)`. -/
theorem k2_pay3_apply (x : Vec Ideal S1x1024x128 .f32) (W : Vec Ideal S128x128 .f32) (b : Vec Ideal S1x128 .f32)
    (r : Fin 1024) (o : Fin 128) :
    k2_pay3 (F := Ideal) x W b (ix3 (0 : Fin 1) r o)
      = (∑ k : Fin 128, x (ix3 (0 : Fin 1) r k) * W (ix2 o k)) + b (ix2 (0 : Fin 1) o) := by
  unfold k2_pay3
  refine (shapeCast_ab_1ab_apply _ _ (0 : Fin 1) r o).trans ?_
  refine (DenseT.affine_apply _ _ _ _ _ r o).trans ?_
  refine congrArg₂ (· + ·) (Finset.sum_congr rfl fun k _ => ?_) (congrFun (shapeCast_self b _) _)
  exact congrArg₂ (· * ·) (shapeCast_1ab_ab_apply x _ r k) rfl

/-- Entry `(0, r, o)` of the second layer's block is `Σ k, x (0, r, k) * W (o, k) + b (0, o)`. -/
theorem k2_pay4_apply (x : Vec Ideal S1x1024x128 .f32) (W : Vec Ideal S128x128 .f32) (b : Vec Ideal S1x128 .f32)
    (r : Fin 1024) (o : Fin 128) :
    k2_pay4 (F := Ideal) x W b (ix3 (0 : Fin 1) r o)
      = (∑ k : Fin 128, x (ix3 (0 : Fin 1) r k) * W (ix2 o k)) + b (ix2 (0 : Fin 1) o) := by
  unfold k2_pay4
  refine (shapeCast_ab_1ab_apply _ _ (0 : Fin 1) r o).trans ?_
  refine (DenseT.affine_apply _ _ _ _ _ r o).trans ?_
  refine congrArg₂ (· + ·) (Finset.sum_congr rfl fun k _ => ?_) (congrFun (shapeCast_self b _) _)
  exact congrArg₂ (· * ·) (shapeCast_1ab_ab_apply x _ r k) rfl

end Cert.KernelIdeal.PayAt

end
-- ==== Proof.LibRelay.lean ====
/-
  Rows split into shorter rows, and short rows laid side by side, read at an index.

  An array `[m, a, g * c]` re-laid, in row-major order, as `[m, a * g, c]`: row `j` of the result is the piece `j % g`
  (of `c` numbers) of row `j / g` of the operand.  The other way, an array `[m, a * g, c]` re-laid as `[m, a, g * c]`:
  row `r` of the result is rows `g * r, …, g * r + g - 1` of the operand side by side, so its entry `k` is entry
  `k % c` of row `g * r + k / c`.
-/
import Idealize.ShloMosaic.Lib.ValueIdx
import Idealize.ShloMosaic.Lib.ValueLayout

namespace Idealize.ShloMosaic.Relay

open Idealize.ShloMosaic Idealize.ShloMosaic.ValueIdx

/-- The row-major position of piece `j % g` of row `j / g` is that of row `j` of the split array. -/
theorem split_arith (n a g c j q : Nat) :
    (n * a + j / g) * (g * c) + (j % g * c + q) = (n * (a * g) + j) * c + q := by
  have e := Nat.div_add_mod j g
  calc (n * a + j / g) * (g * c) + (j % g * c + q)
      = (n * (a * g) + (g * (j / g) + j % g)) * c + q := by ring
    _ = (n * (a * g) + j) * c + q := by rw [e]

/-- The row-major position of entry `k % c` of row `g * r + k / c` is that of entry `k` of row `r` of the merged array. -/
theorem merge_arith (n a g c r k : Nat) :
    (n * (a * g) + (g * r + k / c)) * c + k % c = (n * a + r) * (g * c) + k := by
  have e := Nat.div_add_mod k c
  calc (n * (a * g) + (g * r + k / c)) * c + k % c
      = (n * a + r) * (g * c) + (c * (k / c) + k % c) := by ring
    _ = (n * a + r) * (g * c) + k := by rw [e]

variable {α : Type}

/-- `[m, a, g * c]` re-laid as `[m, a * g, c]` reads, at `(n, j, q)`, the operand at `(n, j / g, (j % g) * c + q)`
(the two coordinates given with their values, so that a caller chooses how their bounds are proved). -/
theorem shapeCast_split_apply {m a b A c : Nat} (g : Nat) (hb : b = g * c) (hA : A = a * g)
    (x : (⟨3, ![m, a, b]⟩ : Shape).Idx → α) (h : (⟨3, ![m, a, b]⟩ : Shape).ShapeCasts ⟨3, ![m, A, c]⟩)
    (n : Fin m) (j : Fin A) (q : Fin c) (r : Fin a) (k : Fin b)
    (hr : r.val = j.val / g) (hk : k.val = j.val % g * c + q.val) :
    shapeCast ⟨3, ![m, A, c]⟩ x h (ix3 n j q) = x (ix3 n r k) := by
  subst hb hA
  exact shapeCast_apply x h _ _ (by
    rw [Shape.rowMajor_val_three, Shape.rowMajor_val_three]
    show (n.val * a + r.val) * (g * c) + k.val = (n.val * (a * g) + j.val) * c + q.val
    rw [hr, hk]
    exact split_arith _ _ _ _ _ _)

/-- `[m, a * g, c]` re-laid as `[m, a, g * c]` reads, at `(n, r, k)`, the operand at `(n, g * r + k / c, k % c)`. -/
theorem shapeCast_merge_apply {m a b A c : Nat} (g : Nat) (hb : b = g * c) (hA : A = a * g)
    (x : (⟨3, ![m, A, c]⟩ : Shape).Idx → α) (h : (⟨3, ![m, A, c]⟩ : Shape).ShapeCasts ⟨3, ![m, a, b]⟩)
    (n : Fin m) (r : Fin a) (k : Fin b) (p : Fin A) (q : Fin c)
    (hp : p.val = g * r.val + k.val / c) (hq : q.val = k.val % c) :
    shapeCast ⟨3, ![m, a, b]⟩ x h (ix3 n r k) = x (ix3 n p q) := by
  subst hb hA
  exact shapeCast_apply x h _ _ (by
    rw [Shape.rowMajor_val_three, Shape.rowMajor_val_three]
    show (n.val * (a * g) + p.val) * c + q.val = (n.val * a + r.val) * (g * c) + k.val
    rw [hp, hq]
    exact merge_arith _ _ _ _ _ _)

/-- Rows of 128 split in four: `[m, a, 128]` re-laid as `[m, 4 a, 32]`. -/
theorem shapeCast_split4x32_apply {m a A : Nat} (hA : A = a * 4)
    (x : (⟨3, ![m, a, 128]⟩ : Shape).Idx → α) (h : (⟨3, ![m, a, 128]⟩ : Shape).ShapeCasts ⟨3, ![m, A, 32]⟩)
    (n : Fin m) (j : Fin A) (q : Fin 32) :
    shapeCast ⟨3, ![m, A, 32]⟩ x h (ix3 n j q)
      = x (ix3 n (⟨j.val / 4, by omega⟩ : Fin a) (⟨(j.val % 4) * 32 + q.val, by omega⟩ : Fin 128)) :=
  shapeCast_split_apply 4 rfl hA x h n j q _ _ rfl rfl

/-- Four rows of 32 side by side: `[m, 4 a, 32]` re-laid as `[m, a, 128]`. -/
theorem shapeCast_merge4x32_apply {m a A : Nat} (hA : A = a * 4)
    (x : (⟨3, ![m, A, 32]⟩ : Shape).Idx → α) (h : (⟨3, ![m, A, 32]⟩ : Shape).ShapeCasts ⟨3, ![m, a, 128]⟩)
    (n : Fin m) (r : Fin a) (k : Fin 128) :
    shapeCast ⟨3, ![m, a, 128]⟩ x h (ix3 n r k)
      = x (ix3 n (⟨4 * r.val + k.val / 32, by omega⟩ : Fin A) (⟨k.val % 32, by omega⟩ : Fin 32)) :=
  shapeCast_merge_apply 4 rfl hA x h n r k _ _ rfl rfl

end Idealize.ShloMosaic.Relay
-- ==== Proof.KVal0.lean ====
/-
  The first call, from blocks to the whole array.

  A grid point is a batch and a block of 512 rows of the operator; it stores the product of that block with the batch's
  re-laid array (2048 rows of 32 numbers).  The sixteen blocks tile the result, so after the call the result array is, entry
  by entry, `Σ j, Di (n, p, j) * vr (n, j, q)`; and the re-laid array is the argument with each row of 128 split in four,
  which makes that sum the specification's.
-/
import proofs.«144741_g58523224375715_cont_9to1c4b_685_3_alg».proof.Proof.FrameFold
import proofs.«144741_g58523224375715_cont_9to1c4b_685_3_alg».proof.Proof.PayAt
import proofs.«144741_g58523224375715_cont_9to1c4b_685_3_alg».proof.Proof.LibRelay
import proofs.«144741_g58523224375715_cont_9to1c4b_685_3_alg».proof.Proof.Spec
import Idealize.ShloMosaic.Lib.Pipeline.Value
import Idealize.ShloMosaic.Lib.Tactic

set_option maxRecDepth 16384

noncomputable section

namespace Cert.KernelIdeal.KVal

open Cert.KernelIdeal Cert.KernelIdeal.Gen Cert.KernelIdeal.Hand Cert.KernelIdeal.PayAt
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-- The product of a batch's rows of the operator with the batch's re-laid array. -/
def G0 (Di : S2x4096x2048.Idx → EReal) (vr : S2x2048x32.Idx → EReal) : S2x4096x32.Idx → EReal :=
  fun i => ∑ j : Fin 2048, Di (ix3 (i 0) (i 1) j) * vr (ix3 (i 0) j (i 2))

/-- The first call's index maps over its grid: point `t` is batch `t / 8`, row block `t % 8`; the re-laid array's
    window takes the whole batch. -/
theorem idx0 : ∀ t : Fin cfg0.N, win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0 :=
  (by decide +kernel : ∀ t : Fin grid0.N, _)

/-- One entry of the stored block: when the two loaded blocks are the rows and the batch that entry `i` of the array
    needs, the stored value at `z` is the array's function at `i`. -/
theorem point0 (Di : S2x4096x2048.Idx → EReal) (vr : S2x2048x32.Idx → EReal)
    (x0 : Vec Ideal S1x512x2048 .f32) (x1 : Vec Ideal S1x2048x32 .f32) (z : S1x512x32.Idx) (i : S2x4096x32.Idx)
    (h0 : ∀ j : Fin 2048, x0 (ix3 (0 : Fin 1) (z 1) j) = Di (ix3 (i 0) (i 1) j))
    (h1 : ∀ j : Fin 2048, x1 (ix3 (0 : Fin 1) j (z 2)) = vr (ix3 (i 0) j (i 2))) :
    k0_pay1 (F := Ideal) x0 x1 z = G0 Di vr i := by
  obtain ⟨u, p, q, rfl⟩ : ∃ (u : Fin 1) (p : Fin 512) (q : Fin 32), z = ix3 u p q := ⟨z 0, z 1, z 2, eq_ix3 z⟩
  obtain rfl : u = 0 := Subsingleton.elim _ _
  rw [k0_pay1_apply]
  exact Finset.sum_congr rfl fun j _ => congrArg₂ (· * ·) (h0 j) (h1 j)

/-- What point `t` writes back is block `t` of the product of the call's two arrays. -/
theorem flushed0 (c : Dev nD) (t : Fin cfg0.N) :
    (dat0 (V1 m ρ) c).flushed 2 t = ((cfg0.win 2).blk t).view.read (Elt Ideal) (G0 (V1 m ρ c main_arg1) (V1 m ρ c main_v0)) := by
  show (cfg0.win 2).cut (grid0.coords t) ((dat0 (V1 m ρ) c).after 2 t) = _
  rw [after0_2]
  unfold out0_2
  rw [View.canon_unit_zero hz3]
  simp only [View.ld_unit_zero (S := S1x512x2048) hz3, View.ld_unit_zero (S := S1x2048x32) hz3]
  funext y
  obtain ⟨e00, e01, e02, e10, e11, e12, e20, e21, e22⟩ := idx0 t
  have hy0 : (y 0).val < 1 := (y 0).isLt
  show k0_pay1 (iblk0 (V1 m ρ) c 0 t) (iblk0 (V1 m ρ) c 1 t) ((win0 2).xinj (grid0.coords t) y) = G0 _ _ (((cfg0.win 2).blk t).view.emb y)
  refine point0 _ _ _ _ _ _ (fun j => ?_) (fun j => ?_)
  · unfold iblk0
    rw [View.read_apply]
    show V1 m ρ c main_arg1 _ = V1 m ρ c main_arg1 _
    congr 1
    funext a
    apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 512 + 1 * (y 1).val = win0_2.index t (1 : Fin 3) * 512 + 1 * (y 1).val; omega
    | ⟨2, _⟩ => show win0_0.index t (2 : Fin 3) * 2048 + 1 * j.val = j.val; omega
  · unfold iblk0
    rw [View.read_apply]
    show V1 m ρ c main_v0 _ = V1 m ρ c main_v0 _
    congr 1
    funext a
    apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 2048 + 1 * j.val = j.val; omega
    | ⟨2, _⟩ => show win0_1.index t (2 : Fin 3) * 32 + 1 * (y 2).val = win0_2.index t (2 : Fin 3) * 32 + 1 * (y 2).val; omega

/-- Every entry of the first result is in the block of the point of its batch and row block. -/
theorem cover0 (i : S2x4096x32.Idx) :
    ∃ t : Fin cfg0.N, (cfg0.win 2).flush t = true ∧ i ∈ ((cfg0.win 2).blk t).view.set := by
  have h0 : (i 0).val < 2 := (i 0).isLt
  have h1 : (i 1).val < 4096 := (i 1).isLt
  have h2 : (i 2).val < 32 := (i 2).isLt
  have hN : cfg0.N = 16 := rfl
  obtain ⟨t, ht⟩ : ∃ t : Fin cfg0.N, t.val = (i 0).val * 8 + (i 1).val / 512 :=
    ⟨⟨(i 0).val * 8 + (i 1).val / 512, by rw [hN]; omega⟩, rfl⟩
  refine ⟨t, flush0_2 t, ?_⟩
  obtain ⟨-, -, -, -, -, -, e20, e21, e22⟩ := idx0 t
  show i ∈ ((View.whole main_v7).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 32 ≤ (i 2).val ∧ (i 2).val < win0_2.index t (2 : Fin 3) * 32 + 32; omega

/-- After the first call its result array is the product of its two arrays as the call found them. -/
theorem arr0 (c : Dev nD) :
    (dat0 (V1 m ρ) c).arrAt 2 cfg0.N = G0 (V1 m ρ c main_arg1) (V1 m ρ c main_v0) :=
  (dat0 (V1 m ρ) c).arrAt_eq_of_cover 2 (G0 (V1 m ρ c main_arg1) (V1 m ρ c main_v0)) (fun t _ => flushed0 m ρ c t) cover0

/-- The first host stretch does not write the operator's array. -/
theorem V1_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- The first host stretch leaves in its first result the rows of the array split in four. -/
theorem V1_v0 (c : Dev nD) : (V1 m ρ c main_v0 : S2x2048x32.Idx → EReal)
    = shapeCast S2x2048x32 (m ((c : Thread nD τ).loc main_arg3) : S2x512x128.Idx → EReal) shapeCasts_S2x512x128_S2x2048x32 := by
  show StableHlo.after hostOps0 (W0 m ρ c) (Proc.devRef .tc main_v0) = _
  after_results
  rfl

/-- The product with the re-laid array, entry by entry, is the specification's. -/
theorem G0_relaid (Di : Cert.Spec.A3 2 4096 2048) (v : Cert.Spec.A3 2 512 128) (i : S2x4096x32.Idx) :
    G0 Di (shapeCast S2x2048x32 v shapeCasts_S2x512x128_S2x2048x32) i = Cert.Spec.t1At Di v (i 0) (i 1) (i 2) := by
  obtain ⟨n, p, q, rfl⟩ : ∃ (n : Fin 2) (p : Fin 4096) (q : Fin 32), i = ix3 n p q := ⟨i 0, i 1, i 2, eq_ix3 i⟩
  show (∑ j : Fin 2048, Di (ix3 n p j) * shapeCast S2x2048x32 v shapeCasts_S2x512x128_S2x2048x32 (ix3 n j q)) = Cert.Spec.t1At Di v n p q
  unfold Cert.Spec.t1At
  exact Finset.sum_congr rfl fun j _ =>
    congrArg (Di (ix3 n p j) * ·) (Relay.shapeCast_split4x32_apply rfl v shapeCasts_S2x512x128_S2x2048x32 n j q)

/-- After the first call its result array is the specification's first product. -/
theorem t1_arr (c : Dev nD) :
    W2 (F := Ideal) m ρ c (Proc.devRef .tc main_v7)
      = fun i => Cert.Spec.t1At (m ((c : Thread nD τ).loc main_arg1)) (m ((c : Thread nD τ).loc main_arg3)) (i 0) (i 1) (i 2) := by
  refine (W2_arr m ρ c 2).trans ?_
  rw [arr0, V1_arg1, V1_v0]
  exact funext fun i => G0_relaid _ _ i

end Cert.KernelIdeal.KVal

end
-- ==== Proof.KVal2a.lean ====
/-
  The third call: what its four stores have in common.

  Each output of the call is a dense layer on the rows of a batch: entry `(n, r, o)` is `Σ k, X (n, r, k) * W (o, k)` plus
  the bias row's entry `o`.  Here: that function of three arrays, the lemma that one entry of a stored block is that
  function at the array's entry when the loaded blocks are the row, the weights and the bias the entry needs, and the
  function at explicit coordinates when the bias row is a re-laid vector.
-/
import proofs.«144741_g58523224375715_cont_9to1c4b_685_3_alg».proof.Proof.KVal0

set_option maxRecDepth 16384

noncomputable section

namespace Cert.KernelIdeal.KVal

open Cert.KernelIdeal Cert.KernelIdeal.Gen Cert.KernelIdeal.Hand Cert.KernelIdeal.PayAt
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl

/-- A dense layer on the rows of every batch: entry `(n, r, o)` is `Σ k, X (n, r, k) * W (o, k) + b (0, o)`. -/
def layerOf {R : Nat} (X : (⟨3, ![2, R, 128]⟩ : Shape).Idx → EReal) (W : S128x128.Idx → EReal) (b : S1x128.Idx → EReal) :
    (⟨3, ![2, R, 128]⟩ : Shape).Idx → EReal :=
  fun i => (∑ k : Fin 128, X (ix3 (i 0) (i 1) k) * W (ix2 (i 2) k)) + b (ix2 (0 : Fin 1) (i 2))

/-- One entry of a stored block of a layer: when the loaded blocks are the row, the weights and the bias that entry `i`
    of the array needs, the stored value at `z` is the layer at `i`. -/
theorem pointL {R : Nat}
    (pay : Vec Ideal ⟨3, ![1, R, 128]⟩ .f32 → Vec Ideal S128x128 .f32 → Vec Ideal S1x128 .f32 → FVec Ideal ⟨3, ![1, R, 128]⟩ .f32)
    (hpay : ∀ (x : Vec Ideal ⟨3, ![1, R, 128]⟩ .f32) (W : Vec Ideal S128x128 .f32) (b : Vec Ideal S1x128 .f32) (r : Fin R) (o : Fin 128),
      pay x W b (ix3 (0 : Fin 1) r o) = (∑ k : Fin 128, x (ix3 (0 : Fin 1) r k) * W (ix2 o k)) + b (ix2 (0 : Fin 1) o))
    (X : (⟨3, ![2, R, 128]⟩ : Shape).Idx → EReal) (Wa : S128x128.Idx → EReal) (ba : S1x128.Idx → EReal)
    (x : Vec Ideal ⟨3, ![1, R, 128]⟩ .f32) (W : Vec Ideal S128x128 .f32) (b : Vec Ideal S1x128 .f32)
    (z : (⟨3, ![1, R, 128]⟩ : Shape).Idx) (i : (⟨3, ![2, R, 128]⟩ : Shape).Idx)
    (hx : ∀ k : Fin 128, x (ix3 (0 : Fin 1) (z 1) k) = X (ix3 (i 0) (i 1) k))
    (hW : ∀ k : Fin 128, W (ix2 (z 2) k) = Wa (ix2 (i 2) k))
    (hb : b (ix2 (0 : Fin 1) (z 2)) = ba (ix2 (0 : Fin 1) (i 2))) :
    pay x W b z = layerOf X Wa ba i := by
  obtain ⟨u, r, o, rfl⟩ : ∃ (u : Fin 1) (r : Fin R) (o : Fin 128), z = ix3 u r o := ⟨z 0, z 1, z 2, eq_ix3 z⟩
  obtain rfl : u = 0 := Subsingleton.elim _ _
  rw [hpay]
  exact congrArg₂ (· + ·) (Finset.sum_congr rfl fun k _ => congrArg₂ (· * ·) (hx k) (hW k)) hb

/-- The third layer's stored block: the weights first, the rows already re-typed. -/
theorem pay14_apply (x : Vec Ideal S1x512x128 .f32) (W : Vec Ideal S128x128 .f32) (b : Vec Ideal S1x128 .f32) (r : Fin 512) (o : Fin 128) :
    k2_pay1 (F := Ideal) W (k2_pay5 (F := Ideal) x) b (ix3 (0 : Fin 1) r o)
      = (∑ k : Fin 128, x (ix3 (0 : Fin 1) r k) * W (ix2 o k)) + b (ix2 (0 : Fin 1) o) := by
  rw [k2_pay1_apply]
  exact congrArg (· + b (ix2 (0 : Fin 1) o)) (Finset.sum_congr rfl fun k _ => congrArg (· * W (ix2 o k)) (k2_pay5_apply x r k))

/-- The layer at explicit coordinates, the bias row a vector with a unit axis put in front. -/
theorem layerOf_relaid_bias {R : Nat} (X : (⟨3, ![2, R, 128]⟩ : Shape).Idx → EReal) (W : S128x128.Idx → EReal)
    (b : S128.Idx → EReal) (n : Fin 2) (r : Fin R) (o : Fin 128) :
    layerOf X W (shapeCast S1x128 b shapeCasts_S128_S1x128) (ix3 n r o)
      = (∑ k : Fin 128, X (ix3 n r k) * W (ix2 o k)) + b (ix1 o) := by
  show (∑ k : Fin 128, X (ix3 n r k) * W (ix2 o k)) + shapeCast S1x128 b shapeCasts_S128_S1x128 (ix2 (0 : Fin 1) o) = _
  rw [shapeCast_a_1a_apply]

end Cert.KernelIdeal.KVal

end
-- ==== Proof.KVal2w.lean ====
/-
  The third call, from blocks to whole arrays: its first two outputs.

  A grid point is a batch; it stores, for each output, the layer of the batch's rows, which it overwrites whole.  The two
  blocks of an output tile its array, so after the call each of the two arrays is, entry by entry, the layer of the arrays
  the call read: the first from the face array, the second from the first operator's product re-laid as rows of 128.
-/
import proofs.«144741_g58523224375715_cont_9to1c4b_685_3_alg».proof.Proof.KVal2a

set_option maxRecDepth 16384

noncomputable section

namespace Cert.KernelIdeal.KVal

open Cert.KernelIdeal Cert.KernelIdeal.Gen Cert.KernelIdeal.Hand Cert.KernelIdeal.PayAt
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The index maps of the windows the store into output window 12 reads, over the grid: point `t` is batch `t`. -/
theorem idx2_12 : ∀ t : Fin cfg2.N, win2_2.index t (0 : Fin 3) = t.val
    ∧ win2_2.index t (1 : Fin 3) = 0
    ∧ win2_2.index t (2 : Fin 3) = 0
    ∧ win2_4.index t (0 : Fin 2) = 0
    ∧ win2_4.index t (1 : Fin 2) = 0
    ∧ win2_5.index t (0 : Fin 2) = 0
    ∧ win2_5.index t (1 : Fin 2) = 0
    ∧ win2_12.index t (0 : Fin 3) = t.val
    ∧ win2_12.index t (1 : Fin 3) = 0
    ∧ win2_12.index t (2 : Fin 3) = 0 :=
  (by decide +kernel : ∀ t : Fin grid2.N, _)

/-- What point `t` writes back through output window 12 is block `t` of the layer of the call's arrays. -/
theorem flushed2_12 (c : Dev nD) (t : Fin cfg2.N) :
    (dat2 (V4 m ρ) c).flushed 12 t
      = ((cfg2.win 12).blk t).view.read (Elt Ideal) (layerOf (V4 m ρ c main_arg4) (V4 m ρ c main_arg5) (V4 m ρ c main_v2)) := by
  show (cfg2.win 12).cut (grid2.coords t) ((dat2 (V4 m ρ) c).after 12 t) = _
  rw [after2_12]
  unfold out2_12
  rw [View.canon_unit_zero hz3]
  simp only [View.ld_unit_zero (S := S1x1024x128) hz3, View.ld_unit_zero (S := S128x128) hz2, View.ld_unit_zero (S := S1x128) hz2]
  funext y
  obtain ⟨ex0, ex1, ex2, ew0, ew1, eb0, eb1, eo0, eo1, eo2⟩ := idx2_12 t
  have hy0 : (y 0).val < 1 := (y 0).isLt
  show k2_pay3 (iblk2 (V4 m ρ) c 2 t) (iblk2 (V4 m ρ) c 4 t) (iblk2 (V4 m ρ) c 5 t) ((win2 12).xinj (grid2.coords t) y)
      = layerOf _ _ _ (((cfg2.win 12).blk t).view.emb y)
  refine pointL (R := 1024) _ k2_pay3_apply _ _ _ (iblk2 (V4 m ρ) c 2 t) (iblk2 (V4 m ρ) c 4 t) (iblk2 (V4 m ρ) c 5 t) _ _ (fun k => ?_) (fun k => ?_) ?_
  · unfold iblk2
    rw [View.read_apply]
    show V4 m ρ c main_arg4 _ = V4 m ρ c main_arg4 _
    congr 1
    funext a
    apply Fin.ext
    match a with
    | ⟨0, _⟩ => show win2_2.index t (0 : Fin 3) * 1 + 1 * 0 = win2_12.index t (0 : Fin 3) * 1 + 1 * (y 0).val; omega
    | ⟨1, _⟩ => show win2_2.index t (1 : Fin 3) * 1024 + 1 * (y 1).val = win2_12.index t (1 : Fin 3) * 1024 + 1 * (y 1).val; omega
    | ⟨2, _⟩ => show win2_2.index t (2 : Fin 3) * 128 + 1 * k.val = k.val; omega
  · unfold iblk2
    rw [View.read_apply]
    show V4 m ρ c main_arg5 _ = V4 m ρ c main_arg5 _
    congr 1
    funext a
    apply Fin.ext
    match a with
    | ⟨0, _⟩ => show win2_4.index t (0 : Fin 2) * 128 + 1 * (y 2).val = win2_12.index t (2 : Fin 3) * 128 + 1 * (y 2).val; omega
    | ⟨1, _⟩ => show win2_4.index t (1 : Fin 2) * 128 + 1 * k.val = k.val; omega
  · unfold iblk2
    rw [View.read_apply]
    show V4 m ρ c main_v2 _ = V4 m ρ c main_v2 _
    congr 1
    funext a
    apply Fin.ext
    match a with
    | ⟨0, _⟩ => show win2_5.index t (0 : Fin 2) * 1 + 1 * 0 = 0; omega
    | ⟨1, _⟩ => show win2_5.index t (1 : Fin 2) * 128 + 1 * (y 2).val = win2_12.index t (2 : Fin 3) * 128 + 1 * (y 2).val; omega

/-- Every entry of the array of output window 12 is in the block of its batch's point. -/
theorem cover2_12' (i : S2x1024x128.Idx) :
    ∃ t : Fin cfg2.N, (cfg2.win 12).flush t = true ∧ i ∈ ((cfg2.win 12).blk t).view.set := by
  have h0 : (i 0).val < 2 := (i 0).isLt
  have h1 : (i 1).val < 1024 := (i 1).isLt
  have h2 : (i 2).val < 128 := (i 2).isLt
  have hN : cfg2.N = 2 := rfl
  obtain ⟨t, ht⟩ : ∃ t : Fin cfg2.N, t.val = (i 0).val := ⟨⟨(i 0).val, by rw [hN]; omega⟩, rfl⟩
  refine ⟨t, flush2_12 t, ?_⟩
  obtain ⟨-, -, -, -, -, -, -, eo0, eo1, eo2⟩ := idx2_12 t
  show i ∈ ((View.whole main_v11_0).slice (win2_12.rect t)).set
  rw [View.set_slice_whole, Rect.mem_set_unit]
  intro a
  match a with
  | ⟨0, _⟩ => show win2_12.index t (0 : Fin 3) * 1 ≤ (i 0).val ∧ (i 0).val < win2_12.index t (0 : Fin 3) * 1 + 1; omega
  | ⟨1, _⟩ => show win2_12.index t (1 : Fin 3) * 1024 ≤ (i 1).val ∧ (i 1).val < win2_12.index t (1 : Fin 3) * 1024 + 1024; omega
  | ⟨2, _⟩ => show win2_12.index t (2 : Fin 3) * 128 ≤ (i 2).val ∧ (i 2).val < win2_12.index t (2 : Fin 3) * 128 + 128; omega

/-- After the third call the array of output window 12 is the layer of the call's arrays as the call found them. -/
theorem arr2_12 (c : Dev nD) :
    (dat2 (V4 m ρ) c).arrAt 12 cfg2.N = layerOf (V4 m ρ c main_arg4) (V4 m ρ c main_arg5) (V4 m ρ c main_v2) :=
  (dat2 (V4 m ρ) c).arrAt_eq_of_cover 12 (layerOf (V4 m ρ c main_arg4) (V4 m ρ c main_arg5) (V4 m ρ c main_v2)) (fun t _ => flushed2_12 m ρ c t) cover2_12'

/-- The index maps of the windows the store into output window 13 reads, over the grid: point `t` is batch `t`. -/
theorem idx2_13 : ∀ t : Fin cfg2.N, win2_0.index t (0 : Fin 3) = t.val
    ∧ win2_0.index t (1 : Fin 3) = 0
    ∧ win2_0.index t (2 : Fin 3) = 0
    ∧ win2_6.index t (0 : Fin 2) = 0
    ∧ win2_6.index t (1 : Fin 2) = 0
    ∧ win2_7.index t (0 : Fin 2) = 0
    ∧ win2_7.index t (1 : Fin 2) = 0
    ∧ win2_13.index t (0 : Fin 3) = t.val
    ∧ win2_13.index t (1 : Fin 3) = 0
    ∧ win2_13.index t (2 : Fin 3) = 0 :=
  (by decide +kernel : ∀ t : Fin grid2.N, _)

/-- What point `t` writes back through output window 13 is block `t` of the layer of the call's arrays. -/
theorem flushed2_13 (c : Dev nD) (t : Fin cfg2.N) :
    (dat2 (V4 m ρ) c).flushed 13 t
      = ((cfg2.win 13).blk t).view.read (Elt Ideal) (layerOf (V4 m ρ c main_v9) (V4 m ρ c main_arg7) (V4 m ρ c main_v3)) := by
  show (cfg2.win 13).cut (grid2.coords t) ((dat2 (V4 m ρ) c).after 13 t) = _
  rw [after2_13]
  unfold out2_13
  rw [View.canon_unit_zero hz3]
  simp only [View.ld_unit_zero (S := S1x1024x128) hz3, View.ld_unit_zero (S := S128x128) hz2, View.ld_unit_zero (S := S1x128) hz2]
  funext y
  obtain ⟨ex0, ex1, ex2, ew0, ew1, eb0, eb1, eo0, eo1, eo2⟩ := idx2_13 t
  have hy0 : (y 0).val < 1 := (y 0).isLt
  show k2_pay4 (iblk2 (V4 m ρ) c 0 t) (iblk2 (V4 m ρ) c 6 t) (iblk2 (V4 m ρ) c 7 t) ((win2 13).xinj (grid2.coords t) y)
      = layerOf _ _ _ (((cfg2.win 13).blk t).view.emb y)
  refine pointL (R := 1024) _ k2_pay4_apply _ _ _ (iblk2 (V4 m ρ) c 0 t) (iblk2 (V4 m ρ) c 6 t) (iblk2 (V4 m ρ) c 7 t) _ _ (fun k => ?_) (fun k => ?_) ?_
  · unfold iblk2
    rw [View.read_apply]
    show V4 m ρ c main_v9 _ = V4 m ρ c main_v9 _
    congr 1
    funext a
    apply Fin.ext
    match a with
    | ⟨0, _⟩ => show win2_0.index t (0 : Fin 3) * 1 + 1 * 0 = win2_13.index t (0 : Fin 3) * 1 + 1 * (y 0).val; omega
    | ⟨1, _⟩ => show win2_0.index t (1 : Fin 3) * 1024 + 1 * (y 1).val = win2_13.index t (1 : Fin 3) * 1024 + 1 * (y 1).val; omega
    | ⟨2, _⟩ => show win2_0.index t (2 : Fin 3) * 128 + 1 * k.val = k.val; omega
  · unfold iblk2
    rw [View.read_apply]
    show V4 m ρ c main_arg7 _ = V4 m ρ c main_arg7 _
    congr 1
    funext a
    apply Fin.ext
    match a with
    | ⟨0, _⟩ => show win2_6.index t (0 : Fin 2) * 128 + 1 * (y 2).val = win2_13.index t (2 : Fin 3) * 128 + 1 * (y 2).val; omega
    | ⟨1, _⟩ => show win2_6.index t (1 : Fin 2) * 128 + 1 * k.val = k.val; omega
  · unfold iblk2
    rw [View.read_apply]
    show V4 m ρ c main_v3 _ = V4 m ρ c main_v3 _
    congr 1
    funext a
    apply Fin.ext
    match a with
    | ⟨0, _⟩ => show win2_7.index t (0 : Fin 2) * 1 + 1 * 0 = 0; omega
    | ⟨1, _⟩ => show win2_7.index t (1 : Fin 2) * 128 + 1 * (y 2).val = win2_13.index t (2 : Fin 3) * 128 + 1 * (y 2).val; omega

/-- Every entry of the array of output window 13 is in the block of its batch's point. -/
theorem cover2_13' (i : S2x1024x128.Idx) :
    ∃ t : Fin cfg2.N, (cfg2.win 13).flush t = true ∧ i ∈ ((cfg2.win 13).blk t).view.set := by
  have h0 : (i 0).val < 2 := (i 0).isLt
  have h1 : (i 1).val < 1024 := (i 1).isLt
  have h2 : (i 2).val < 128 := (i 2).isLt
  have hN : cfg2.N = 2 := rfl
  obtain ⟨t, ht⟩ : ∃ t : Fin cfg2.N, t.val = (i 0).val := ⟨⟨(i 0).val, by rw [hN]; omega⟩, rfl⟩
  refine ⟨t, flush2_13 t, ?_⟩
  obtain ⟨-, -, -, -, -, -, -, eo0, eo1, eo2⟩ := idx2_13 t
  show i ∈ ((View.whole main_v11_1).slice (win2_13.rect t)).set
  rw [View.set_slice_whole, Rect.mem_set_unit]
  intro a
  match a with
  | ⟨0, _⟩ => show win2_13.index t (0 : Fin 3) * 1 ≤ (i 0).val ∧ (i 0).val < win2_13.index t (0 : Fin 3) * 1 + 1; omega
  | ⟨1, _⟩ => show win2_13.index t (1 : Fin 3) * 1024 ≤ (i 1).val ∧ (i 1).val < win2_13.index t (1 : Fin 3) * 1024 + 1024; omega
  | ⟨2, _⟩ => show win2_13.index t (2 : Fin 3) * 128 ≤ (i 2).val ∧ (i 2).val < win2_13.index t (2 : Fin 3) * 128 + 128; omega

/-- After the third call the array of output window 13 is the layer of the call's arrays as the call found them. -/
theorem arr2_13 (c : Dev nD) :
    (dat2 (V4 m ρ) c).arrAt 13 cfg2.N = layerOf (V4 m ρ c main_v9) (V4 m ρ c main_arg7) (V4 m ρ c main_v3) :=
  (dat2 (V4 m ρ) c).arrAt_eq_of_cover 13 (layerOf (V4 m ρ c main_v9) (V4 m ρ c main_arg7) (V4 m ρ c main_v3)) (fun t _ => flushed2_13 m ρ c t) cover2_13'

end Cert.KernelIdeal.KVal

end
-- ==== Proof.KVal02.lean ====
/-
  The third call's first two results against the specification.

  The arrays the third call reads are walked back to the launch memory: an argument no host stretch writes and no earlier
  call owns is as at launch; a bias row is its vector with a unit axis in front; the first operator's product arrives with
  four rows of 32 laid side by side.  With those, the layer the call leaves in each of its first two result arrays is, entry
  by entry, the specification's.
-/
import proofs.«144741_g58523224375715_cont_9to1c4b_685_3_alg».proof.Proof.KVal0
import proofs.«144741_g58523224375715_cont_9to1c4b_685_3_alg».proof.Proof.KVal2w

set_option maxRecDepth 16384

noncomputable section

namespace Cert.KernelIdeal.KVal

open Cert.KernelIdeal Cert.KernelIdeal.Gen Cert.KernelIdeal.Hand Cert.KernelIdeal.PayAt
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The face array reaches the third call as it was at launch: neither host stretch writes it and it is no array of the first two calls. -/
theorem V4_arg4 (c : Dev nD) : V4 m ρ c main_arg4 = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

/-- The first layer's weight matrix reaches the third call as it was at launch: neither host stretch writes it and it is no array of the first two calls. -/
theorem V4_arg5 (c : Dev nD) : V4 m ρ c main_arg5 = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

/-- The second layer's weight matrix reaches the third call as it was at launch: neither host stretch writes it and it is no array of the first two calls. -/
theorem V4_arg7 (c : Dev nD) : V4 m ρ c main_arg7 = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg7) := rfl

/-- The first layer's bias row reaches the third call as the first host stretch made it: the bias vector with a unit axis put in front. -/
theorem V4_v2 (c : Dev nD) : (V4 m ρ c main_v2 : S1x128.Idx → EReal)
    = shapeCast S1x128 (m ((c : Thread nD τ).loc main_arg6) : S128.Idx → EReal) shapeCasts_S128_S1x128 :=
  calc W4 m ρ c (Proc.devRef .tc main_v2)
    _ = W3 m ρ c (Proc.devRef .tc main_v2) := StableHlo.after_of_forall_not_mem (b := Proc.devRef .tc main_v2) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_v2) := W3_of_ne m ρ c main_v2 (by decide)
    _ = W1 m ρ c (Proc.devRef .tc main_v2) := W2_of_ne m ρ c main_v2 (by decide)
    _ = shapeCast S1x128 (m ((c : Thread nD τ).loc main_arg6) : S128.Idx → EReal) shapeCasts_S128_S1x128 := by
          show StableHlo.after hostOps0 (W0 m ρ c) (Proc.devRef .tc main_v2) = _
          after_results
          rfl

/-- The second layer's bias row reaches the third call as the first host stretch made it: the bias vector with a unit axis put in front. -/
theorem V4_v3 (c : Dev nD) : (V4 m ρ c main_v3 : S1x128.Idx → EReal)
    = shapeCast S1x128 (m ((c : Thread nD τ).loc main_arg8) : S128.Idx → EReal) shapeCasts_S128_S1x128 :=
  calc W4 m ρ c (Proc.devRef .tc main_v3)
    _ = W3 m ρ c (Proc.devRef .tc main_v3) := StableHlo.after_of_forall_not_mem (b := Proc.devRef .tc main_v3) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_v3) := W3_of_ne m ρ c main_v3 (by decide)
    _ = W1 m ρ c (Proc.devRef .tc main_v3) := W2_of_ne m ρ c main_v3 (by decide)
    _ = shapeCast S1x128 (m ((c : Thread nD τ).loc main_arg8) : S128.Idx → EReal) shapeCasts_S128_S1x128 := by
          show StableHlo.after hostOps0 (W0 m ρ c) (Proc.devRef .tc main_v3) = _
          after_results
          rfl

/-- The second host stretch leaves in its first result the first operator's product with four rows of 32 side by side. -/
theorem V4_v9 (c : Dev nD) : (V4 m ρ c main_v9 : S2x1024x128.Idx → EReal)
    = shapeCast S2x1024x128 (W3 m ρ c (Proc.devRef .tc main_v7) : S2x4096x32.Idx → EReal) shapeCasts_S2x4096x32_S2x1024x128 := by
  show StableHlo.after hostOps2 (W3 m ρ c) (Proc.devRef .tc main_v9) = _
  after_results
  rfl

/-- The layer of the face array, entry by entry, is the specification's first result. -/
theorem layerOf_Y0 (f : Cert.Spec.A3 2 1024 128) (W : Cert.Spec.Mat) (b : Cert.Spec.Bias) (i : S2x1024x128.Idx) :
    layerOf f W (shapeCast S1x128 b shapeCasts_S128_S1x128) i = Cert.Spec.Y0 f W b i := by
  obtain ⟨n, r, o, rfl⟩ : ∃ (n : Fin 2) (r : Fin 1024) (o : Fin 128), i = ix3 n r o := ⟨i 0, i 1, i 2, eq_ix3 i⟩
  rw [layerOf_relaid_bias, Cert.Spec.Y0_apply]
  rfl

/-- The layer of the first operator's product re-laid as rows of 128, entry by entry, is the specification's second result. -/
theorem layerOf_Y1 (Di : Cert.Spec.A3 2 4096 2048) (v : Cert.Spec.A3 2 512 128) (W : Cert.Spec.Mat) (b : Cert.Spec.Bias)
    (i : S2x1024x128.Idx) :
    layerOf (shapeCast S2x1024x128 (fun i : S2x4096x32.Idx => Cert.Spec.t1At Di v (i 0) (i 1) (i 2)) shapeCasts_S2x4096x32_S2x1024x128)
        W (shapeCast S1x128 b shapeCasts_S128_S1x128) i
      = Cert.Spec.Y1 Di v W b i := by
  obtain ⟨n, r, o, rfl⟩ : ∃ (n : Fin 2) (r : Fin 1024) (o : Fin 128), i = ix3 n r o := ⟨i 0, i 1, i 2, eq_ix3 i⟩
  rw [layerOf_relaid_bias, Cert.Spec.Y1_apply]
  unfold Cert.Spec.y1At
  refine congrArg (· + b (ix1 o)) (Finset.sum_congr rfl fun k _ => congrArg (· * W (ix2 o k)) ?_)
  exact Relay.shapeCast_merge4x32_apply rfl
    (fun i : S2x4096x32.Idx => Cert.Spec.t1At Di v (i 0) (i 1) (i 2)) shapeCasts_S2x4096x32_S2x1024x128 n r k

/-- After the third call its first result array is the specification's first result. -/
theorem y0_arr (c : Dev nD)
    (ht1 : W3 (F := Ideal) m ρ c (Proc.devRef .tc main_v7)
      = fun i => Cert.Spec.t1At (m ((c : Thread nD τ).loc main_arg1)) (m ((c : Thread nD τ).loc main_arg3)) (i 0) (i 1) (i 2))
    (ht3 : W3 (F := Ideal) m ρ c (Proc.devRef .tc main_v8_0)
      = fun i => Cert.Spec.t3At (m ((c : Thread nD τ).loc main_arg2)) (m ((c : Thread nD τ).loc main_arg4)) (i 0) (i 1) (i 2)) :
    W5 (F := Ideal) m ρ c (Proc.devRef .tc main_v11_0)
      = Cert.Spec.Y0 (m ((c : Thread nD τ).loc main_arg4)) (m ((c : Thread nD τ).loc main_arg5)) (m ((c : Thread nD τ).loc main_arg6)) := by
  refine (W5_arr m ρ c 12).trans ?_
  rw [arr2_12, V4_arg4, V4_arg5, V4_v2]
  exact funext fun i => layerOf_Y0 _ _ _ i

/-- After the third call its second result array is the specification's second result. -/
theorem y1_arr (c : Dev nD)
    (ht1 : W3 (F := Ideal) m ρ c (Proc.devRef .tc main_v7)
      = fun i => Cert.Spec.t1At (m ((c : Thread nD τ).loc main_arg1)) (m ((c : Thread nD τ).loc main_arg3)) (i 0) (i 1) (i 2))
    (ht3 : W3 (F := Ideal) m ρ c (Proc.devRef .tc main_v8_0)
      = fun i => Cert.Spec.t3At (m ((c : Thread nD τ).loc main_arg2)) (m ((c : Thread nD τ).loc main_arg4)) (i 0) (i 1) (i 2)) :
    W5 (F := Ideal) m ρ c (Proc.devRef .tc main_v11_1)
      = Cert.Spec.Y1 (m ((c : Thread nD τ).loc main_arg1)) (m ((c : Thread nD τ).loc main_arg3)) (m ((c : Thread nD τ).loc main_arg7)) (m ((c : Thread nD τ).loc main_arg8)) := by
  refine (W5_arr m ρ c 13).trans ?_
  rw [arr2_13, V4_v9, V4_arg7, V4_v3, ht1]
  exact funext fun i => layerOf_Y1 _ _ _ _ i

end Cert.KernelIdeal.KVal

end
-- ==== Proof.KBIn2.lean ====
/-
  What the third call finds in the arrays its third and fourth layers read.

  The third call reads v, W3 and W4 as launched (nothing before it writes them), b3 and b4 re-laid by the host as one
  row each, and the second call's first output array re-laid by the host as 512 rows of 128 numbers.
-/
import proofs.«144741_g58523224375715_cont_9to1c4b_685_3_alg».proof.Proof.FrameFold
import proofs.«144741_g58523224375715_cont_9to1c4b_685_3_alg».proof.Proof.FrameArgs
import Idealize.ShloMosaic.Lib.StableHlo.Run
import Idealize.ShloMosaic.Lib.ValueIdx
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The third call finds argument 3 as launched. -/
theorem V4_arg3 (c : Dev nD) : V4 m ρ c main_arg3 = m ((c : Thread nD τ).loc main_arg3) :=
  ((W5_arr m ρ c 3).trans (((dat2 (V4 m ρ) c).arrAt_in 3 rfl _).trans (A_eq2 (V4 m ρ) c 3))).symm.trans (W5_main_arg3 m ρ c)

/-- The third call finds argument 9 as launched. -/
theorem V4_arg9 (c : Dev nD) : V4 m ρ c main_arg9 = m ((c : Thread nD τ).loc main_arg9) :=
  ((W5_arr m ρ c 8).trans (((dat2 (V4 m ρ) c).arrAt_in 8 rfl _).trans (A_eq2 (V4 m ρ) c 8))).symm.trans (W5_main_arg9 m ρ c)

/-- The third call finds argument 11 as launched. -/
theorem V4_arg11 (c : Dev nD) : V4 m ρ c main_arg11 = m ((c : Thread nD τ).loc main_arg11) :=
  ((W5_arr m ρ c 10).trans (((dat2 (V4 m ρ) c).arrAt_in 10 rfl _).trans (A_eq2 (V4 m ρ) c 10))).symm.trans (W5_main_arg11 m ρ c)

/-- The third call finds b3 re-laid as one row. -/
theorem V4_v4 (c : Dev nD) :
    V4 m ρ c main_v4 = shapeCast _ (m ((c : Thread nD τ).loc main_arg10)) shapeCasts_S128_S1x128 :=
  calc W4 m ρ c (Proc.devRef .tc main_v4)
    _ = W3 m ρ c (Proc.devRef .tc main_v4) := StableHlo.after_of_forall_not_mem (b := Proc.devRef .tc main_v4) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_v4) := W3_of_ne m ρ c main_v4 (by decide)
    _ = W1 m ρ c (Proc.devRef .tc main_v4) := W2_of_ne m ρ c main_v4 (by decide)
    _ = shapeCast _ (m ((c : Thread nD τ).loc main_arg10)) shapeCasts_S128_S1x128 := by
      show StableHlo.after hostOps0 (W0 m ρ c) (Proc.devRef .tc main_v4) = _
      after_results
      rfl

/-- The third call finds b4 re-laid as one row. -/
theorem V4_v5 (c : Dev nD) :
    V4 m ρ c main_v5 = shapeCast _ (m ((c : Thread nD τ).loc main_arg12)) shapeCasts_S128_S1x128 :=
  calc W4 m ρ c (Proc.devRef .tc main_v5)
    _ = W3 m ρ c (Proc.devRef .tc main_v5) := StableHlo.after_of_forall_not_mem (b := Proc.devRef .tc main_v5) _ _ (List.forall_iff_forall_mem.mp (by
          simp only [hostOps2, List.Forall, StableHlo.reshape_writes, Finset.mem_singleton]
          repeat' apply And.intro
          all_goals exact StableHlo.devRef_ne_of_ne (by decide)))
    _ = W2 m ρ c (Proc.devRef .tc main_v5) := W3_of_ne m ρ c main_v5 (by decide)
    _ = W1 m ρ c (Proc.devRef .tc main_v5) := W2_of_ne m ρ c main_v5 (by decide)
    _ = shapeCast _ (m ((c : Thread nD τ).loc main_arg12)) shapeCasts_S128_S1x128 := by
      show StableHlo.after hostOps0 (W0 m ρ c) (Proc.devRef .tc main_v5) = _
      after_results
      rfl

/-- The third call finds the second call's first output array re-laid as 512 rows of 128 numbers. -/
theorem V4_v10 (c : Dev nD) :
    V4 m ρ c main_v10 = shapeCast _ (W3 m ρ c (Proc.devRef .tc main_v8_0)) shapeCasts_S2x2048x32_S2x512x128 := by
  show StableHlo.after hostOps2 (W3 m ρ c) (Proc.devRef .tc main_v10) = _
  after_results
  rfl

end Cert.KernelIdeal.KVal

end
-- ==== Proof.KBY23.lean ====
/-
  The third and the fourth result at a grid point of the third call.

  The call's grid is the batch: point t is batch t, and every block is a whole batch (or the whole weight matrix, or
  the whole bias row).  The third layer is applied to the rows of v's batch; the fourth to the rows of the batch of the
  re-laid image of f under DiA.
-/
import proofs.«144741_g58523224375715_cont_9to1c4b_685_3_alg».proof.Proof.KBIn2
import proofs.«144741_g58523224375715_cont_9to1c4b_685_3_alg».proof.Proof.PayAt
import proofs.«144741_g58523224375715_cont_9to1c4b_685_3_alg».proof.Proof.Spec
import Idealize.ShloMosaic.Lib.Pipeline.Value
import Idealize.ShloMosaic.Lib.ValueLayout

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3b : (![0, 0, 0] : Fin 3 → Nat) = fun _ => 0 := funext fun a => by fin_cases a <;> rfl
theorem hz2b : (![0, 0] : Fin 2 → Nat) = fun _ => 0 := funext fun a => by fin_cases a <;> rfl

/-- Where the blocks the two layers read and write lie, over the grid. -/
theorem idx_facts2_b : ∀ t : Fin cfg2.N,
    (win2_1.index t (0 : Fin 3) = t.val ∧ win2_1.index t (1 : Fin 3) = 0 ∧ win2_1.index t (2 : Fin 3) = 0)
    ∧ (win2_3.index t (0 : Fin 3) = t.val ∧ win2_3.index t (1 : Fin 3) = 0 ∧ win2_3.index t (2 : Fin 3) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_14.index t (0 : Fin 3) = t.val ∧ win2_14.index t (1 : Fin 3) = 0 ∧ win2_14.index t (2 : Fin 3) = 0)
    ∧ (win2_15.index t (0 : Fin 3) = t.val ∧ win2_15.index t (1 : Fin 3) = 0 ∧ win2_15.index t (2 : Fin 3) = 0) :=
  (by decide +kernel : ∀ t : Fin grid2.N, _)

section Blocks

variable {F : FTy → Type} [FloatOps F]
variable (V : (c : Dev nD) → (b : Ref sig .tc) → Buf (Elt F) ((c : Thread nD τ).loc b))

/-- The block of the re-laid image at point t is the whole batch t. -/
theorem iblk2_1_apply (c : Dev nD) (t : Fin cfg2.N) (y : S1x512x128.Idx) (k : S2x512x128.Idx)
    (h0 : (k 0).val = t.val) (h1 : (k 1).val = (y 1).val) (h2 : (k 2).val = (y 2).val) :
    (iblk2 V c 1 t : Vec F S1x512x128 .f32) y = (V c main_v10 : S2x512x128.Idx → Elt F .f32) k := by
  obtain ⟨⟨e0, e1, e2⟩, -⟩ := idx_facts2_b t
  have hy : (y 0).val < 1 := (y 0).isLt
  unfold iblk2
  rw [View.read_apply]
  show V c main_v10 _ = V c main_v10 _
  congr 1
  funext a
  apply Fin.ext
  match a with
  | ⟨0, _⟩ => show win2_1.index t (0 : Fin 3) * 1 + 1 * (y 0).val = (k 0).val; omega
  | ⟨1, _⟩ => show win2_1.index t (1 : Fin 3) * 512 + 1 * (y 1).val = (k 1).val; omega
  | ⟨2, _⟩ => show win2_1.index t (2 : Fin 3) * 128 + 1 * (y 2).val = (k 2).val; omega

/-- The block of v at point t is the whole batch t. -/
theorem iblk2_3_apply (c : Dev nD) (t : Fin cfg2.N) (y : S1x512x128.Idx) (k : S2x512x128.Idx)
    (h0 : (k 0).val = t.val) (h1 : (k 1).val = (y 1).val) (h2 : (k 2).val = (y 2).val) :
    (iblk2 V c 3 t : Vec F S1x512x128 .f32) y = (V c main_arg3 : S2x512x128.Idx → Elt F .f32) k := by
  obtain ⟨-, ⟨e0, e1, e2⟩, -⟩ := idx_facts2_b t
  have hy : (y 0).val < 1 := (y 0).isLt
  unfold iblk2
  rw [View.read_apply]
  show V c main_arg3 _ = V c main_arg3 _
  congr 1
  funext a
  apply Fin.ext
  match a with
  | ⟨0, _⟩ => show win2_3.index t (0 : Fin 3) * 1 + 1 * (y 0).val = (k 0).val; omega
  | ⟨1, _⟩ => show win2_3.index t (1 : Fin 3) * 512 + 1 * (y 1).val = (k 1).val; omega
  | ⟨2, _⟩ => show win2_3.index t (2 : Fin 3) * 128 + 1 * (y 2).val = (k 2).val; omega

/-- The block of W3 at any point is the whole matrix. -/
theorem iblk2_8_apply (c : Dev nD) (t : Fin cfg2.N) (y : S128x128.Idx) :
    (iblk2 V c 8 t : Vec F S128x128 .f32) y = (V c main_arg9 : S128x128.Idx → Elt F .f32) y := by
  obtain ⟨-, -, ⟨e0, e1⟩, -⟩ := idx_facts2_b t
  unfold iblk2
  rw [View.read_apply]
  show V c main_arg9 _ = V c main_arg9 _
  congr 1
  funext a
  apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega

/-- The block of b3's row at any point is the whole row. -/
theorem iblk2_9_apply (c : Dev nD) (t : Fin cfg2.N) (y : S1x128.Idx) :
    (iblk2 V c 9 t : Vec F S1x128 .f32) y = (V c main_v4 : S1x128.Idx → Elt F .f32) y := by
  obtain ⟨-, -, -, ⟨e0, e1⟩, -⟩ := idx_facts2_b t
  unfold iblk2
  rw [View.read_apply]
  show V c main_v4 _ = V c main_v4 _
  congr 1
  funext a
  apply Fin.ext
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- The block of W4 at any point is the whole matrix. -/
theorem iblk2_10_apply (c : Dev nD) (t : Fin cfg2.N) (y : S128x128.Idx) :
    (iblk2 V c 10 t : Vec F S128x128 .f32) y = (V c main_arg11 : S128x128.Idx → Elt F .f32) y := by
  obtain ⟨-, -, -, -, ⟨e0, e1⟩, -⟩ := idx_facts2_b t
  unfold iblk2
  rw [View.read_apply]
  show V c main_arg11 _ = V c main_arg11 _
  congr 1
  funext a
  apply Fin.ext
  match a with
  | ⟨0, _⟩ => show win2_10.index t (0 : Fin 2) * 128 + 1 * (y 0).val = (y 0).val; omega
  | ⟨1, _⟩ => show win2_10.index t (1 : Fin 2) * 128 + 1 * (y 1).val = (y 1).val; omega

/-- The block of b4's row at any point is the whole row. -/
theorem iblk2_11_apply (c : Dev nD) (t : Fin cfg2.N) (y : S1x128.Idx) :
    (iblk2 V c 11 t : Vec F S1x128 .f32) y = (V c main_v5 : S1x128.Idx → Elt F .f32) y := by
  obtain ⟨-, -, -, -, -, ⟨e0, e1⟩, -⟩ := idx_facts2_b t
  unfold iblk2
  rw [View.read_apply]
  show V c main_v5 _ = V c main_v5 _
  congr 1
  funext a
  apply Fin.ext
  match a with
  | ⟨0, _⟩ => show win2_11.index t (0 : Fin 2) * 1 + 1 * (y 0).val = (y 0).val; omega
  | ⟨1, _⟩ => show win2_11.index t (1 : Fin 2) * 128 + 1 * (y 1).val = (y 1).val; omega

end Blocks

/-- The third layer at a point: if the loaded blocks are v's batch n, W3 and b3's row, the stored block is the third
    result's batch n. -/
theorem y2_point (x3 : Vec Ideal S1x512x128 .f32) (x8 : Vec Ideal S128x128 .f32) (x9 : Vec Ideal S1x128 .f32)
    (v : Cert.Spec.A3 2 512 128) (W : Cert.Spec.Mat) (b : Cert.Spec.Bias) (n : Fin 2)
    (h3 : ∀ (r : Fin 512) (k : Fin 128), x3 (ix3 (0 : Fin 1) r k) = v (ix3 n r k))
    (h8 : ∀ (o k : Fin 128), x8 (ix2 o k) = W (ix2 o k))
    (h9 : ∀ o : Fin 128, x9 (ix2 (0 : Fin 1) o) = b (ix1 o))
    (y : S1x512x128.Idx) (i : S2x512x128.Idx)
    (hi0 : (i 0).val = n.val) (hi1 : (i 1).val = (y 1).val) (hi2 : (i 2).val = (y 2).val) :
    out2_14 (F := Ideal) x3 x8 x9 y = Cert.Spec.y2At v W b (i 0) (i 1) (i 2) := by
  obtain ⟨r, o, rfl⟩ : ∃ (r : Fin 512) (o : Fin 128), y = ix3 (0 : Fin 1) r o := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  have e0 : i 0 = n := Fin.ext hi0
  have e1 : i 1 = r := Fin.ext hi1
  have e2 : i 2 = o := Fin.ext hi2
  unfold out2_14
  rw [View.canon_unit_zero hz3b]
  simp only [View.ld_unit_zero (S := S1x512x128) hz3b, View.ld_unit_zero (S := S128x128) hz2b, View.ld_unit_zero (S := S1x128) hz2b]
  rw [PayAt.k2_pay1_apply, e0, e1, e2]
  unfold Cert.Spec.y2At
  rw [h9]
  congr 1
  exact Finset.sum_congr rfl fun k _ => by rw [PayAt.k2_pay5_apply, h3, h8]

/-- The fourth layer at a point: if the loaded blocks are the batch n of the re-laid image of f under DiA, W4 and b4's
    row, the stored block is the fourth result's batch n. -/
theorem y3_point (x1 : Vec Ideal S1x512x128 .f32) (x10 : Vec Ideal S128x128 .f32) (x11 : Vec Ideal S1x128 .f32)
    (DiA : Cert.Spec.A3 2 2048 4096) (f : Cert.Spec.A3 2 1024 128) (W : Cert.Spec.Mat) (b : Cert.Spec.Bias) (n : Fin 2)
    (h1 : ∀ (r : Fin 512) (k : Fin 128),
      x1 (ix3 (0 : Fin 1) r k) = Cert.Spec.t3At DiA f n (⟨4 * r.val + k.val / 32, by omega⟩ : Fin 2048) (⟨k.val % 32, by omega⟩ : Fin 32))
    (h10 : ∀ (o k : Fin 128), x10 (ix2 o k) = W (ix2 o k))
    (h11 : ∀ o : Fin 128, x11 (ix2 (0 : Fin 1) o) = b (ix1 o))
    (y : S1x512x128.Idx) (i : S2x512x128.Idx)
    (hi0 : (i 0).val = n.val) (hi1 : (i 1).val = (y 1).val) (hi2 : (i 2).val = (y 2).val) :
    out2_15 (F := Ideal) x1 x10 x11 y = Cert.Spec.y3At DiA f W b (i 0) (i 1) (i 2) := by
  obtain ⟨r, o, rfl⟩ : ∃ (r : Fin 512) (o : Fin 128), y = ix3 (0 : Fin 1) r o := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  have e0 : i 0 = n := Fin.ext hi0
  have e1 : i 1 = r := Fin.ext hi1
  have e2 : i 2 = o := Fin.ext hi2
  unfold out2_15
  rw [View.canon_unit_zero hz3b]
  simp only [View.ld_unit_zero (S := S1x512x128) hz3b, View.ld_unit_zero (S := S128x128) hz2b, View.ld_unit_zero (S := S1x128) hz2b]
  rw [PayAt.k2_pay2_apply, e0, e1, e2]
  unfold Cert.Spec.y3At
  rw [h11]
  congr 1
  exact Finset.sum_congr rfl fun k _ => by rw [h1, h10]

end Cert.KernelIdeal.KVal

end
-- ==== Proof.KVal2b.lean ====
/-
  The third and the fourth result, as whole arrays at the end of @main.

  What each point of the third call writes back into the third (the fourth) result's array is its batch of that result,
  with the blocks it loaded read off the launch memory (for the fourth: off what the second call left, re-laid by the
  host); the two batches cover the array.
-/
import proofs.«144741_g58523224375715_cont_9to1c4b_685_3_alg».proof.Proof.KBY23
import proofs.«144741_g58523224375715_cont_9to1c4b_685_3_alg».proof.Proof.LibRelay

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The third result, as the array the call writes. -/
def Y2A (c : Dev nD) : Buf (Elt Ideal) ((c : Thread nD τ).loc main_v11_2) :=
  Cert.Spec.Y2 (m ((c : Thread nD τ).loc main_arg3)) (m ((c : Thread nD τ).loc main_arg9)) (m ((c : Thread nD τ).loc main_arg10))

/-- The fourth result, as the array the call writes. -/
def Y3A (c : Dev nD) : Buf (Elt Ideal) ((c : Thread nD τ).loc main_v11_3) :=
  Cert.Spec.Y3 (m ((c : Thread nD τ).loc main_arg2)) (m ((c : Thread nD τ).loc main_arg4)) (m ((c : Thread nD τ).loc main_arg11)) (m ((c : Thread nD τ).loc main_arg12))

/-- A bias re-laid as one row, at (0, o), is the bias at o. -/
theorem bias_row_b (b : Cert.Spec.Bias) (o : Fin 128) :
    shapeCast S1x128 b shapeCasts_S128_S1x128 (ix2 (0 : Fin 1) o) = b (ix1 o) :=
  shapeCast_a_1a_apply b shapeCasts_S128_S1x128 (0 : Fin 1) o

/-- An array of 2048 rows of 32 re-laid as 512 rows of 128, at (n, r, k), is the array at (n, 4 r + k / 32, k % 32). -/
theorem merged_apply (x : S2x2048x32.Idx → EReal) (n : Fin 2) (r : Fin 512) (k : Fin 128) :
    shapeCast S2x512x128 x shapeCasts_S2x2048x32_S2x512x128 (ix3 n r k)
      = x (ix3 n (⟨4 * r.val + k.val / 32, by omega⟩ : Fin 2048) (⟨k.val % 32, by omega⟩ : Fin 32)) :=
  Relay.shapeCast_merge4x32_apply (m := 2) (a := 512) (A := 2048) rfl x shapeCasts_S2x2048x32_S2x512x128 n r k

/-- What point t writes back into the third result's array is batch t of the third result. -/
theorem flushed14_eq (c : Dev nD) (t : Fin cfg2.N) :
    (dat2 (V4 m ρ) c).flushed 14 t = ((cfg2.win 14).blk t).view.read (Elt Ideal) (Y2A m c) := by
  show (cfg2.win 14).cut (grid2.coords t) ((dat2 (V4 m ρ) c).after 14 t) = _
  rw [after2_14]
  obtain ⟨-, -, -, -, -, -, ⟨e0, e1, e2⟩, -⟩ := idx_facts2_b t
  have hN : t.val < 2 := lt_of_lt_of_eq t.isLt N_2
  funext y
  show out2_14 (F := Ideal) (iblk2 (V4 m ρ) c 3 t) (iblk2 (V4 m ρ) c 8 t) (iblk2 (V4 m ρ) c 9 t) y
    = Cert.Spec.y2At (m ((c : Thread nD τ).loc main_arg3)) (m ((c : Thread nD τ).loc main_arg9)) (m ((c : Thread nD τ).loc main_arg10)) ((((cfg2.win 14).blk t).view.emb y) 0) ((((cfg2.win 14).blk t).view.emb y) 1) ((((cfg2.win 14).blk t).view.emb y) 2)
  refine y2_point _ _ _ (m ((c : Thread nD τ).loc main_arg3)) (m ((c : Thread nD τ).loc main_arg9)) (m ((c : Thread nD τ).loc main_arg10)) (⟨t.val, hN⟩ : Fin 2)
    (fun r k => ?_) (fun o k => ?_) (fun o => ?_) y _ ?_ ?_ ?_
  · refine (iblk2_3_apply (V4 m ρ) c t _ (ix3 (⟨t.val, hN⟩ : Fin 2) r k) rfl rfl rfl).trans ?_
    rw [V4_arg3]
  · refine (iblk2_8_apply (V4 m ρ) c t _).trans ?_
    rw [V4_arg9]
  · refine (iblk2_9_apply (V4 m ρ) c t _).trans ?_
    rw [V4_v4]
    exact bias_row_b _ o
  · show win2_14.index t (0 : Fin 3) * 1 + 1 * (y 0).val = t.val
    have : (y 0).val < 1 := (y 0).isLt
    omega
  · show win2_14.index t (1 : Fin 3) * 512 + 1 * (y 1).val = (y 1).val
    omega
  · show win2_14.index t (2 : Fin 3) * 128 + 1 * (y 2).val = (y 2).val
    omega

/-- Every entry of the array is in some point's block: batch n in that of point n. -/
theorem cover14 (i : S2x512x128.Idx) :
    ∃ t : Fin cfg2.N, (cfg2.win 14).flush t = true ∧ i ∈ ((cfg2.win 14).blk t).view.set := by
  have h0 : (i 0).val < 2 := (i 0).isLt
  have h1 : (i 1).val < 512 := (i 1).isLt
  have h2 : (i 2).val < 128 := (i 2).isLt
  have hN : cfg2.N = 2 := N_2
  obtain ⟨t, ht⟩ : ∃ t : Fin cfg2.N, t.val = (i 0).val := ⟨⟨(i 0).val, by omega⟩, rfl⟩
  obtain ⟨-, -, -, -, -, -, ⟨e0, e1, e2⟩, -⟩ := idx_facts2_b t
  refine ⟨t, flush2_14 t, ?_⟩
  show i ∈ ((View.whole main_v11_2).slice (win2_14.rect t)).set
  rw [View.set_slice_whole, Rect.mem_set_unit]
  intro a
  match a with
  | ⟨0, _⟩ => show win2_14.index t (0 : Fin 3) * 1 ≤ (i 0).val ∧ (i 0).val < win2_14.index t (0 : Fin 3) * 1 + 1; omega
  | ⟨1, _⟩ => show win2_14.index t (1 : Fin 3) * 512 ≤ (i 1).val ∧ (i 1).val < win2_14.index t (1 : Fin 3) * 512 + 512; omega
  | ⟨2, _⟩ => show win2_14.index t (2 : Fin 3) * 128 ≤ (i 2).val ∧ (i 2).val < win2_14.index t (2 : Fin 3) * 128 + 128; omega

/-- What point t writes back into the fourth result's array is batch t of the fourth result, given what the second
    call left in its first output array. -/
theorem flushed15_eq (c : Dev nD) (ht3 : W3 (F := Ideal) m ρ c (Proc.devRef .tc main_v8_0) = fun i => Cert.Spec.t3At (m ((c : Thread nD τ).loc main_arg2)) (m ((c : Thread nD τ).loc main_arg4)) (i 0) (i 1) (i 2)) (t : Fin cfg2.N) :
    (dat2 (V4 m ρ) c).flushed 15 t = ((cfg2.win 15).blk t).view.read (Elt Ideal) (Y3A m c) := by
  show (cfg2.win 15).cut (grid2.coords t) ((dat2 (V4 m ρ) c).after 15 t) = _
  rw [after2_15]
  obtain ⟨-, -, -, -, -, -, -, ⟨e0, e1, e2⟩⟩ := idx_facts2_b t
  have hN : t.val < 2 := lt_of_lt_of_eq t.isLt N_2
  funext y
  show out2_15 (F := Ideal) (iblk2 (V4 m ρ) c 1 t) (iblk2 (V4 m ρ) c 10 t) (iblk2 (V4 m ρ) c 11 t) y
    = Cert.Spec.y3At (m ((c : Thread nD τ).loc main_arg2)) (m ((c : Thread nD τ).loc main_arg4)) (m ((c : Thread nD τ).loc main_arg11)) (m ((c : Thread nD τ).loc main_arg12)) ((((cfg2.win 15).blk t).view.emb y) 0) ((((cfg2.win 15).blk t).view.emb y) 1) ((((cfg2.win 15).blk t).view.emb y) 2)
  refine y3_point _ _ _ (m ((c : Thread nD τ).loc main_arg2)) (m ((c : Thread nD τ).loc main_arg4)) (m ((c : Thread nD τ).loc main_arg11)) (m ((c : Thread nD τ).loc main_arg12)) (⟨t.val, hN⟩ : Fin 2)
    (fun r k => ?_) (fun o k => ?_) (fun o => ?_) y _ ?_ ?_ ?_
  · refine (iblk2_1_apply (V4 m ρ) c t _ (ix3 (⟨t.val, hN⟩ : Fin 2) r k) rfl rfl rfl).trans ?_
    rw [V4_v10, ht3]
    exact merged_apply _ (⟨t.val, hN⟩ : Fin 2) r k
  · refine (iblk2_10_apply (V4 m ρ) c t _).trans ?_
    rw [V4_arg11]
  · refine (iblk2_11_apply (V4 m ρ) c t _).trans ?_
    rw [V4_v5]
    exact bias_row_b _ o
  · show win2_15.index t (0 : Fin 3) * 1 + 1 * (y 0).val = t.val
    have : (y 0).val < 1 := (y 0).isLt
    omega
  · show win2_15.index t (1 : Fin 3) * 512 + 1 * (y 1).val = (y 1).val
    omega
  · show win2_15.index t (2 : Fin 3) * 128 + 1 * (y 2).val = (y 2).val
    omega

/-- Every entry of the array is in some point's block: batch n in that of point n. -/
theorem cover15 (i : S2x512x128.Idx) :
    ∃ t : Fin cfg2.N, (cfg2.win 15).flush t = true ∧ i ∈ ((cfg2.win 15).blk t).view.set := by
  have h0 : (i 0).val < 2 := (i 0).isLt
  have h1 : (i 1).val < 512 := (i 1).isLt
  have h2 : (i 2).val < 128 := (i 2).isLt
  have hN : cfg2.N = 2 := N_2
  obtain ⟨t, ht⟩ : ∃ t : Fin cfg2.N, t.val = (i 0).val := ⟨⟨(i 0).val, by omega⟩, rfl⟩
  obtain ⟨-, -, -, -, -, -, -, ⟨e0, e1, e2⟩⟩ := idx_facts2_b t
  refine ⟨t, flush2_15 t, ?_⟩
  show i ∈ ((View.whole main_v11_3).slice (win2_15.rect t)).set
  rw [View.set_slice_whole, Rect.mem_set_unit]
  intro a
  match a with
  | ⟨0, _⟩ => show win2_15.index t (0 : Fin 3) * 1 ≤ (i 0).val ∧ (i 0).val < win2_15.index t (0 : Fin 3) * 1 + 1; omega
  | ⟨1, _⟩ => show win2_15.index t (1 : Fin 3) * 512 ≤ (i 1).val ∧ (i 1).val < win2_15.index t (1 : Fin 3) * 512 + 512; omega
  | ⟨2, _⟩ => show win2_15.index t (2 : Fin 3) * 128 ≤ (i 2).val ∧ (i 2).val < win2_15.index t (2 : Fin 3) * 128 + 128; omega

/-- @main ends with the third result in its array. -/
theorem y2_arr (c : Dev nD) (ht1 : W3 (F := Ideal) m ρ c (Proc.devRef .tc main_v7) = fun i => Cert.Spec.t1At (m ((c : Thread nD τ).loc main_arg1)) (m ((c : Thread nD τ).loc main_arg3)) (i 0) (i 1) (i 2))
    (ht3 : W3 (F := Ideal) m ρ c (Proc.devRef .tc main_v8_0) = fun i => Cert.Spec.t3At (m ((c : Thread nD τ).loc main_arg2)) (m ((c : Thread nD τ).loc main_arg4)) (i 0) (i 1) (i 2)) :
    W5 (F := Ideal) m ρ c (Proc.devRef .tc main_v11_2) = Cert.Spec.Y2 (m ((c : Thread nD τ).loc main_arg3)) (m ((c : Thread nD τ).loc main_arg9)) (m ((c : Thread nD τ).loc main_arg10)) :=
  (W5_arr m ρ c 14).trans ((dat2 (V4 m ρ) c).arrAt_eq_of_cover 14 (Y2A m c) (fun t _ => flushed14_eq m ρ c t) cover14)

/-- @main ends with the fourth result in its array. -/
theorem y3_arr (c : Dev nD) (ht1 : W3 (F := Ideal) m ρ c (Proc.devRef .tc main_v7) = fun i => Cert.Spec.t1At (m ((c : Thread nD τ).loc main_arg1)) (m ((c : Thread nD τ).loc main_arg3)) (i 0) (i 1) (i 2))
    (ht3 : W3 (F := Ideal) m ρ c (Proc.devRef .tc main_v8_0) = fun i => Cert.Spec.t3At (m ((c : Thread nD τ).loc main_arg2)) (m ((c : Thread nD τ).loc main_arg4)) (i 0) (i 1) (i 2)) :
    W5 (F := Ideal) m ρ c (Proc.devRef .tc main_v11_3) = Cert.Spec.Y3 (m ((c : Thread nD τ).loc main_arg2)) (m ((c : Thread nD τ).loc main_arg4)) (m ((c : Thread nD τ).loc main_arg11)) (m ((c : Thread nD τ).loc main_arg12)) :=
  (W5_arr m ρ c 15).trans ((dat2 (V4 m ρ) c).arrAt_eq_of_cover 15 (Y3A m c) (fun t _ => flushed15_eq m ρ c ht3 t) cover15)

end Cert.KernelIdeal.KVal

end
-- ==== Proof.KIn1.lean ====
/-
  What the second call finds in the arrays it reads.

  The second call reads DiA, L, v and W5 as launched (nothing before it writes them), f re-laid by the host as 4096
  rows of 32 numbers, and b5 re-laid by the host as one row.
-/
import proofs.«144741_g58523224375715_cont_9to1c4b_685_3_alg».proof.Proof.FrameFold
import Idealize.ShloMosaic.Lib.StableHlo.Run
import Idealize.ShloMosaic.Lib.ValueIdx
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The second call finds argument 0 as launched: neither the host re-layouts nor the first call write it. -/
theorem V2_arg0 (c : Dev nD) : V2 m ρ c main_arg0 = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

/-- The second call finds argument 2 as launched: neither the host re-layouts nor the first call write it. -/
theorem V2_arg2 (c : Dev nD) : V2 m ρ c main_arg2 = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

/-- The second call finds argument 3 as launched: neither the host re-layouts nor the first call write it. -/
theorem V2_arg3 (c : Dev nD) : V2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

/-- The second call finds argument 13 as launched: neither the host re-layouts nor the first call write it. -/
theorem V2_arg13 (c : Dev nD) : V2 m ρ c main_arg13 = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg13) := rfl

/-- The second call finds f re-laid as 4096 rows of 32 numbers. -/
theorem V2_v1 (c : Dev nD) :
    V2 m ρ c main_v1 = shapeCast _ (m ((c : Thread nD τ).loc main_arg4)) shapeCasts_S2x1024x128_S2x4096x32 :=
  calc W2 m ρ c (Proc.devRef .tc main_v1)
    _ = W1 m ρ c (Proc.devRef .tc main_v1) := W2_of_ne m ρ c main_v1 (by decide)
    _ = shapeCast _ (m ((c : Thread nD τ).loc main_arg4)) shapeCasts_S2x1024x128_S2x4096x32 := by
      show StableHlo.after hostOps0 (W0 m ρ c) (Proc.devRef .tc main_v1) = _
      after_results
      rfl

/-- The second call finds b5 re-laid as one row. -/
theorem V2_v6 (c : Dev nD) :
    V2 m ρ c main_v6 = shapeCast _ (m ((c : Thread nD τ).loc main_arg14)) shapeCasts_S128_S1x128 :=
  calc W2 m ρ c (Proc.devRef .tc main_v6)
    _ = W1 m ρ c (Proc.devRef .tc main_v6) := W2_of_ne m ρ c main_v6 (by decide)
    _ = shapeCast _ (m ((c : Thread nD τ).loc main_arg14)) shapeCasts_S128_S1x128 := by
      show StableHlo.after hostOps0 (W0 m ρ c) (Proc.devRef .tc main_v6) = _
      after_results
      rfl

end Cert.KernelIdeal.KVal

end
-- ==== Proof.KT3.lean ====
/-
  The fourth result's operator product, as a whole array: what the second call leaves in its first output array is
  DiA applied to the re-laid f, entry by entry.

  The call's grid is (batch, block of 512 rows): point t is block t % 4 of batch t / 4.  At point t the body stores
  the product of rows 512 (t % 4) … of DiA's batch t / 4 with the whole re-laid f of that batch; the eight blocks tile
  the array.
-/
import proofs.«144741_g58523224375715_cont_9to1c4b_685_3_alg».proof.Proof.KIn1
import proofs.«144741_g58523224375715_cont_9to1c4b_685_3_alg».proof.Proof.PayAt
import proofs.«144741_g58523224375715_cont_9to1c4b_685_3_alg».proof.Proof.LibRelay
import proofs.«144741_g58523224375715_cont_9to1c4b_685_3_alg».proof.Proof.Spec
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3c1 : (![0, 0, 0] : Fin 3 → Nat) = fun _ => 0 := funext fun a => by fin_cases a <;> rfl

/-- Where the blocks of DiA, of the re-laid f and of the result lie, over the grid. -/
theorem idx_facts1_t3 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_6.index t (0 : Fin 3) = t.val / 4 ∧ win1_6.index t (1 : Fin 3) = t.val % 4 ∧ win1_6.index t (2 : Fin 3) = 0 :=
  (by decide +kernel : ∀ t : Fin grid1.N, _)

section Blocks

variable {F : FTy → Type} [FloatOps F]
variable (V : (c : Dev nD) → (b : Ref sig .tc) → Buf (Elt F) ((c : Thread nD τ).loc b))

/-- The block of DiA at point t is rows 512 (t % 4) … of batch t / 4. -/
theorem iblk1_0_apply (c : Dev nD) (t : Fin cfg1.N) (y : S1x512x4096.Idx) (k : S2x2048x4096.Idx)
    (h0 : (k 0).val = t.val / 4) (h1 : (k 1).val = 512 * (t.val % 4) + (y 1).val) (h2 : (k 2).val = (y 2).val) :
    (iblk1 V c 0 t : Vec F S1x512x4096 .f32) y = (V c main_arg2 : S2x2048x4096.Idx → Elt F .f32) k := by
  obtain ⟨e0, e1, e2, -⟩ := idx_facts1_t3 t
  have hy : (y 0).val < 1 := (y 0).isLt
  unfold iblk1
  rw [View.read_apply]
  show V c main_arg2 _ = V c main_arg2 _
  congr 1
  funext a
  apply Fin.ext
  match a with
  | ⟨0, _⟩ => show win1_0.index t (0 : Fin 3) * 1 + 1 * (y 0).val = (k 0).val; omega
  | ⟨1, _⟩ => show win1_0.index t (1 : Fin 3) * 512 + 1 * (y 1).val = (k 1).val; omega
  | ⟨2, _⟩ => show win1_0.index t (2 : Fin 3) * 4096 + 1 * (y 2).val = (k 2).val; omega

/-- The block of the re-laid f at point t is the whole batch t / 4. -/
theorem iblk1_1_apply (c : Dev nD) (t : Fin cfg1.N) (y : S1x4096x32.Idx) (k : S2x4096x32.Idx)
    (h0 : (k 0).val = t.val / 4) (h1 : (k 1).val = (y 1).val) (h2 : (k 2).val = (y 2).val) :
    (iblk1 V c 1 t : Vec F S1x4096x32 .f32) y = (V c main_v1 : S2x4096x32.Idx → Elt F .f32) k := by
  obtain ⟨-, -, -, e0, e1, e2, -⟩ := idx_facts1_t3 t
  have hy : (y 0).val < 1 := (y 0).isLt
  unfold iblk1
  rw [View.read_apply]
  show V c main_v1 _ = V c main_v1 _
  congr 1
  funext a
  apply Fin.ext
  match a with
  | ⟨0, _⟩ => show win1_1.index t (0 : Fin 3) * 1 + 1 * (y 0).val = (k 0).val; omega
  | ⟨1, _⟩ => show win1_1.index t (1 : Fin 3) * 4096 + 1 * (y 1).val = (k 1).val; omega
  | ⟨2, _⟩ => show win1_1.index t (2 : Fin 3) * 32 + 1 * (y 2).val = (k 2).val; omega

end Blocks

/-- The body's product at a point: if the loaded blocks are rows 512 b … of DiA's batch n and the re-laid f of batch
    n, the stored block is rows 512 b … of DiA applied to the re-laid f. -/
theorem t3_point (x0 : Vec Ideal S1x512x4096 .f32) (x1 : Vec Ideal S1x4096x32 .f32)
    (DiA : Spec.A3 2 2048 4096) (f : Spec.A3 2 1024 128) (n : Fin 2) (b : Fin 4)
    (h0 : ∀ (p : Fin 512) (j : Fin 4096), x0 (ix3 (0 : Fin 1) p j) = DiA (ix3 n (⟨512 * b.val + p.val, by omega⟩ : Fin 2048) j))
    (h1 : ∀ (j : Fin 4096) (q : Fin 32),
      x1 (ix3 (0 : Fin 1) j q) = f (ix3 n (⟨j.val / 4, by omega⟩ : Fin 1024) (⟨(j.val % 4) * 32 + q.val, by omega⟩ : Fin 128)))
    (y : S1x512x32.Idx) (i : S2x2048x32.Idx)
    (hi0 : (i 0).val = n.val) (hi1 : (i 1).val = 512 * b.val + (y 1).val) (hi2 : (i 2).val = (y 2).val) :
    k1_pay2 (F := Ideal) x0 x1 y = Cert.Spec.t3At DiA f (i 0) (i 1) (i 2) := by
  obtain ⟨p, q, rfl⟩ : ∃ (p : Fin 512) (q : Fin 32), y = ix3 (0 : Fin 1) p q := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  have e0 : i 0 = n := Fin.ext hi0
  have e1 : i 1 = (⟨512 * b.val + p.val, by omega⟩ : Fin 2048) := Fin.ext hi1
  have e2 : i 2 = q := Fin.ext hi2
  rw [PayAt.k1_pay2_apply, e0, e1, e2]
  unfold Cert.Spec.t3At
  exact Finset.sum_congr rfl fun j _ => by rw [h0, h1]

end Cert.KernelIdeal.KVal

end
-- ==== Proof.KT3Arr.lean ====
/-
  The second call's first output array, whole: DiA applied to the re-laid f.

  What each point writes back is its block of that array (the body's product at the point, with the blocks it loaded
  read off the launch memory); the eight blocks cover the array, so after the call the array holds it entry by entry.
-/
import proofs.«144741_g58523224375715_cont_9to1c4b_685_3_alg».proof.Proof.KT3

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- DiA applied to the re-laid f, as the array the call writes. -/
def T3 (c : Dev nD) : Buf (Elt Ideal) ((c : Thread nD τ).loc main_v8_0) :=
  fun i => Cert.Spec.t3At (m ((c : Thread nD τ).loc main_arg2)) (m ((c : Thread nD τ).loc main_arg4)) (i 0) (i 1) (i 2)

/-- The re-laid f at (n, j, q) is f at (n, j / 4, (j % 4) * 32 + q). -/
theorem relaid_f_apply (f : Cert.Spec.A3 2 1024 128) (n : Fin 2) (j : Fin 4096) (q : Fin 32) :
    shapeCast S2x4096x32 f shapeCasts_S2x1024x128_S2x4096x32 (ix3 n j q)
      = f (ix3 n (⟨j.val / 4, by omega⟩ : Fin 1024) (⟨(j.val % 4) * 32 + q.val, by omega⟩ : Fin 128)) :=
  Relay.shapeCast_split4x32_apply (m := 2) (a := 1024) (A := 4096) rfl f shapeCasts_S2x1024x128_S2x4096x32 n j q

/-- What point t writes back is block t of that array. -/
theorem flushed6_eq (c : Dev nD) (t : Fin cfg1.N) :
    (dat1 (V2 m ρ) c).flushed 6 t = ((cfg1.win 6).blk t).view.read (Elt Ideal) (T3 m c) := by
  show (cfg1.win 6).cut (grid1.coords t) ((dat1 (V2 m ρ) c).after 6 t) = _
  rw [after1_6]
  unfold out1_6
  rw [View.canon_unit_zero hz3c1]
  simp only [View.ld_unit_zero (S := S1x512x4096) hz3c1, View.ld_unit_zero (S := S1x4096x32) hz3c1]
  obtain ⟨-, -, -, -, -, -, e0, e1, e2⟩ := idx_facts1_t3 t
  have hN : t.val < 8 := lt_of_lt_of_eq t.isLt N_1
  funext y
  show k1_pay2 (F := Ideal) (iblk1 (V2 m ρ) c 0 t) (iblk1 (V2 m ρ) c 1 t) y = T3 m c (((cfg1.win 6).blk t).view.emb y)
  refine t3_point _ _ (m ((c : Thread nD τ).loc main_arg2)) (m ((c : Thread nD τ).loc main_arg4)) (⟨t.val / 4, by omega⟩ : Fin 2) (⟨t.val % 4, by omega⟩ : Fin 4)
    (fun p j => ?_) (fun j q => ?_) y _ ?_ ?_ ?_
  · refine (iblk1_0_apply (V2 m ρ) c t _ (ix3 (⟨t.val / 4, by omega⟩ : Fin 2) (⟨512 * (t.val % 4) + p.val, by omega⟩ : Fin 2048) j) rfl rfl rfl).trans ?_
    rw [V2_arg2]
  · refine (iblk1_1_apply (V2 m ρ) c t _ (ix3 (⟨t.val / 4, by omega⟩ : Fin 2) j q) rfl rfl rfl).trans ?_
    rw [V2_v1]
    exact relaid_f_apply _ _ j q
  · show win1_6.index t (0 : Fin 3) * 1 + 1 * (y 0).val = t.val / 4
    have : (y 0).val < 1 := (y 0).isLt
    omega
  · show win1_6.index t (1 : Fin 3) * 512 + 1 * (y 1).val = 512 * (t.val % 4) + (y 1).val
    omega
  · show win1_6.index t (2 : Fin 3) * 32 + 1 * (y 2).val = (y 2).val
    omega

/-- Every entry of the array is in some point's block: row r of batch n in that of point 4 n + r / 512. -/
theorem cover6 (i : S2x2048x32.Idx) :
    ∃ t : Fin cfg1.N, (cfg1.win 6).flush t = true ∧ i ∈ ((cfg1.win 6).blk t).view.set := by
  have h0 : (i 0).val < 2 := (i 0).isLt
  have h1 : (i 1).val < 2048 := (i 1).isLt
  have h2 : (i 2).val < 32 := (i 2).isLt
  have hN : cfg1.N = 8 := N_1
  obtain ⟨t, ht⟩ : ∃ t : Fin cfg1.N, t.val = (i 0).val * 4 + (i 1).val / 512 := ⟨⟨(i 0).val * 4 + (i 1).val / 512, by omega⟩, rfl⟩
  obtain ⟨-, -, -, -, -, -, e0, e1, e2⟩ := idx_facts1_t3 t
  refine ⟨t, flush1_6 t, ?_⟩
  show i ∈ ((View.whole main_v8_0).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 32 ≤ (i 2).val ∧ (i 2).val < win1_6.index t (2 : Fin 3) * 32 + 32; omega

/-- After the second call its first output array holds DiA applied to the re-laid f. -/
theorem t3_whole (c : Dev nD) :
    W3 (F := Ideal) m ρ c (Proc.devRef .tc main_v8_0)
      = fun i => Cert.Spec.t3At (m ((c : Thread nD τ).loc main_arg2)) (m ((c : Thread nD τ).loc main_arg4)) (i 0) (i 1) (i 2) :=
  (W3_arr m ρ c 6).trans ((dat1 (V2 m ρ) c).arrAt_eq_of_cover 6 (T3 m c) (fun t _ => flushed6_eq m ρ c t) cover6)

end Cert.KernelIdeal.KVal

end
-- ==== Proof.KY4.lean ====
/-
  The fifth result at a grid point of the second call.

  The call's grid is (batch, block): point t is block t % 4 of batch t / 4.  The body multiplies rows 128 (t % 4) … of
  L's batch t / 4 with the scratch, which holds the layer W5's image (without the bias) of the rows of v's batch t / 4
  as the batch's first point built it, and adds the bias row.
-/
import proofs.«144741_g58523224375715_cont_9to1c4b_685_3_alg».proof.Proof.KIn1
import proofs.«144741_g58523224375715_cont_9to1c4b_685_3_alg».proof.Proof.PayAt
import proofs.«144741_g58523224375715_cont_9to1c4b_685_3_alg».proof.Proof.Spec
import Idealize.ShloMosaic.Lib.Pipeline.Value
import Idealize.ShloMosaic.Lib.ValueLayout

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3' : (![0, 0, 0] : Fin 3 → Nat) = fun _ => 0 := funext fun a => by fin_cases a <;> rfl
theorem hz2' : (![0, 0] : Fin 2 → Nat) = fun _ => 0 := funext fun a => by fin_cases a <;> rfl

/-- Where the blocks of L, v, W5, the bias row and the result lie, over the grid. -/
theorem idx_facts1_y4 : ∀ t : Fin cfg1.N,
    (win1_2.index t (0 : Fin 3) = t.val / 4 ∧ win1_2.index t (1 : Fin 3) = t.val % 4 ∧ win1_2.index t (2 : Fin 3) = 0)
    ∧ (win1_3.index t (0 : Fin 3) = t.val / 4 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_7.index t (0 : Fin 3) = t.val / 4 ∧ win1_7.index t (1 : Fin 3) = t.val % 4 ∧ win1_7.index t (2 : Fin 3) = 0) :=
  (by decide +kernel : ∀ t : Fin grid1.N, _)

section Blocks

variable {F : FTy → Type} [FloatOps F]
variable (V : (c : Dev nD) → (b : Ref sig .tc) → Buf (Elt F) ((c : Thread nD τ).loc b))

/-- The block of L at point t is rows 128 (t % 4) … of batch t / 4. -/
theorem iblk1_2_apply (c : Dev nD) (t : Fin cfg1.N) (y : S1x128x512.Idx) (k : S2x512x512.Idx)
    (h0 : (k 0).val = t.val / 4) (h1 : (k 1).val = 128 * (t.val % 4) + (y 1).val) (h2 : (k 2).val = (y 2).val) :
    (iblk1 V c 2 t : Vec F S1x128x512 .f32) y = (V c main_arg0 : S2x512x512.Idx → Elt F .f32) k := by
  obtain ⟨⟨e0, e1, e2⟩, -⟩ := idx_facts1_y4 t
  have hy : (y 0).val < 1 := (y 0).isLt
  unfold iblk1
  rw [View.read_apply]
  show V c main_arg0 _ = V c main_arg0 _
  congr 1
  funext a
  apply Fin.ext
  match a with
  | ⟨0, _⟩ => show win1_2.index t (0 : Fin 3) * 1 + 1 * (y 0).val = (k 0).val; omega
  | ⟨1, _⟩ => show win1_2.index t (1 : Fin 3) * 128 + 1 * (y 1).val = (k 1).val; omega
  | ⟨2, _⟩ => show win1_2.index t (2 : Fin 3) * 512 + 1 * (y 2).val = (k 2).val; omega

/-- The block of v at point t is the whole batch t / 4. -/
theorem iblk1_3_apply (c : Dev nD) (t : Fin cfg1.N) (y : S1x512x128.Idx) (k : S2x512x128.Idx)
    (h0 : (k 0).val = t.val / 4) (h1 : (k 1).val = (y 1).val) (h2 : (k 2).val = (y 2).val) :
    (iblk1 V c 3 t : Vec F S1x512x128 .f32) y = (V c main_arg3 : S2x512x128.Idx → Elt F .f32) k := by
  obtain ⟨-, ⟨e0, e1, e2⟩, -⟩ := idx_facts1_y4 t
  have hy : (y 0).val < 1 := (y 0).isLt
  unfold iblk1
  rw [View.read_apply]
  show V c main_arg3 _ = V c main_arg3 _
  congr 1
  funext a
  apply Fin.ext
  match a with
  | ⟨0, _⟩ => show win1_3.index t (0 : Fin 3) * 1 + 1 * (y 0).val = (k 0).val; omega
  | ⟨1, _⟩ => show win1_3.index t (1 : Fin 3) * 512 + 1 * (y 1).val = (k 1).val; omega
  | ⟨2, _⟩ => show win1_3.index t (2 : Fin 3) * 128 + 1 * (y 2).val = (k 2).val; omega

/-- The block of W5 at any point is the whole matrix. -/
theorem iblk1_4_apply (c : Dev nD) (t : Fin cfg1.N) (y : S128x128.Idx) :
    (iblk1 V c 4 t : Vec F S128x128 .f32) y = (V c main_arg13 : S128x128.Idx → Elt F .f32) y := by
  obtain ⟨-, -, ⟨e0, e1⟩, -⟩ := idx_facts1_y4 t
  unfold iblk1
  rw [View.read_apply]
  show V c main_arg13 _ = V c main_arg13 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The block of the bias row at any point is the whole row. -/
theorem iblk1_5_apply (c : Dev nD) (t : Fin cfg1.N) (y : S1x128.Idx) :
    (iblk1 V c 5 t : Vec F S1x128 .f32) y = (V c main_v6 : S1x128.Idx → Elt F .f32) y := by
  obtain ⟨-, -, -, ⟨e0, e1⟩, -⟩ := idx_facts1_y4 t
  unfold iblk1
  rw [View.read_apply]
  show V c main_v6 _ = V c main_v6 _
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

end Blocks

/-- The body's result at a point: if the loaded blocks are rows 128 b … of L's batch n, the rows of v's batch n (as
    the batch's first point loaded them), W5 and the bias row, the stored block is rows 128 b … of the fifth result. -/
theorem y4_point (x2 : Vec Ideal S1x128x512 .f32) (x3 : Vec Ideal S1x512x128 .f32) (x4 : Vec Ideal S128x128 .f32)
    (x5 : Vec Ideal S1x128 .f32) (L : Spec.A3 2 512 512) (v : Spec.A3 2 512 128) (W : Spec.Mat) (b : Spec.Bias)
    (n : Fin 2) (bk : Fin 4)
    (h2 : ∀ (r : Fin 128) (j : Fin 512), x2 (ix3 (0 : Fin 1) r j) = L (ix3 n (⟨128 * bk.val + r.val, by omega⟩ : Fin 512) j))
    (h3 : ∀ (j : Fin 512) (k : Fin 128), x3 (ix3 (0 : Fin 1) j k) = v (ix3 n j k))
    (h4 : ∀ (o k : Fin 128), x4 (ix2 o k) = W (ix2 o k))
    (h5 : ∀ o : Fin 128, x5 (ix2 (0 : Fin 1) o) = b (ix1 o))
    (y : S1x128x128.Idx) (i : S2x512x128.Idx)
    (hi0 : (i 0).val = n.val) (hi1 : (i 1).val = 128 * bk.val + (y 1).val) (hi2 : (i 2).val = (y 2).val) :
    out1_7 (F := Ideal) x2 (scr1 (F := Ideal) x3 x4) x5 y = Cert.Spec.y4At L v W b (i 0) (i 1) (i 2) := by
  obtain ⟨r, o, rfl⟩ : ∃ (r : Fin 128) (o : Fin 128), y = ix3 (0 : Fin 1) r o := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  have e0 : i 0 = n := Fin.ext hi0
  have e1 : i 1 = (⟨128 * bk.val + r.val, by omega⟩ : Fin 512) := Fin.ext hi1
  have e2 : i 2 = o := Fin.ext hi2
  unfold out1_7 scr1
  rw [View.canon_unit_zero hz3', View.canon_unit_zero hz2']
  simp only [View.ld_unit_zero (S := S1x128x512) hz3', View.ld_unit_zero (S := S1x512x128) hz3',
    View.ld_unit_zero (S := S128x128) hz2', View.ld_unit_zero (S := S1x128) hz2', View.ld_unit_zero (S := S512x128) hz2']
  rw [PayAt.k1_pay3_apply, e0, e1, e2]
  unfold Cert.Spec.y4At
  rw [h5]
  congr 1
  refine Finset.sum_congr rfl fun j _ => ?_
  rw [h2, PayAt.k1_pay1_apply]
  congr 1
  exact Finset.sum_congr rfl fun k _ => by rw [h3, h4]

end Cert.KernelIdeal.KVal

end
-- ==== Proof.KY4Arr.lean ====
/-
  The second call's second output array, whole: the fifth result.

  What each point writes back is its block of the fifth result (the body's result at the point, with the blocks it and
  its batch's first point loaded read off the launch memory); the eight blocks cover the array, so after the call the
  array holds the fifth result entry by entry.
-/
import proofs.«144741_g58523224375715_cont_9to1c4b_685_3_alg».proof.Proof.KY4

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The fifth result, as the array the call writes. -/
def Y4A (c : Dev nD) : Buf (Elt Ideal) ((c : Thread nD τ).loc main_v8_1) :=
  Cert.Spec.Y4 (m ((c : Thread nD τ).loc main_arg0)) (m ((c : Thread nD τ).loc main_arg3)) (m ((c : Thread nD τ).loc main_arg13)) (m ((c : Thread nD τ).loc main_arg14))

/-- The bias re-laid as one row, at (0, o), is the bias at o. -/
theorem bias_row_apply (b : Cert.Spec.Bias) (o : Fin 128) :
    shapeCast S1x128 b shapeCasts_S128_S1x128 (ix2 (0 : Fin 1) o) = b (ix1 o) :=
  shapeCast_a_1a_apply b shapeCasts_S128_S1x128 (0 : Fin 1) o

/-- What point t writes back is block t of the fifth result. -/
theorem flushed7_eq (c : Dev nD) (t : Fin cfg1.N) :
    (dat1 (V2 m ρ) c).flushed 7 t = ((cfg1.win 7).blk t).view.read (Elt Ideal) (Y4A m c) := by
  show (cfg1.win 7).cut (grid1.coords t) ((dat1 (V2 m ρ) c).after 7 t) = _
  rw [after1_7]
  unfold sAt1
  obtain ⟨-, -, -, -, ⟨e0, e1, e2⟩⟩ := idx_facts1_y4 t
  have hN : t.val < 8 := lt_of_lt_of_eq t.isLt N_1
  funext y
  show out1_7 (F := Ideal) (iblk1 (V2 m ρ) c 2 t) (scr1 (F := Ideal) (iblk1 (V2 m ρ) c 3 (base1 t)) (iblk1 (V2 m ρ) c 4 (base1 t)))
      (iblk1 (V2 m ρ) c 5 t) y
    = Cert.Spec.y4At (m ((c : Thread nD τ).loc main_arg0)) (m ((c : Thread nD τ).loc main_arg3)) (m ((c : Thread nD τ).loc main_arg13)) (m ((c : Thread nD τ).loc main_arg14))
        ((((cfg1.win 7).blk t).view.emb y) 0) ((((cfg1.win 7).blk t).view.emb y) 1) ((((cfg1.win 7).blk t).view.emb y) 2)
  refine y4_point _ _ _ _ (m ((c : Thread nD τ).loc main_arg0)) (m ((c : Thread nD τ).loc main_arg3)) (m ((c : Thread nD τ).loc main_arg13)) (m ((c : Thread nD τ).loc main_arg14)) (⟨t.val / 4, by omega⟩ : Fin 2) (⟨t.val % 4, by omega⟩ : Fin 4)
    (fun r j => ?_) (fun j k => ?_) (fun o k => ?_) (fun o => ?_) y _ ?_ ?_ ?_
  · refine (iblk1_2_apply (V2 m ρ) c t _ (ix3 (⟨t.val / 4, by omega⟩ : Fin 2) (⟨128 * (t.val % 4) + r.val, by omega⟩ : Fin 512) j) rfl rfl rfl).trans ?_
    rw [V2_arg0]
  · refine (iblk1_3_apply (V2 m ρ) c (base1 t) _ (ix3 (⟨t.val / 4, by omega⟩ : Fin 2) j k)
      (by show t.val / 4 = 4 * (t.val / 4) / 4; omega) rfl rfl).trans ?_
    rw [V2_arg3]
  · refine (iblk1_4_apply (V2 m ρ) c (base1 t) _).trans ?_
    rw [V2_arg13]
  · refine (iblk1_5_apply (V2 m ρ) c t _).trans ?_
    rw [V2_v6]
    exact bias_row_apply _ o
  · show win1_7.index t (0 : Fin 3) * 1 + 1 * (y 0).val = t.val / 4
    have : (y 0).val < 1 := (y 0).isLt
    omega
  · show win1_7.index t (1 : Fin 3) * 128 + 1 * (y 1).val = 128 * (t.val % 4) + (y 1).val
    omega
  · show win1_7.index t (2 : Fin 3) * 128 + 1 * (y 2).val = (y 2).val
    omega

/-- Every entry of the array is in some point's block: row r of batch n in that of point 4 n + r / 128. -/
theorem cover7 (i : S2x512x128.Idx) :
    ∃ t : Fin cfg1.N, (cfg1.win 7).flush t = true ∧ i ∈ ((cfg1.win 7).blk t).view.set := by
  have h0 : (i 0).val < 2 := (i 0).isLt
  have h1 : (i 1).val < 512 := (i 1).isLt
  have h2 : (i 2).val < 128 := (i 2).isLt
  have hN : cfg1.N = 8 := N_1
  obtain ⟨t, ht⟩ : ∃ t : Fin cfg1.N, t.val = (i 0).val * 4 + (i 1).val / 128 := ⟨⟨(i 0).val * 4 + (i 1).val / 128, by omega⟩, rfl⟩
  obtain ⟨-, -, -, -, ⟨e0, e1, e2⟩⟩ := idx_facts1_y4 t
  refine ⟨t, flush1_7 t, ?_⟩
  show i ∈ ((View.whole main_v8_1).slice (win1_7.rect t)).set
  rw [View.set_slice_whole, Rect.mem_set_unit]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 128 ≤ (i 1).val ∧ (i 1).val < win1_7.index t (1 : Fin 3) * 128 + 128; omega
  | ⟨2, _⟩ => show win1_7.index t (2 : Fin 3) * 128 ≤ (i 2).val ∧ (i 2).val < win1_7.index t (2 : Fin 3) * 128 + 128; omega

/-- After the second call its second output array holds the fifth result. -/
theorem y4_whole (c : Dev nD) :
    W3 (F := Ideal) m ρ c (Proc.devRef .tc main_v8_1) = Cert.Spec.Y4 (m ((c : Thread nD τ).loc main_arg0)) (m ((c : Thread nD τ).loc main_arg3)) (m ((c : Thread nD τ).loc main_arg13)) (m ((c : Thread nD τ).loc main_arg14)) :=
  (W3_arr m ρ c 7).trans ((dat1 (V2 m ρ) c).arrAt_eq_of_cover 7 (Y4A m c) (fun t _ => flushed7_eq m ρ c t) cover7)

end Cert.KernelIdeal.KVal

end
-- ==== Proof.KEnd.lean ====
/-
  The fifth result is not touched after the second call.

  The second stretch of host re-layouts writes two other buffers, and the third call neither reads nor writes the
  fifth result's array, so @main ends with it as the second call left it.
-/
import proofs.«144741_g58523224375715_cont_9to1c4b_685_3_alg».proof.Proof.FrameFold
import Idealize.ShloMosaic.Lib.StableHlo.Run
import Idealize.ShloMosaic.Lib.ValueIdx

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- @main ends with the fifth result's array as the second call left it. -/
theorem y4_kept (c : Dev nD) : W5 m ρ c (Proc.devRef .tc main_v8_1) = W3 m ρ c (Proc.devRef .tc main_v8_1) :=
  calc W5 m ρ c (Proc.devRef .tc main_v8_1)
    _ = W4 m ρ c (Proc.devRef .tc main_v8_1) := W5_of_ne m ρ c main_v8_1 (by decide)
    _ = W3 m ρ c (Proc.devRef .tc main_v8_1) := StableHlo.after_of_forall_not_mem (b := Proc.devRef .tc main_v8_1) _ _ (List.forall_iff_forall_mem.mp (by
          simp only [hostOps2, List.Forall, StableHlo.reshape_writes, Finset.mem_singleton]
          repeat' apply And.intro
          all_goals exact StableHlo.devRef_ne_of_ne (by decide)))

end Cert.KernelIdeal.KVal

end
-- ==== Proof.KVal1.lean ====
/-
  The second call, read as whole arrays.

  After the second call its first output array holds DiA applied to the re-laid f and its second the fifth result,
  both as functions of the launch memory; and @main ends with the fifth result's array as the second call left it.
-/
import proofs.«144741_g58523224375715_cont_9to1c4b_685_3_alg».proof.Proof.KT3Arr
import proofs.«144741_g58523224375715_cont_9to1c4b_685_3_alg».proof.Proof.KY4Arr
import proofs.«144741_g58523224375715_cont_9to1c4b_685_3_alg».proof.Proof.KEnd

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- After the second call its first output array holds DiA applied to the re-laid f. -/
theorem t3_arr (c : Dev nD) :
    W3 (F := Ideal) m ρ c (Proc.devRef .tc main_v8_0)
      = fun i => Cert.Spec.t3At (m ((c : Thread nD τ).loc main_arg2)) (m ((c : Thread nD τ).loc main_arg4)) (i 0) (i 1) (i 2) :=
  t3_whole m ρ c

/-- After the second call its second output array holds the fifth result. -/
theorem y4_arr (c : Dev nD) :
    W3 (F := Ideal) m ρ c (Proc.devRef .tc main_v8_1) = Cert.Spec.Y4 (m ((c : Thread nD τ).loc main_arg0)) (m ((c : Thread nD τ).loc main_arg3)) (m ((c : Thread nD τ).loc main_arg13)) (m ((c : Thread nD τ).loc main_arg14)) :=
  y4_whole m ρ c

/-- @main ends with the fifth result's array as the second call left it. -/
theorem y4_end (c : Dev nD) :
    W5 (F := Ideal) m ρ c (Proc.devRef .tc main_v8_1) = W3 m ρ c (Proc.devRef .tc main_v8_1) :=
  y4_kept m ρ c

end Cert.KernelIdeal.KVal

end
-- ==== Proof.lean ====
/-
  The kernel computes five dense layers y = x · Wᵀ + b in three calls:  t1 = Di · (v re-laid as rows of 32) and
  t3 = DiA · (f re-laid as rows of 32) block of rows by block of rows, then — after re-laying t1 and t3 as rows of 128 —
  y0 … y3 on f, t1, v, t3; and y4 = L · (v · W5ᵀ) + b5, with v · W5ᵀ built once per batch and kept in a scratch buffer.
  The reference computes the same layers on f, Di · v, v, DiA · f and L · v.

  Over the extended reals a change of float format is the identity and a sum may be taken in any order, so y0 … y3
  agree entry by entry whatever the inputs.  The fifth result differs in association: the kernel forms
  Σ j, L (r, j) * (Σ k, v (j, k) * W5 (o, k)) where the reference forms Σ k, (Σ j, L (r, j) * v (j, k)) * W5 (o, k).
  Moving a factor across a finite sum and exchanging two finite sums is valid for real numbers, not at infinities:
  this is where the precondition, that every input entry is a real number, is used (for L, v and W5).

  The frames: each program runs to the end, faults nowhere, and leaves its argument arrays as launched.  For the two
  kernel programs this is read off one run of @main's five items (two stretches of host re-layouts, three calls) that
  ends with every unscoped buffer at a fold of the launch memory; no item writes an argument.  The results are read off
  the same run at the idealized program.
-/
import proofs.«144741_g58523224375715_cont_9to1c4b_685_3_alg».proof.Defs
import proofs.«144741_g58523224375715_cont_9to1c4b_685_3_alg».proof.Proof.Gen.Kernel
import proofs.«144741_g58523224375715_cont_9to1c4b_685_3_alg».proof.Proof.Gen.KernelIdeal
import proofs.«144741_g58523224375715_cont_9to1c4b_685_3_alg».proof.Proof.Gen.ReferenceIdeal
import proofs.«144741_g58523224375715_cont_9to1c4b_685_3_alg».proof.Proof.Gen.ReferenceIdeal.Run
import proofs.«144741_g58523224375715_cont_9to1c4b_685_3_alg».proof.Proof.Gen.ReferenceIdeal.Read
import proofs.«144741_g58523224375715_cont_9to1c4b_685_3_alg».proof.Proof.Gen.Pre_finite_inputs
import proofs.«144741_g58523224375715_cont_9to1c4b_685_3_alg».proof.Proof.FrameRun
import proofs.«144741_g58523224375715_cont_9to1c4b_685_3_alg».proof.Proof.FrameArgs
import proofs.«144741_g58523224375715_cont_9to1c4b_685_3_alg».proof.Proof.WFrameRun
import proofs.«144741_g58523224375715_cont_9to1c4b_685_3_alg».proof.Proof.WFrameArgs
import proofs.«144741_g58523224375715_cont_9to1c4b_685_3_alg».proof.Proof.RefSide
import proofs.«144741_g58523224375715_cont_9to1c4b_685_3_alg».proof.Proof.RefPre
import proofs.«144741_g58523224375715_cont_9to1c4b_685_3_alg».proof.Proof.KVal02
import proofs.«144741_g58523224375715_cont_9to1c4b_685_3_alg».proof.Proof.KVal2b
import proofs.«144741_g58523224375715_cont_9to1c4b_685_3_alg».proof.Proof.KVal1
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => (θ_run (Cert.Kernel.defs (F := Bits)) _ _).mono (fun r h c =>
    ⟨(h c Cert.Kernel.main_arg0 (by decide)).trans (Cert.Kernel.Hand.W5_main_arg0 m ρ c),
     (h c Cert.Kernel.main_arg1 (by decide)).trans (Cert.Kernel.Hand.W5_main_arg1 m ρ c),
     (h c Cert.Kernel.main_arg2 (by decide)).trans (Cert.Kernel.Hand.W5_main_arg2 m ρ c),
     (h c Cert.Kernel.main_arg3 (by decide)).trans (Cert.Kernel.Hand.W5_main_arg3 m ρ c),
     (h c Cert.Kernel.main_arg4 (by decide)).trans (Cert.Kernel.Hand.W5_main_arg4 m ρ c),
     (h c Cert.Kernel.main_arg5 (by decide)).trans (Cert.Kernel.Hand.W5_main_arg5 m ρ c),
     (h c Cert.Kernel.main_arg6 (by decide)).trans (Cert.Kernel.Hand.W5_main_arg6 m ρ c),
     (h c Cert.Kernel.main_arg7 (by decide)).trans (Cert.Kernel.Hand.W5_main_arg7 m ρ c),
     (h c Cert.Kernel.main_arg8 (by decide)).trans (Cert.Kernel.Hand.W5_main_arg8 m ρ c),
     (h c Cert.Kernel.main_arg9 (by decide)).trans (Cert.Kernel.Hand.W5_main_arg9 m ρ c),
     (h c Cert.Kernel.main_arg10 (by decide)).trans (Cert.Kernel.Hand.W5_main_arg10 m ρ c),
     (h c Cert.Kernel.main_arg11 (by decide)).trans (Cert.Kernel.Hand.W5_main_arg11 m ρ c),
     (h c Cert.Kernel.main_arg12 (by decide)).trans (Cert.Kernel.Hand.W5_main_arg12 m ρ c),
     (h c Cert.Kernel.main_arg13 (by decide)).trans (Cert.Kernel.Hand.W5_main_arg13 m ρ c),
     (h c Cert.Kernel.main_arg14 (by decide)).trans (Cert.Kernel.Hand.W5_main_arg14 m ρ c)⟩)
    (Cert.Kernel.Hand.run_all (F := Bits) m ρ)

/-- So does the idealized kernel. -/
theorem frame_ki : Cert.frame_KernelIdeal := fun m ρ _ => (θ_run (Cert.KernelIdeal.defs (F := Ideal)) _ _).mono (fun r h c =>
    ⟨(h c Cert.KernelIdeal.main_arg0 (by decide)).trans (Cert.KernelIdeal.Hand.W5_main_arg0 m ρ c),
     (h c Cert.KernelIdeal.main_arg1 (by decide)).trans (Cert.KernelIdeal.Hand.W5_main_arg1 m ρ c),
     (h c Cert.KernelIdeal.main_arg2 (by decide)).trans (Cert.KernelIdeal.Hand.W5_main_arg2 m ρ c),
     (h c Cert.KernelIdeal.main_arg3 (by decide)).trans (Cert.KernelIdeal.Hand.W5_main_arg3 m ρ c),
     (h c Cert.KernelIdeal.main_arg4 (by decide)).trans (Cert.KernelIdeal.Hand.W5_main_arg4 m ρ c),
     (h c Cert.KernelIdeal.main_arg5 (by decide)).trans (Cert.KernelIdeal.Hand.W5_main_arg5 m ρ c),
     (h c Cert.KernelIdeal.main_arg6 (by decide)).trans (Cert.KernelIdeal.Hand.W5_main_arg6 m ρ c),
     (h c Cert.KernelIdeal.main_arg7 (by decide)).trans (Cert.KernelIdeal.Hand.W5_main_arg7 m ρ c),
     (h c Cert.KernelIdeal.main_arg8 (by decide)).trans (Cert.KernelIdeal.Hand.W5_main_arg8 m ρ c),
     (h c Cert.KernelIdeal.main_arg9 (by decide)).trans (Cert.KernelIdeal.Hand.W5_main_arg9 m ρ c),
     (h c Cert.KernelIdeal.main_arg10 (by decide)).trans (Cert.KernelIdeal.Hand.W5_main_arg10 m ρ c),
     (h c Cert.KernelIdeal.main_arg11 (by decide)).trans (Cert.KernelIdeal.Hand.W5_main_arg11 m ρ c),
     (h c Cert.KernelIdeal.main_arg12 (by decide)).trans (Cert.KernelIdeal.Hand.W5_main_arg12 m ρ c),
     (h c Cert.KernelIdeal.main_arg13 (by decide)).trans (Cert.KernelIdeal.Hand.W5_main_arg13 m ρ c),
     (h c Cert.KernelIdeal.main_arg14 (by decide)).trans (Cert.KernelIdeal.Hand.W5_main_arg14 m ρ c)⟩)
    (Cert.KernelIdeal.Hand.run_all (F := Ideal) m ρ)

/-- The reference's frame is its run with the results dropped. -/
theorem frame_ri : Cert.frame_ReferenceIdeal := fun m ρ _ =>
  (θ_run (Cert.ReferenceIdeal.defs (F := Ideal)) _ _).mono (fun _ h c => (h c).2.2.2.2.2) (Cert.ReferenceIdeal.Value.run (F := Ideal) m ρ)

/-- The idealization rewrote nothing. -/
theorem preserves : Cert.preserves_Kernel_KernelIdeal := trivial

/-- Both idealized programs end with the five arrays of Spec.lean of the (agreeing) arguments. -/
theorem algebraic : Cert.algebraic_KernelIdeal_ReferenceIdeal := by
  intro m ρ m' ρ' hpre hagree
  refine ⟨fun c => Cert.Spec.Y0 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.Y1 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.Y2 (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.Y3 (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.Y4 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · -- the kernel: the run's last fold read at the five results and at the arguments
    refine (θ_run (Cert.KernelIdeal.defs (F := Ideal)) _ _).mono (fun r h c => ?_) (Cert.KernelIdeal.Hand.run_all (F := Ideal) m ρ)
    have ht1 := (Cert.KernelIdeal.Hand.W3_of_ne m ρ c Cert.KernelIdeal.main_v7 (by decide)).trans (Cert.KernelIdeal.KVal.t1_arr m ρ c)
    have ht3 := Cert.KernelIdeal.KVal.t3_arr m ρ c
    exact ⟨(h c Cert.KernelIdeal.main_v11_0 (by decide)).trans (Cert.KernelIdeal.KVal.y0_arr m ρ c ht1 ht3),
      (h c Cert.KernelIdeal.main_v11_1 (by decide)).trans (Cert.KernelIdeal.KVal.y1_arr m ρ c ht1 ht3),
      (h c Cert.KernelIdeal.main_v11_2 (by decide)).trans (Cert.KernelIdeal.KVal.y2_arr m ρ c ht1 ht3),
      (h c Cert.KernelIdeal.main_v11_3 (by decide)).trans (Cert.KernelIdeal.KVal.y3_arr m ρ c ht1 ht3),
      (h c Cert.KernelIdeal.main_v8_1 (by decide)).trans ((Cert.KernelIdeal.KVal.y4_end m ρ c).trans (Cert.KernelIdeal.KVal.y4_arr m ρ c)),
      (h c Cert.KernelIdeal.main_arg0 (by decide)).trans (Cert.KernelIdeal.Hand.W5_main_arg0 m ρ c),
      (h c Cert.KernelIdeal.main_arg1 (by decide)).trans (Cert.KernelIdeal.Hand.W5_main_arg1 m ρ c),
      (h c Cert.KernelIdeal.main_arg2 (by decide)).trans (Cert.KernelIdeal.Hand.W5_main_arg2 m ρ c),
      (h c Cert.KernelIdeal.main_arg3 (by decide)).trans (Cert.KernelIdeal.Hand.W5_main_arg3 m ρ c),
      (h c Cert.KernelIdeal.main_arg4 (by decide)).trans (Cert.KernelIdeal.Hand.W5_main_arg4 m ρ c),
      (h c Cert.KernelIdeal.main_arg5 (by decide)).trans (Cert.KernelIdeal.Hand.W5_main_arg5 m ρ c),
      (h c Cert.KernelIdeal.main_arg6 (by decide)).trans (Cert.KernelIdeal.Hand.W5_main_arg6 m ρ c),
      (h c Cert.KernelIdeal.main_arg7 (by decide)).trans (Cert.KernelIdeal.Hand.W5_main_arg7 m ρ c),
      (h c Cert.KernelIdeal.main_arg8 (by decide)).trans (Cert.KernelIdeal.Hand.W5_main_arg8 m ρ c),
      (h c Cert.KernelIdeal.main_arg9 (by decide)).trans (Cert.KernelIdeal.Hand.W5_main_arg9 m ρ c),
      (h c Cert.KernelIdeal.main_arg10 (by decide)).trans (Cert.KernelIdeal.Hand.W5_main_arg10 m ρ c),
      (h c Cert.KernelIdeal.main_arg11 (by decide)).trans (Cert.KernelIdeal.Hand.W5_main_arg11 m ρ c),
      (h c Cert.KernelIdeal.main_arg12 (by decide)).trans (Cert.KernelIdeal.Hand.W5_main_arg12 m ρ c),
      (h c Cert.KernelIdeal.main_arg13 (by decide)).trans (Cert.KernelIdeal.Hand.W5_main_arg13 m ρ c),
      (h c Cert.KernelIdeal.main_arg14 (by decide)).trans (Cert.KernelIdeal.Hand.W5_main_arg14 m ρ c)⟩
  · -- the reference: its run at the specification, the arguments' agreement rewritten
    have hreal : ∀ c : Dev Cert.ReferenceIdeal.nD,
        AllReal (m' ((c.tc : Thread Cert.ReferenceIdeal.nD Cert.ReferenceIdeal.τ).loc Cert.ReferenceIdeal.main_arg0)) ∧ AllReal (m' ((c.tc : Thread Cert.ReferenceIdeal.nD Cert.ReferenceIdeal.τ).loc Cert.ReferenceIdeal.main_arg3)) ∧ AllReal (m' ((c.tc : Thread Cert.ReferenceIdeal.nD Cert.ReferenceIdeal.τ).loc Cert.ReferenceIdeal.main_arg13)) := fun c => by
      have ha := hagree c
      rw [ha.1, ha.2.2.2.1, ha.2.2.2.2.2.2.2.2.2.2.2.2.2.1]
      exact Cert.RefSide.real_of_pre m hpre c
    refine (θ_run (Cert.ReferenceIdeal.defs (F := Ideal)) _ _).mono (fun r h c => ?_) (Cert.RefSide.run m' ρ' hreal)
    have ha := hagree c
    obtain ⟨h0, h1, h2, h3, h4, hargs⟩ := h c
    refine ⟨?_, ?_, ?_, ?_, ?_, hargs⟩
    · rw [h0, ha.2.2.2.2.1, ha.2.2.2.2.2.1, ha.2.2.2.2.2.2.1]
    · rw [h1, ha.2.1, ha.2.2.2.1, ha.2.2.2.2.2.2.2.1, ha.2.2.2.2.2.2.2.2.1]
    · rw [h2, ha.2.2.2.1, ha.2.2.2.2.2.2.2.2.2.1, ha.2.2.2.2.2.2.2.2.2.2.1]
    · rw [h3, ha.2.2.1, ha.2.2.2.2.1, ha.2.2.2.2.2.2.2.2.2.2.2.1, ha.2.2.2.2.2.2.2.2.2.2.2.2.1]
    · rw [h4, ha.1, ha.2.2.2.1, ha.2.2.2.2.2.2.2.2.2.2.2.2.2.1, ha.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
